-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x1024 : Shape := ⟨2, ![4096, 1024]⟩
abbrev S4096x4096 : Shape := ⟨2, ![4096, 4096]⟩
abbrev S512x1024 : Shape := ⟨2, ![512, 1024]⟩
abbrev S512 : Shape := ⟨1, ![512]⟩
abbrev S512x1 : Shape := ⟨2, ![512, 1]⟩
abbrev S1x1 : Shape := ⟨2, ![1, 1]⟩
abbrev S512x512 : Shape := ⟨2, ![512, 512]⟩
abbrev S1024x512 : Shape := ⟨2, ![1024, 512]⟩
abbrev S1 : Shape := ⟨1, ![1]⟩
abbrev S_ : Shape := ⟨0, ![]⟩

abbrev nBuf : Space → Nat
  | .hbm => 11
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S1x1, .f32⟩
  | .local _ .vmem, ⟨21, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc3_stg4_0 : Ref sig .tc := ⟨.vmem, 20, rfl⟩
abbrev cc3_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19
abbrev cc3_sem4_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S512x1024_S512x1024 : S512x1024.ShapeCasts S512x1024
  transposes_S512x1024_p1_0_S1024x512 : S512x1024.Transposes [1, 0] S1024x512
  inb_S512x512_S512x512_0_0 : ∀ a, (![0, 0] : Fin 2 → Nat) a + S512x512.size a ≤ S512x512.size a
  h_S512x512 : 0 < S512x512.numel
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x1024.size a
  hwx2_1 : ∀ i : grid2.Coords, EltTy.bits .bf16 = 32 ∨ (Rect.block (s := S4096x1024) S512x1024.size (cc2_transform_1 i) (hinb2_1 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x1024.size a
  hwx3_0 : ∀ i : grid3.Coords, EltTy.bits .bf16 = 32 ∨ (Rect.block (s := S4096x1024) S512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S4096x1024.size a
  hwx3_1 : ∀ i : grid3.Coords, EltTy.bits .bf16 = 32 ∨ (Rect.block (s := S4096x1024) S512x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S4096x1024.size a
  hwx3_2 : ∀ i : grid3.Coords, EltTy.bits .bf16 = 32 ∨ (Rect.block (s := S4096x1024) S512x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S4096x4096.size a
  hwx3_3 : ∀ i : grid3.Coords, EltTy.bits .f32 = 32 ∨ (Rect.block (s := S4096x4096) S512x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x1024.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v0) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S512x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v3) S1x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_call2_v2 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S4096x4096 : S_.BroadcastsInDim S4096x4096 (![] : Fin 0 → Fin S4096x4096.rank)
  reducesTo_S4096x4096_S_d0_1 : S4096x4096.ReducesTo [0, 1] S_
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.FrNormK.lean ====
/-
  The three row-normalization launches, each seen from inside one launch.

  Each of the three launches walks a 4096 × 1024 matrix in eight blocks of 512 rows. At a grid point the body
  reads the point's block `x`, and overwrites the output block with `x i k / max (sqrt (∑ k', x i k' ^ 2)) eps`.
  This module states, for each launch, what every window's staging block holds before and after the body at every
  point, as a function of the arrays the launch finds (a parameter `V`), and proves that the body run from the
  former ends in the latter: the launch's body obligation. Nothing here depends on the float instance.
-/
import proofs.«171225_j23708219474596_1_alg».proof.Proof.Gen.Kernel.Launch
import proofs.«171225_j23708219474596_1_alg».proof.Proof.Gen.Kernel.Skeleton
import proofs.«171225_j23708219474596_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the whole-block rectangle is decided coordinate by coordinate along the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when a launch is entered: the parameter everything below is stated at
variable (V : (c : Dev nD) → (b : Ref sig .tc) → Buf (Elt F) ((c : Thread nD τ).loc b))

/-! # Region 0: the row-normalization of the first matrix, one block of 512 rows per grid point -/

/-- Window `w`'s block at point `t`: the rows the point works on, read off the window's array as the region
    finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block of rows when the body starts, whether the block was
    fetched at this point or carried over: for any proof data whose input array is the entry contents and whose
    body leaves the input block in place. -/
theorem before0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole 512 × 1024 block: the one rectangle the body loads and the one it stores. -/
abbrev whole0 : Rect S512x1024 := Rect.unit (s := S512x1024) ![0, 0] S512x1024.size inb_S512x1024_S512x1024_0_0

/-- What the body leaves in the output block, as a function of the input block: every row divided by its
    clamped Euclidean norm, written by one store of the whole block. -/
def normed0 (x0 : Vec F S512x1024 .f32) : Vec F S512x1024 .bf16 :=
  View.canon [⟨whole0, k0_pay1 (View.ld x0 whole0)⟩]

/-- The one store is of the whole block, so it covers every entry of the output block. -/
theorem cover0 (p0 : Vec F S512x1024 .bf16) (y : S512x1024.Idx) :
    ∃ pc ∈ ([⟨whole0, p0⟩] : List (View.Piece (Elt F) S512x1024 .bf16)), y ∈ pc.1.set :=
  View.cover_of_tiled [⟨whole0, p0⟩] S512x1024.size (by rfl) y

set_option maxHeartbeats 1000000 in
/-- The body on whole staging blocks: from the input block at `x0` and the output block at anything it ends with
    the input block unchanged and the output block at the normalized rows of `x0`. The body reads the input block
    once, reads the output block (the value is not used) and overwrites it whole. -/
theorem body_run0 (c : Dev nD) (E : Set ℕ) (i : grid0.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normed0 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The proof data of region 0 on core `c`: the arrays as the region finds them; after the body at point `t` the
    input block is the point's rows and the output block their normalization; the scoped rest and the generator
    register are untouched; nothing is owed; full shares. -/
def rowsDat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => normed0 (blk0 V c 0 t)
  Φ _ := Pipeline.ΦA spec0 c
  q _ := fullShare
  owed _ := 0

/-- The proof data's arrays are the region-entry contents. -/
theorem rowsDat0_A (c : Dev nD) (w : Fin cfg0.W) : (rowsDat0 V c).A w = V c (Pipeline.arrRef spec0 w) := by
  dsimp only [rowsDat0]

/-- What the body leaves in the input block: the point's rows. -/
theorem rowsDat0_after0 (c : Dev nD) (t : Fin cfg0.N) : (rowsDat0 V c).after 0 t = blk0 V c 0 t := by dsimp only [rowsDat0]
/-- What the body leaves in the output block: the point's rows, normalized. -/
theorem rowsDat0_after1 (c : Dev nD) (t : Fin cfg0.N) : (rowsDat0 V c).after 1 t = normed0 (blk0 V c 0 t) := by dsimp only [rowsDat0]

/-- The input block when the body starts is the point's rows. -/
theorem rowsDat0_before0 (c : Dev nD) (t : Fin cfg0.N) (d) : (rowsDat0 V c).before 0 t d = blk0 V c 0 t :=
  before0_of V (rowsDat0 V c) (rowsDat0_A V c 0) (rowsDat0_after0 V c) t d

/-- What the body is called with at point `t`: the invariant, what the core owes, and the two staging blocks. -/
def rowsPre0 (c : Dev nD) (t : Fin cfg0.N) : sProp 𝕄 :=
  iprop((rowsDat0 V c).Φ t.castSucc ∗ (rowsDat0 V c).owesAt () t.castSucc
    ∗ (∃ d, owns (c : Thread nD τ) (st0_0 t) fullShare ((rowsDat0 V c).before 0 t d))
    ∗ (∃ d, owns (c : Thread nD τ) (st0_1 t) fullShare ((rowsDat0 V c).before 1 t d)))

/-- What it returns. -/
def rowsPost0 (c : Dev nD) (t : Fin cfg0.N) : sProp 𝕄 :=
  iprop((rowsDat0 V c).Φ t.succ ∗ (rowsDat0 V c).owesAt () t.succ
    ∗ owns (c : Thread nD τ) (st0_0 t) fullShare ((rowsDat0 V c).after 0 t)
    ∗ owns (c : Thread nD τ) (st0_1 t) fullShare ((rowsDat0 V c).after 1 t))

/-- The body at any point: the input staging block holds the point's rows, so the body's run applies; the invariant
    and what the core owes pass through unread. -/
theorem rows_body0 (c : Dev nD) (t : Fin cfg0.N) :
    rowsPre0 V c t ⊢ wp frame (wpE (defs₀ (F := F)) Variants.none c none) Set.univ (bodyAt0 t) (fun _ => rowsPost0 V c t) := by
  unfold rowsPre0 rowsPost0 bodyAt0
  simp only [rowsDat0_before0]
  rw [show (rowsDat0 V c).Φ t.succ = (rowsDat0 V c).Φ t.castSucc from rfl,
    show (rowsDat0 V c).owesAt () t.succ = (rowsDat0 V c).owesAt () t.castSucc from rfl,
    rowsDat0_after0, rowsDat0_after1]
  iintro ⟨HΦ, Ho, ⟨%d0, H0⟩, ⟨%d1, H1⟩⟩
  iapply (body_run0 c Set.univ (grid0.coords t) _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 0, at every point. -/
theorem rows_obligation0 (c : Dev nD) : BodyObligation (rowsDat0 (F := F) V c) (defs₀ (F := F)) Variants.none () Set.univ := fun t => by
  rw [bigSep_W0, bigSep_W0]
  exact rows_body0 V c t

/-! # Region 1: the row-normalization of the second matrix, one block of 512 rows per grid point -/

/-- Window `w`'s block at point `t`: the rows the point works on, read off the window's array as the region
    finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block of rows when the body starts, whether the block was
    fetched at this point or carried over: for any proof data whose input array is the entry contents and whose
    body leaves the input block in place. -/
theorem before1_of {c : Dev nD} (dat : Dat τ (Elt F) Unit ℕ (Pipeline.UD sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The whole 512 × 1024 block: the one rectangle the body loads and the one it stores. -/
abbrev whole1 : Rect S512x1024 := Rect.unit (s := S512x1024) ![0, 0] S512x1024.size inb_S512x1024_S512x1024_0_0

/-- What the body leaves in the output block, as a function of the input block: every row divided by its
    clamped Euclidean norm, written by one store of the whole block. -/
def normed1 (x0 : Vec F S512x1024 .f32) : Vec F S512x1024 .bf16 :=
  View.canon [⟨whole1, k1_pay1 (View.ld x0 whole1)⟩]

/-- The one store is of the whole block, so it covers every entry of the output block. -/
theorem cover1 (p0 : Vec F S512x1024 .bf16) (y : S512x1024.Idx) :
    ∃ pc ∈ ([⟨whole1, p0⟩] : List (View.Piece (Elt F) S512x1024 .bf16)), y ∈ pc.1.set :=
  View.cover_of_tiled [⟨whole1, p0⟩] S512x1024.size (by rfl) y

set_option maxHeartbeats 1000000 in
/-- The body on whole staging blocks: from the input block at `x0` and the output block at anything it ends with
    the input block unchanged and the output block at the normalized rows of `x0`. The body reads the input block
    once, reads the output block (the value is not used) and overwrites it whole. -/
theorem body_run1 (c : Dev nD) (E : Set ℕ) (i : grid1.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normed1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-- The proof data of region 1 on core `c`: the arrays as the region finds them; after the body at point `t` the
    input block is the point's rows and the output block their normalization; the scoped rest and the generator
    register are untouched; nothing is owed; full shares. -/
def rowsDat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => normed1 (blk1 V c 0 t)
  Φ _ := Pipeline.ΦA spec1 c
  q _ := fullShare
  owed _ := 0

/-- The proof data's arrays are the region-entry contents. -/
theorem rowsDat1_A (c : Dev nD) (w : Fin cfg1.W) : (rowsDat1 V c).A w = V c (Pipeline.arrRef spec1 w) := by
  dsimp only [rowsDat1]

/-- What the body leaves in the input block: the point's rows. -/
theorem rowsDat1_after0 (c : Dev nD) (t : Fin cfg1.N) : (rowsDat1 V c).after 0 t = blk1 V c 0 t := by dsimp only [rowsDat1]
/-- What the body leaves in the output block: the point's rows, normalized. -/
theorem rowsDat1_after1 (c : Dev nD) (t : Fin cfg1.N) : (rowsDat1 V c).after 1 t = normed1 (blk1 V c 0 t) := by dsimp only [rowsDat1]

/-- The input block when the body starts is the point's rows. -/
theorem rowsDat1_before0 (c : Dev nD) (t : Fin cfg1.N) (d) : (rowsDat1 V c).before 0 t d = blk1 V c 0 t :=
  before1_of V (rowsDat1 V c) (rowsDat1_A V c 0) (rowsDat1_after0 V c) t d

/-- What the body is called with at point `t`: the invariant, what the core owes, and the two staging blocks. -/
def rowsPre1 (c : Dev nD) (t : Fin cfg1.N) : sProp 𝕄 :=
  iprop((rowsDat1 V c).Φ t.castSucc ∗ (rowsDat1 V c).owesAt () t.castSucc
    ∗ (∃ d, owns (c : Thread nD τ) (st1_0 t) fullShare ((rowsDat1 V c).before 0 t d))
    ∗ (∃ d, owns (c : Thread nD τ) (st1_1 t) fullShare ((rowsDat1 V c).before 1 t d)))

/-- What it returns. -/
def rowsPost1 (c : Dev nD) (t : Fin cfg1.N) : sProp 𝕄 :=
  iprop((rowsDat1 V c).Φ t.succ ∗ (rowsDat1 V c).owesAt () t.succ
    ∗ owns (c : Thread nD τ) (st1_0 t) fullShare ((rowsDat1 V c).after 0 t)
    ∗ owns (c : Thread nD τ) (st1_1 t) fullShare ((rowsDat1 V c).after 1 t))

/-- The body at any point: the input staging block holds the point's rows, so the body's run applies; the invariant
    and what the core owes pass through unread. -/
theorem rows_body1 (c : Dev nD) (t : Fin cfg1.N) :
    rowsPre1 V c t ⊢ wp frame (wpE (defs₀ (F := F)) Variants.none c none) Set.univ (bodyAt1 t) (fun _ => rowsPost1 V c t) := by
  unfold rowsPre1 rowsPost1 bodyAt1
  simp only [rowsDat1_before0]
  rw [show (rowsDat1 V c).Φ t.succ = (rowsDat1 V c).Φ t.castSucc from rfl,
    show (rowsDat1 V c).owesAt () t.succ = (rowsDat1 V c).owesAt () t.castSucc from rfl,
    rowsDat1_after0, rowsDat1_after1]
  iintro ⟨HΦ, Ho, ⟨%d0, H0⟩, ⟨%d1, H1⟩⟩
  iapply (body_run1 c Set.univ (grid1.coords t) _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 1, at every point. -/
theorem rows_obligation1 (c : Dev nD) : BodyObligation (rowsDat1 (F := F) V c) (defs₀ (F := F)) Variants.none () Set.univ := fun t => by
  rw [bigSep_W1, bigSep_W1]
  exact rows_body1 V c t

/-! # Region 2: the row-normalization of the third matrix, one block of 512 rows per grid point -/

/-- Window `w`'s block at point `t`: the rows the point works on, read off the window's array as the region
    finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds the point's block of rows when the body starts, whether the block was
    fetched at this point or carried over: for any proof data whose input array is the entry contents and whose
    body leaves the input block in place. -/
theorem before2_of {c : Dev nD} (dat : Dat τ (Elt F) Unit ℕ (Pipeline.UD sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The whole 512 × 1024 block: the one rectangle the body loads and the one it stores. -/
abbrev whole2 : Rect S512x1024 := Rect.unit (s := S512x1024) ![0, 0] S512x1024.size inb_S512x1024_S512x1024_0_0

/-- What the body leaves in the output block, as a function of the input block: every row divided by its
    clamped Euclidean norm, written by one store of the whole block. -/
def normed2 (x0 : Vec F S512x1024 .f32) : Vec F S512x1024 .bf16 :=
  View.canon [⟨whole2, k2_pay1 (View.ld x0 whole2)⟩]

/-- The one store is of the whole block, so it covers every entry of the output block. -/
theorem cover2 (p0 : Vec F S512x1024 .bf16) (y : S512x1024.Idx) :
    ∃ pc ∈ ([⟨whole2, p0⟩] : List (View.Piece (Elt F) S512x1024 .bf16)), y ∈ pc.1.set :=
  View.cover_of_tiled [⟨whole2, p0⟩] S512x1024.size (by rfl) y

set_option maxHeartbeats 1000000 in
/-- The body on whole staging blocks: from the input block at `x0` and the output block at anything it ends with
    the input block unchanged and the output block at the normalized rows of `x0`. The body reads the input block
    once, reads the output block (the value is not used) and overwrites it whole. -/
theorem body_run2 (c : Dev nD) (E : Set ℕ) (i : grid2.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normed2 x0)) -∗ K ⟨⟩))
      ⊢ wp frame (wpE (defs₀ (F := F)) Variants.none c none) E (cc2__normalize_kernel i arg1 harg1 arg2 harg2) K := by
  simp only [cc2__normalize_kernel_eq_skeleton]; unfold cc2__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2 _)

/-- The proof data of region 2 on core `c`: the arrays as the region finds them; after the body at point `t` the
    input block is the point's rows and the output block their normalization; the scoped rest and the generator
    register are untouched; nothing is owed; full shares. -/
def rowsDat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => normed2 (blk2 V c 0 t)
  Φ _ := Pipeline.ΦA spec2 c
  q _ := fullShare
  owed _ := 0

/-- The proof data's arrays are the region-entry contents. -/
theorem rowsDat2_A (c : Dev nD) (w : Fin cfg2.W) : (rowsDat2 V c).A w = V c (Pipeline.arrRef spec2 w) := by
  dsimp only [rowsDat2]

/-- What the body leaves in the input block: the point's rows. -/
theorem rowsDat2_after0 (c : Dev nD) (t : Fin cfg2.N) : (rowsDat2 V c).after 0 t = blk2 V c 0 t := by dsimp only [rowsDat2]
/-- What the body leaves in the output block: the point's rows, normalized. -/
theorem rowsDat2_after1 (c : Dev nD) (t : Fin cfg2.N) : (rowsDat2 V c).after 1 t = normed2 (blk2 V c 0 t) := by dsimp only [rowsDat2]

/-- The input block when the body starts is the point's rows. -/
theorem rowsDat2_before0 (c : Dev nD) (t : Fin cfg2.N) (d) : (rowsDat2 V c).before 0 t d = blk2 V c 0 t :=
  before2_of V (rowsDat2 V c) (rowsDat2_A V c 0) (rowsDat2_after0 V c) t d

/-- What the body is called with at point `t`: the invariant, what the core owes, and the two staging blocks. -/
def rowsPre2 (c : Dev nD) (t : Fin cfg2.N) : sProp 𝕄 :=
  iprop((rowsDat2 V c).Φ t.castSucc ∗ (rowsDat2 V c).owesAt () t.castSucc
    ∗ (∃ d, owns (c : Thread nD τ) (st2_0 t) fullShare ((rowsDat2 V c).before 0 t d))
    ∗ (∃ d, owns (c : Thread nD τ) (st2_1 t) fullShare ((rowsDat2 V c).before 1 t d)))

/-- What it returns. -/
def rowsPost2 (c : Dev nD) (t : Fin cfg2.N) : sProp 𝕄 :=
  iprop((rowsDat2 V c).Φ t.succ ∗ (rowsDat2 V c).owesAt () t.succ
    ∗ owns (c : Thread nD τ) (st2_0 t) fullShare ((rowsDat2 V c).after 0 t)
    ∗ owns (c : Thread nD τ) (st2_1 t) fullShare ((rowsDat2 V c).after 1 t))

/-- The body at any point: the input staging block holds the point's rows, so the body's run applies; the invariant
    and what the core owes pass through unread. -/
theorem rows_body2 (c : Dev nD) (t : Fin cfg2.N) :
    rowsPre2 V c t ⊢ wp frame (wpE (defs₀ (F := F)) Variants.none c none) Set.univ (bodyAt2 t) (fun _ => rowsPost2 V c t) := by
  unfold rowsPre2 rowsPost2 bodyAt2
  simp only [rowsDat2_before0]
  rw [show (rowsDat2 V c).Φ t.succ = (rowsDat2 V c).Φ t.castSucc from rfl,
    show (rowsDat2 V c).owesAt () t.succ = (rowsDat2 V c).owesAt () t.castSucc from rfl,
    rowsDat2_after0, rowsDat2_after1]
  iintro ⟨HΦ, Ho, ⟨%d0, H0⟩, ⟨%d1, H1⟩⟩
  iapply (body_run2 c Set.univ (grid2.coords t) _ _ _ _ (blk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 2, at every point. -/
theorem rows_obligation2 (c : Dev nD) : BodyObligation (rowsDat2 (F := F) V c) (defs₀ (F := F)) Variants.none () Set.univ := fun t => by
  rw [bigSep_W2, bigSep_W2]
  exact rows_body2 V c t

end Cert.Kernel.Fr

end
-- ==== Proof.FrLossRunK.lean ====
/-
  The loss kernel's body, run once for each of its two control cases.

  The body adds one 512 x 512 tile's summed cost to a 1 x 1 accumulator kept in scratch memory and copies the
  accumulator to the 1 x 1 output block. At the grid's first point (both coordinates zero) it first stores zero into
  the accumulator; at every other point it reads what the point before left there. Each case is the body's triple on
  whole staging buffers: the four input blocks come back as they were, and the output block and the accumulator end
  with the body's stores written, as lists of pieces which the symbolic run finds.
-/
import proofs.«171225_j23708219474596_1_alg».proof.Proof.Gen.Kernel.Launch
import proofs.«171225_j23708219474596_1_alg».proof.Proof.Gen.Kernel.Skeleton
import proofs.«171225_j23708219474596_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The branch condition -/

/-- The condition of the body's one `scf.if`, from the grid coordinates: both are zero. -/
abbrev first3 (i : grid3.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the 64 points only, decided over the grid. -/
theorem first3_iff : ∀ t : Fin cfg3.N, first3 (grid3.coords t) ↔ t.val = 0 :=
  (by decide +kernel : ∀ t : Fin grid3.N, first3 (grid3.coords t) ↔ t.val = 0)

/-! ## The memrefs the body is called with -/

/-- Each window's current staging memref at point `t`, as the pipeline passes it, and its wholeness. -/
abbrev mem3_0 (t : Fin cfg3.N) : Memref sig .tc .vmem S512x1024 .bf16 := win3_0.stage (cfg3.slots t 0)
abbrev whole3_0 (t : Fin cfg3.N) : (mem3_0 t).IsWhole := hstage3_0 ((cfg3.slots t 0).cast nbuf3_0)
abbrev mem3_1 (t : Fin cfg3.N) : Memref sig .tc .vmem S512x1024 .bf16 := win3_1.stage (cfg3.slots t 1)
abbrev whole3_1 (t : Fin cfg3.N) : (mem3_1 t).IsWhole := hstage3_1 ((cfg3.slots t 1).cast nbuf3_1)
abbrev mem3_2 (t : Fin cfg3.N) : Memref sig .tc .vmem S512x1024 .bf16 := win3_2.stage (cfg3.slots t 2)
abbrev whole3_2 (t : Fin cfg3.N) : (mem3_2 t).IsWhole := hstage3_2 ((cfg3.slots t 2).cast nbuf3_2)
abbrev mem3_3 (t : Fin cfg3.N) : Memref sig .tc .vmem S512x512 .f32 := win3_3.stage (cfg3.slots t 3)
abbrev whole3_3 (t : Fin cfg3.N) : (mem3_3 t).IsWhole := hstage3_3 ((cfg3.slots t 3).cast nbuf3_3)
abbrev mem3_4 (t : Fin cfg3.N) : Memref sig .tc .vmem S1x1 .f32 := win3_4.stage (cfg3.slots t 4)
abbrev whole3_4 (t : Fin cfg3.N) : (mem3_4 t).IsWhole := hstage3_4 ((cfg3.slots t 4).cast nbuf3_4)
/-- The accumulator: a whole scoped buffer of the kernel's own. -/
abbrev acc3 : Memref sig .tc .vmem S1x1 .f32 := Memref.whole cc3_scratch0
/-- The views through which the output block's and the accumulator's contents are stated. -/
abbrev outView3 : View sig .tc .vmem S1x1 .f32 := (Memref.whole cc3_stg4_0 : Memref sig .tc .vmem S1x1 .f32).view
abbrev accView3 : View sig .tc .vmem S1x1 .f32 := acc3.view

/-! ## The two runs -/

set_option maxHeartbeats 1000000 in
/-- At the first point: the accumulator may hold anything; the body zeroes it, adds the tile's sum, and copies it out. -/
noncomputable def lossRunFirst (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i)
    (x0 x1 x2 : Vec F S512x1024 .bf16) (x3 : Vec F S512x512 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc3__loss_kernel i arg2 harg2 arg3 harg3 arg4 harg4 arg5 harg5 arg6 harg6 arg7 harg7) K } := by
  refine ⟨?_, ?_, fun E K => ?run⟩
  case run =>
    simp only [cc3__loss_kernel_eq_skeleton]; unfold cc3__loss_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

set_option maxHeartbeats 1000000 in
/-- At any later point: the accumulator holds `xs`, what the point before left; the body adds the tile's sum to it and
    copies it out. -/
noncomputable def lossRunNext (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i)
    (x0 x1 x2 : Vec F S512x1024 .bf16) (x3 : Vec F S512x512 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc3__loss_kernel i arg2 harg2 arg3 harg3 arg4 harg4 arg5 harg5 arg6 harg6 arg7 harg7) K } := by
  refine ⟨?_, ?_, fun E K => ?run⟩
  case run =>
    simp only [cc3__loss_kernel_eq_skeleton]; unfold cc3__loss_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Fr

end
-- ==== Proof.FrLossK.lean ====
/-
  The loss kernel's region: what its 64 grid points leave, point by point, and the body obligation.

  Point `n` of the 8 x 8 grid reads the three normalized blocks and the labels tile that belong to it and leaves in
  the accumulator, and in the output block, the previous point's accumulator plus the tile's summed cost (zero plus
  it at the first point): `lossAt`. The region's invariant says where the accumulator stands between points: before
  the first point the scratch may hold anything; before point `n + 1` it holds what point `n` left.
-/
import proofs.«171225_j23708219474596_1_alg».proof.Proof.Gen.Kernel.Launch
import proofs.«171225_j23708219474596_1_alg».proof.Proof.Gen.Kernel.Skeleton
import proofs.«171225_j23708219474596_1_alg».proof.Proof.Gen.Kernel.Points
import proofs.«171225_j23708219474596_1_alg».proof.Proof.FrLossRunK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the region is entered: the parameter the region's half is stated at
variable (V : (c : Dev nD) → (b : Ref sig .tc) → Buf (Elt F) ((c : Thread nD τ).loc b))

/-! ## The windows' blocks -/

/-- Window `w`'s block at point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is `V`'s and whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-! ## What the two cases leave -/

/-- The output block after the first point's run: its pieces read back. -/
def outFirst (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i) (x0 x1 x2 : Vec F S512x1024 .bf16) (x3 : Vec F S512x512 .f32) : Vec F S1x1 .f32 :=
  outView3.read (Elt F) (outView3.writes (Elt F) outView3.junk (lossRunFirst c i arg2 harg2 arg3 harg3 arg4 harg4 arg5 harg5 arg6 harg6 arg7 harg7 hc x0 x1 x2 x3).1)
/-- The accumulator after the first point's run. -/
def accFirst (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i) (x0 x1 x2 : Vec F S512x1024 .bf16) (x3 : Vec F S512x512 .f32) : Vec F S1x1 .f32 :=
  accView3.read (Elt F) (accView3.writes (Elt F) accView3.junk (lossRunFirst c i arg2 harg2 arg3 harg3 arg4 harg4 arg5 harg5 arg6 harg6 arg7 harg7 hc x0 x1 x2 x3).2.1)
/-- The output block after a later point's run, the accumulator found at `xs`. -/
def outNext (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i) (x0 x1 x2 : Vec F S512x1024 .bf16) (x3 : Vec F S512x512 .f32) (xs : Vec F S1x1 .f32) : Vec F S1x1 .f32 :=
  outView3.read (Elt F) (outView3.writes (Elt F) outView3.junk (lossRunNext c i arg2 harg2 arg3 harg3 arg4 harg4 arg5 harg5 arg6 harg6 arg7 harg7 hc x0 x1 x2 x3 xs).1)
/-- The accumulator after a later point's run. -/
def accNext (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i) (x0 x1 x2 : Vec F S512x1024 .bf16) (x3 : Vec F S512x512 .f32) (xs : Vec F S1x1 .f32) : Vec F S1x1 .f32 :=
  accView3.read (Elt F) (accView3.writes (Elt F) accView3.junk (lossRunNext c i arg2 harg2 arg3 harg3 arg4 harg4 arg5 harg5 arg6 harg6 arg7 harg7 hc x0 x1 x2 x3 xs).2.1)

/-- Each list of pieces covers its 1 x 1 buffer (every store writes the whole of it). -/
theorem cover_outFirst (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i) (x0 x1 x2 : Vec F S512x1024 .bf16) (x3 : Vec F S512x512 .f32) (y : S1x1.Idx) :
    ∃ pc ∈ (lossRunFirst c i arg2 harg2 arg3 harg3 arg4 harg4 arg5 harg5 arg6 harg6 arg7 harg7 hc x0 x1 x2 x3).1, y ∈ pc.1.set :=
  View.cover_of_tiledL (lossRunFirst c i arg2 harg2 arg3 harg3 arg4 harg4 arg5 harg5 arg6 harg6 arg7 harg7 hc x0 x1 x2 x3).1 S1x1.size (by sl_kernel_rfl) y
theorem cover_accFirst (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i) (x0 x1 x2 : Vec F S512x1024 .bf16) (x3 : Vec F S512x512 .f32) (y : S1x1.Idx) :
    ∃ pc ∈ (lossRunFirst c i arg2 harg2 arg3 harg3 arg4 harg4 arg5 harg5 arg6 harg6 arg7 harg7 hc x0 x1 x2 x3).2.1, y ∈ pc.1.set :=
  View.cover_of_tiledL (lossRunFirst c i arg2 harg2 arg3 harg3 arg4 harg4 arg5 harg5 arg6 harg6 arg7 harg7 hc x0 x1 x2 x3).2.1 S1x1.size (by sl_kernel_rfl) y
theorem cover_outNext (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i) (x0 x1 x2 : Vec F S512x1024 .bf16) (x3 : Vec F S512x512 .f32) (xs : Vec F S1x1 .f32) (y : S1x1.Idx) :
    ∃ pc ∈ (lossRunNext c i arg2 harg2 arg3 harg3 arg4 harg4 arg5 harg5 arg6 harg6 arg7 harg7 hc x0 x1 x2 x3 xs).1, y ∈ pc.1.set :=
  View.cover_of_tiledL (lossRunNext c i arg2 harg2 arg3 harg3 arg4 harg4 arg5 harg5 arg6 harg6 arg7 harg7 hc x0 x1 x2 x3 xs).1 S1x1.size (by sl_kernel_rfl) y
theorem cover_accNext (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i) (x0 x1 x2 : Vec F S512x1024 .bf16) (x3 : Vec F S512x512 .f32) (xs : Vec F S1x1 .f32) (y : S1x1.Idx) :
    ∃ pc ∈ (lossRunNext c i arg2 harg2 arg3 harg3 arg4 harg4 arg5 harg5 arg6 harg6 arg7 harg7 hc x0 x1 x2 x3 xs).2.1, y ∈ pc.1.set :=
  View.cover_of_tiledL (lossRunNext c i arg2 harg2 arg3 harg3 arg4 harg4 arg5 harg5 arg6 harg6 arg7 harg7 hc x0 x1 x2 x3 xs).2.1 S1x1.size (by sl_kernel_rfl) y

/-! ## The accumulation -/

/-- What the output block and the accumulator hold after the body at position `n` (output first): the first point's
    run on its blocks; a later point's run on its blocks and on the accumulator the point before left. -/
def lossAt (c : Dev nD) : (n : ℕ) → n < cfg3.N → Vec F S1x1 .f32 × Vec F S1x1 .f32
  | 0, hn =>
    (outFirst c (grid3.coords ⟨0, hn⟩) (mem3_0 ⟨0, hn⟩) (whole3_0 ⟨0, hn⟩) (mem3_1 ⟨0, hn⟩) (whole3_1 ⟨0, hn⟩) (mem3_2 ⟨0, hn⟩) (whole3_2 ⟨0, hn⟩) (mem3_3 ⟨0, hn⟩) (whole3_3 ⟨0, hn⟩) (mem3_4 ⟨0, hn⟩) (whole3_4 ⟨0, hn⟩) acc3 (Memref.isWhole_whole _) ((first3_iff ⟨0, hn⟩).mpr rfl) (blk3 V c 0 ⟨0, hn⟩) (blk3 V c 1 ⟨0, hn⟩) (blk3 V c 2 ⟨0, hn⟩) (blk3 V c 3 ⟨0, hn⟩),
     accFirst c (grid3.coords ⟨0, hn⟩) (mem3_0 ⟨0, hn⟩) (whole3_0 ⟨0, hn⟩) (mem3_1 ⟨0, hn⟩) (whole3_1 ⟨0, hn⟩) (mem3_2 ⟨0, hn⟩) (whole3_2 ⟨0, hn⟩) (mem3_3 ⟨0, hn⟩) (whole3_3 ⟨0, hn⟩) (mem3_4 ⟨0, hn⟩) (whole3_4 ⟨0, hn⟩) acc3 (Memref.isWhole_whole _) ((first3_iff ⟨0, hn⟩).mpr rfl) (blk3 V c 0 ⟨0, hn⟩) (blk3 V c 1 ⟨0, hn⟩) (blk3 V c 2 ⟨0, hn⟩) (blk3 V c 3 ⟨0, hn⟩))
  | n + 1, hn =>
    (outNext c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) (fun h => Nat.succ_ne_zero n ((first3_iff ⟨n + 1, hn⟩).mp h)) (blk3 V c 0 ⟨n + 1, hn⟩) (blk3 V c 1 ⟨n + 1, hn⟩) (blk3 V c 2 ⟨n + 1, hn⟩) (blk3 V c 3 ⟨n + 1, hn⟩) (lossAt c n (Nat.lt_of_succ_lt hn)).2,
     accNext c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) (fun h => Nat.succ_ne_zero n ((first3_iff ⟨n + 1, hn⟩).mp h)) (blk3 V c 0 ⟨n + 1, hn⟩) (blk3 V c 1 ⟨n + 1, hn⟩) (blk3 V c 2 ⟨n + 1, hn⟩) (blk3 V c 3 ⟨n + 1, hn⟩) (lossAt c n (Nat.lt_of_succ_lt hn)).2)

/-- `lossAt` at the first point. -/
theorem lossAt_first (c : Dev nD) (t : Fin cfg3.N) (h : t.val = 0) :
    lossAt V c t.val t.isLt =
      (outFirst c (grid3.coords t) (mem3_0 t) (whole3_0 t) (mem3_1 t) (whole3_1 t) (mem3_2 t) (whole3_2 t) (mem3_3 t) (whole3_3 t) (mem3_4 t) (whole3_4 t) acc3 (Memref.isWhole_whole _) ((first3_iff t).mpr h) (blk3 V c 0 t) (blk3 V c 1 t) (blk3 V c 2 t) (blk3 V c 3 t),
       accFirst c (grid3.coords t) (mem3_0 t) (whole3_0 t) (mem3_1 t) (whole3_1 t) (mem3_2 t) (whole3_2 t) (mem3_3 t) (whole3_3 t) (mem3_4 t) (whole3_4 t) acc3 (Memref.isWhole_whole _) ((first3_iff t).mpr h) (blk3 V c 0 t) (blk3 V c 1 t) (blk3 V c 2 t) (blk3 V c 3 t)) := by
  obtain ⟨n, hn⟩ := t
  cases n with
  | zero => rfl
  | succ n => exact absurd h (Nat.succ_ne_zero n)

/-- `lossAt` at a later point, over what the point before left in the accumulator. -/
theorem lossAt_next (c : Dev nD) (t : Fin cfg3.N) (h : t.val ≠ 0) :
    lossAt V c t.val t.isLt =
      (outNext c (grid3.coords t) (mem3_0 t) (whole3_0 t) (mem3_1 t) (whole3_1 t) (mem3_2 t) (whole3_2 t) (mem3_3 t) (whole3_3 t) (mem3_4 t) (whole3_4 t) acc3 (Memref.isWhole_whole _) (fun hc => h ((first3_iff t).mp hc)) (blk3 V c 0 t) (blk3 V c 1 t) (blk3 V c 2 t) (blk3 V c 3 t) (lossAt V c (t.val - 1) (Nat.lt_of_le_of_lt (Nat.sub_le _ _) t.isLt)).2,
       accNext c (grid3.coords t) (mem3_0 t) (whole3_0 t) (mem3_1 t) (whole3_1 t) (mem3_2 t) (whole3_2 t) (mem3_3 t) (whole3_3 t) (mem3_4 t) (whole3_4 t) acc3 (Memref.isWhole_whole _) (fun hc => h ((first3_iff t).mp hc)) (blk3 V c 0 t) (blk3 V c 1 t) (blk3 V c 2 t) (blk3 V c 3 t) (lossAt V c (t.val - 1) (Nat.lt_of_le_of_lt (Nat.sub_le _ _) t.isLt)).2) := by
  obtain ⟨n, hn⟩ := t
  cases n with
  | zero => exact absurd rfl h
  | succ n => rfl

/-! ## The region's invariant -/

/-- Before position `n`: at the start the class's invariant (every scoped buffer no window stages at anything, the
    generator register at some state); afterwards the same with the accumulator at what the point before left. -/
def carried (c : Dev nD) : (n : ℕ) → n ≤ cfg3.N → sProp 𝕄
  | 0, _ => Pipeline.ΦA spec3 c
  | n + 1, hn => iprop(iprop(owns (c : Thread nD τ) acc3 fullShare ((lossAt V c n hn).2) ∗ Pipeline.scopedRestBut (Ix := Unit) (Name := ℕ) (U := Pipeline.UD sig nD τ) (Lvl := ℕ) (Val := Elt F) spec3 c [cc3_scratch0]) ∗ (∃ r, prngReg c r))

theorem carried_zero (c : Dev nD) (n : ℕ) (h : n ≤ cfg3.N) (hz : n = 0) : carried V c n h = Pipeline.ΦA spec3 c := by
  subst hz; rfl

theorem carried_succ (c : Dev nD) (n : ℕ) (hn : n < cfg3.N) :
    carried V c (n + 1) hn = iprop(iprop(owns (c : Thread nD τ) acc3 fullShare ((lossAt V c n hn).2) ∗ Pipeline.scopedRestBut (Ix := Unit) (Name := ℕ) (U := Pipeline.UD sig nD τ) (Lvl := ℕ) (Val := Elt F) spec3 c [cc3_scratch0]) ∗ (∃ r, prngReg c r)) := rfl

theorem carried_pos (c : Dev nD) (n : ℕ) (h : n ≤ cfg3.N) (hz : n ≠ 0) :
    carried V c n h = iprop(iprop(owns (c : Thread nD τ) acc3 fullShare ((lossAt V c (n - 1) (by omega)).2) ∗ Pipeline.scopedRestBut (Ix := Unit) (Name := ℕ) (U := Pipeline.UD sig nD τ) (Lvl := ℕ) (Val := Elt F) spec3 c [cc3_scratch0]) ∗ (∃ r, prngReg c r)) := by
  cases n with
  | zero => exact absurd rfl hz
  | succ n => rfl

/-- The scoped buffers no window stages: the accumulator, and the rest unopened. -/
theorem rest3_eq (c : Dev nD) :
    (Pipeline.scopedRest (Ix := Unit) (Name := ℕ) (U := Pipeline.UD sig nD τ) (Lvl := ℕ) (Val := Elt F) spec3 c : sProp 𝕄) = iprop((∃ d, owns (c : Thread nD τ) acc3 fullShare d) ∗ Pipeline.scopedRestBut (Ix := Unit) (Name := ℕ) (U := Pipeline.UD sig nD τ) (Lvl := ℕ) (Val := Elt F) spec3 c [cc3_scratch0]) := by
  rw [Pipeline.scopedRest_split_of_list spec3 c [cc3_scratch0] (by decide) (by decide)]
  simp only [bigSepL, acc3, owns_whole]; try rfl

/-- The class's invariant with the accumulator split out of the scoped buffers no window stages. -/
theorem PhiA3_eq (c : Dev nD) :
    (Pipeline.ΦA spec3 c : sProp 𝕄)
      = iprop(iprop((∃ d, owns (c : Thread nD τ) acc3 fullShare d) ∗ Pipeline.scopedRestBut (Ix := Unit) (Name := ℕ) (U := Pipeline.UD sig nD τ) (Lvl := ℕ) (Val := Elt F) spec3 c [cc3_scratch0]) ∗ (∃ r, prngReg c r)) := by
  unfold Pipeline.ΦA
  rw [rest3_eq]

/-! ## The proof data -/

/-- The region's proof data on core `c`: the arrays as the region finds them; after the body at point `t` each input's
    buffer at its block and the output's at `lossAt`'s first component; the invariant `carried`; nothing owed; full
    shares. -/
def lossDat (c : Dev nD) : Dat τ (Elt F) Unit ℕ (Pipeline.UD sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => (lossAt V c t.val t.isLt).1
  Φ t := carried V c t.val (Nat.le_of_lt_succ t.isLt)
  q _ := fullShare
  owed _ := 0

theorem lossDat_A (c : Dev nD) (w : Fin cfg3.W) : (lossDat V c).A w = V c (Pipeline.arrRef spec3 w) := by
  dsimp only [lossDat]

theorem carried_castSucc (c : Dev nD) (t : Fin cfg3.N) :
    (lossDat V c).Φ t.castSucc = carried V c t.val (Nat.le_of_lt t.isLt) := by
  dsimp only [lossDat]; simp only [Fin.coe_castSucc]

theorem lossDat_after0 (c : Dev nD) (t : Fin cfg3.N) : (lossDat V c).after 0 t = blk3 V c 0 t := by dsimp only [lossDat]
theorem lossDat_after1 (c : Dev nD) (t : Fin cfg3.N) : (lossDat V c).after 1 t = blk3 V c 1 t := by dsimp only [lossDat]
theorem lossDat_after2 (c : Dev nD) (t : Fin cfg3.N) : (lossDat V c).after 2 t = blk3 V c 2 t := by dsimp only [lossDat]
theorem lossDat_after3 (c : Dev nD) (t : Fin cfg3.N) : (lossDat V c).after 3 t = blk3 V c 3 t := by dsimp only [lossDat]
theorem lossDat_after4 (c : Dev nD) (t : Fin cfg3.N) : (lossDat V c).after 4 t = (lossAt V c t.val t.isLt).1 := by dsimp only [lossDat]

theorem before3_0 (c : Dev nD) (t : Fin cfg3.N) (d) : (lossDat V c).before 0 t d = blk3 V c 0 t :=
  before3_0_of V (lossDat V c) (lossDat_A V c 0) (lossDat_after0 V c) t d
theorem before3_1 (c : Dev nD) (t : Fin cfg3.N) (d) : (lossDat V c).before 1 t d = blk3 V c 1 t :=
  before3_1_of V (lossDat V c) (lossDat_A V c 1) (lossDat_after1 V c) t d
theorem before3_2 (c : Dev nD) (t : Fin cfg3.N) (d) : (lossDat V c).before 2 t d = blk3 V c 2 t :=
  before3_2_of V (lossDat V c) (lossDat_A V c 2) (lossDat_after2 V c) t d
theorem before3_3 (c : Dev nD) (t : Fin cfg3.N) (d) : (lossDat V c).before 3 t d = blk3 V c 3 t :=
  before3_3_of V (lossDat V c) (lossDat_A V c 3) (lossDat_after3 V c) t d

/-! ## The body obligation -/

/-- What the body is called with at point `t`, the windows one by one, -/
def lossPre (c : Dev nD) (t : Fin cfg3.N) : sProp 𝕄 :=
  iprop((lossDat V c).Φ t.castSucc ∗ (lossDat V c).owesAt () t.castSucc
    ∗ (∃ d, owns (c : Thread nD τ) (mem3_0 t) fullShare ((lossDat V c).before 0 t d))
    ∗ (∃ d, owns (c : Thread nD τ) (mem3_1 t) fullShare ((lossDat V c).before 1 t d))
    ∗ (∃ d, owns (c : Thread nD τ) (mem3_2 t) fullShare ((lossDat V c).before 2 t d))
    ∗ (∃ d, owns (c : Thread nD τ) (mem3_3 t) fullShare ((lossDat V c).before 3 t d))
    ∗ (∃ d, owns (c : Thread nD τ) (mem3_4 t) fullShare ((lossDat V c).before 4 t d)))

/-- and what it returns. -/
def lossPost (c : Dev nD) (t : Fin cfg3.N) : sProp 𝕄 :=
  iprop((lossDat V c).Φ t.succ ∗ (lossDat V c).owesAt () t.succ
    ∗ owns (c : Thread nD τ) (mem3_0 t) fullShare ((lossDat V c).after 0 t)
    ∗ owns (c : Thread nD τ) (mem3_1 t) fullShare ((lossDat V c).after 1 t)
    ∗ owns (c : Thread nD τ) (mem3_2 t) fullShare ((lossDat V c).after 2 t)
    ∗ owns (c : Thread nD τ) (mem3_3 t) fullShare ((lossDat V c).after 3 t)
    ∗ owns (c : Thread nD τ) (mem3_4 t) fullShare ((lossDat V c).after 4 t))

set_option maxHeartbeats 2000000 in
/-- The body at any point: the inputs' memrefs hold their blocks; the point is the first or a later one, and that
    case's run applies; the invariant hands the body the accumulator — at anything at the first point, at what the
    point before left afterwards — and takes it back at this point's contents; the core owes nothing throughout. -/
theorem loss_body (c : Dev nD) (t : Fin cfg3.N) :
    lossPre V c t ⊢ wp frame (wpE (defs₀ (F := F)) Variants.none c none) Set.univ (bodyAt3 t) (fun _ => lossPost V c t) := by
  unfold lossPre lossPost bodyAt3
  simp only [before3_0, before3_1, before3_2, before3_3]
  rw [show (lossDat V c).owesAt () t.succ = (lossDat V c).owesAt () t.castSucc from rfl]
  rw [show (lossDat V c).Φ t.succ = carried V c (t.val + 1) t.isLt from rfl, carried_succ]
  rw [lossDat_after0, lossDat_after1, lossDat_after2, lossDat_after3, lossDat_after4]
  by_cases hz : t.val = 0
  · rw [lossAt_first V c t hz]
    unfold outFirst accFirst; (try dsimp only)
    rw [carried_castSucc V c t, carried_zero V c _ _ hz, PhiA3_eq]
    iintro ⟨⟨⟨HS, HR⟩, Hg⟩, Ho, ⟨%d0, H0⟩, ⟨%d1, H1⟩, ⟨%d2, H2⟩, ⟨%d3, H3⟩, ⟨%d4, H4⟩⟩
    iapply ((lossRunFirst c (grid3.coords t) _ _ _ _ _ _ _ _ _ _ _ _ ((first3_iff t).mpr hz) (blk3 V c 0 t) (blk3 V c 1 t) (blk3 V c 2 t) (blk3 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HR Hg]
    · isplitl [HS HR]
      · isplitl [HS]
        · unfold owns; iexists _; isplitr
          swap; · iexact HS
          ipureintro; exact View.read_writes_of_cover _ _ _ _ _ (cover_accFirst c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_outFirst c _ _ _ _ _ _ _ _ _ _ _ _ _ _ _ _ _ _)
  · rw [lossAt_next V c t hz]
    unfold outNext accNext; (try dsimp only)
    rw [carried_castSucc V c t, carried_pos V c _ _ hz]
    iintro ⟨⟨⟨HS, HR⟩, Hg⟩, Ho, ⟨%d0, H0⟩, ⟨%d1, H1⟩, ⟨%d2, H2⟩, ⟨%d3, H3⟩, ⟨%d4, H4⟩⟩
    iapply ((lossRunNext c (grid3.coords t) _ _ _ _ _ _ _ _ _ _ _ _ (fun hc => hz ((first3_iff t).mp hc)) (blk3 V c 0 t) (blk3 V c 1 t) (blk3 V c 2 t) (blk3 V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HR Hg]
    · isplitl [HS HR]
      · isplitl [HS]
        · unfold owns; iexists _; isplitr
          swap; · iexact HS
          ipureintro; exact View.read_writes_of_cover _ _ _ _ _ (cover_accNext c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_outNext c _ _ _ _ _ _ _ _ _ _ _ _ _ _ _ _ _ _ _)

/-- The library's body obligation, at every point. -/
theorem loss_obligation (c : Dev nD) : BodyObligation (lossDat (F := F) V c) (defs₀ (F := F)) Variants.none () Set.univ := fun t => by
  rw [bigSep_W3, bigSep_W3]
  exact loss_body V c t

/-- What the launch hands the region is the invariant before the first point. -/
theorem loss_in (c : Dev nD) :
    (iprop(Pipeline.scopedRest (Ix := Unit) (Name := ℕ) (U := Pipeline.UD sig nD τ) (Lvl := ℕ) (Val := Elt F) spec3 c ∗ ∃ r, prngReg c r) : sProp 𝕄) ⊢ (lossDat V c).Φ 0 := by
  rw [show (lossDat V c).Φ 0 = carried V c 0 (Nat.zero_le _) from rfl, carried_zero V c 0 _ rfl]
  unfold Pipeline.ΦA
  try exact Idealize.SL.BI.Entails.refl _

/-- After the last point the invariant gives back the generator register and the scoped buffers no window stages:
    the accumulator's contents are forgotten. -/
theorem loss_out (c : Dev nD) : (lossDat V c).Φ (Fin.last cfg3.N)
    ⊢ (iprop((∃ r, prngReg c r) ∗ BI.emp ∗ Pipeline.scopedRest (Ix := Unit) (Name := ℕ) (U := Pipeline.UD sig nD τ) (Lvl := ℕ) (Val := Elt F) spec3 c) : sProp 𝕄) := by
  rw [show (lossDat V c).Φ (Fin.last cfg3.N) = carried V c (Fin.last cfg3.N).val (Nat.le_of_lt_succ (Fin.last cfg3.N).isLt) from rfl,
    carried_pos V c _ _ (by rw [Fin.val_last]; have : cfg3.N = 64 := N_3; omega), rest3_eq]
  iintro ⟨⟨HS, HR⟩, Hg⟩
  isplitl [Hg]; · iexact Hg
  isplitr; · iempintro
  isplitl [HS]
  · iexists _; iexact HS
  iexact HR

end Cert.Kernel.Fr

end
-- ==== Proof.FrRunK.lean ====
/-
  The whole program's run: its four kernel regions and the closing host operations as segments, chained.

  Between two segments every unscoped buffer of the core is held at a named valuation: the launch memory, then after
  each region the same with the region's arrays at what its write-backs leave, then after the three host operations
  (reshape, the constant 2^24, the division) their results. Each argument array is read back through these valuations
  to its launch contents, and the result buffer is named: it holds the last valuation's value there.
-/
import proofs.«171225_j23708219474596_1_alg».proof.Proof.Gen.Kernel.Launch
import proofs.«171225_j23708219474596_1_alg».proof.Proof.Gen.Kernel.Skeleton
import proofs.«171225_j23708219474596_1_alg».proof.Proof.Gen.Kernel.Points
import proofs.«171225_j23708219474596_1_alg».proof.Proof.Gen.Kernel.Regions
import proofs.«171225_j23708219474596_1_alg».proof.Proof.FrNormK
import proofs.«171225_j23708219474596_1_alg».proof.Proof.FrLossK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its arrays at what the pipeline leaves (the input as entered, the output's write-backs folded),
    every other buffer as entered. -/
def W1 (c : Dev nD) : Valuation τ sig (Elt F) :=
  Pipeline.withArrays spec0 c (W0 m ρ c) fun w => (rowsDat0 (V0 m ρ) c).arrAt w cfg0.N
theorem W1_arr (c : Dev nD) (w : Fin cfg0.W) :
    W1 m ρ c (Proc.devRef .tc (Pipeline.arrRef spec0 w)) = (rowsDat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (rowsDat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the input as entered, the output's write-backs folded),
    every other buffer as entered. -/
def W2 (c : Dev nD) : Valuation τ sig (Elt F) :=
  Pipeline.withArrays spec1 c (W1 m ρ c) fun w => (rowsDat1 (V1 m ρ) c).arrAt w cfg1.N
theorem W2_arr (c : Dev nD) (w : Fin cfg1.W) :
    W2 m ρ c (Proc.devRef .tc (Pipeline.arrRef spec1 w)) = (rowsDat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (rowsDat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the input as entered, the output's write-backs folded),
    every other buffer as entered. -/
def W3 (c : Dev nD) : Valuation τ sig (Elt F) :=
  Pipeline.withArrays spec2 c (W2 m ρ c) fun w => (rowsDat2 (V2 m ρ) c).arrAt w cfg2.N
theorem W3_arr (c : Dev nD) (w : Fin cfg2.W) :
    W3 m ρ c (Proc.devRef .tc (Pipeline.arrRef spec2 w)) = (rowsDat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (rowsDat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- At region 3's exit: its arrays at what the pipeline leaves (the input as entered, the output's write-backs folded),
    every other buffer as entered. -/
def W4 (c : Dev nD) : Valuation τ sig (Elt F) :=
  Pipeline.withArrays spec3 c (W3 m ρ c) fun w => (lossDat (V3 m ρ) c).arrAt w cfg3.N
theorem W4_arr (c : Dev nD) (w : Fin cfg3.W) :
    W4 m ρ c (Proc.devRef .tc (Pipeline.arrRef spec3 w)) = (lossDat (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
theorem hF3 (c : Dev nD) (w : Fin cfg3.W) : (lossDat (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-- After the closing host operations. -/
abbrev W5 (c : Dev nD) : Valuation τ sig (Elt F) := StableHlo.after hostOps4 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps4 _ hostOps4_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((rowsDat0 (V0 m ρ) c).arrAt_in 0 rfl _).trans (rowsDat0_A (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps4 _ hostOps4_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((rowsDat1 (V1 m ρ) c).arrAt_in 0 rfl _).trans (rowsDat1_A (V1 m ρ) c 0))
    _ = W0 m ρ c (Proc.devRef .tc main_arg1) := W1_of_ne m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps4 _ hostOps4_writes (by decide)
    _ = W3 m ρ c (Proc.devRef .tc main_arg2) := W4_of_ne m ρ c main_arg2 (by decide)
    _ = W2 m ρ c (Proc.devRef .tc main_arg2) := (W3_arr m ρ c 0).trans (((rowsDat2 (V2 m ρ) c).arrAt_in 0 rfl _).trans (rowsDat2_A (V2 m ρ) c 0))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps4 _ hostOps4_writes (by decide)
    _ = W3 m ρ c (Proc.devRef .tc main_arg3) := (W4_arr m ρ c 3).trans (((lossDat (V3 m ρ) c).arrAt_in 3 rfl _).trans (lossDat_A (V3 m ρ) c 3))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (Pipeline.UD sig nD τ) ℕ (Pipeline.pin (pcfgs (F := F)) adm p) c
  | ⟨0, _⟩ => fun c => rowsDat0 (V0 m ρ) c
  | ⟨1, _⟩ => fun c => rowsDat1 (V1 m ρ) c
  | ⟨2, _⟩ => fun c => rowsDat2 (V2 m ρ) c
  | ⟨3, _⟩ => fun c => lossDat (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over the pinned configuration unifies only when unification may unfold plain
-- definitions in a metavariable's type
set_option backward.isDefEq.respectTransparency.types false in
/-- Region 0 over the thread state: entered from every unscoped buffer at `W0`, left at `W1`. Its arrays are split
    out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (rows_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W1`, left at `W2`. Its arrays are split
    out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (rows_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 over the thread state: entered from every unscoped buffer at `W2`, left at `W3`. Its arrays are split
    out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (rows_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 3 over the thread state: entered from every unscoped buffer at `W3`, left at `W4`. Its arrays are split
    out of the unscoped buffers and put back at the exit contents; the generator register goes into the class
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (loss_obligation (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := Pipeline.UD sig nD τ) (Lvl := ℕ) (Val := Elt F) spec3 c ∗ ∃ r, prngReg c r) : sProp 𝕄)
        ⊢ (pdats m ρ 3 c).Φ 0 := loss_in (V3 m ρ) c
    iintro ⟨Hp, -, Hr⟩
    iapply h
    isplitl [Hr]; · iexact Hr
    iexact Hp
  hout c := by
    rw [Pipeline.ownSems0_none]
    exact loss_out (V3 m ρ) c
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ), .region (reg3 m ρ),
    .host (hseg hostOps4 hostOps4_sub hostOps4_fresh (W4 m ρ)) ]

theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN. From any memory with zero counters every weakly fair execution of @main terminates, nothing faulting,
    and in every final state the result buffer holds the last valuation's value and the four argument arrays are
    as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => show iprop(StableHlo.held (c : Thread nD τ) (Pipeline.ucRefs τ sig) (W5 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Kernel.Fr

end
-- ==== Proof.FrNormKI.lean ====
/-
  The three row-normalization launches, each seen from inside one launch.

  Each of the three launches walks a 4096 × 1024 matrix in eight blocks of 512 rows. At a grid point the body
  reads the point's block `x`, and overwrites the output block with `x i k / max (sqrt (∑ k', x i k' ^ 2)) eps`.
  This module states, for each launch, what every window's staging block holds before and after the body at every
  point, as a function of the arrays the launch finds (a parameter `V`), and proves that the body run from the
  former ends in the latter: the launch's body obligation. Nothing here depends on the float instance.
-/
import proofs.«171225_j23708219474596_1_alg».proof.Proof.Gen.KernelIdeal.Launch
import proofs.«171225_j23708219474596_1_alg».proof.Proof.Gen.KernelIdeal.Skeleton
import proofs.«171225_j23708219474596_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the whole-block rectangle is decided coordinate by coordinate along the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when a launch is entered: the parameter everything below is stated at
variable (V : (c : Dev nD) → (b : Ref sig .tc) → Buf (Elt F) ((c : Thread nD τ).loc b))

/-! # Region 0: the row-normalization of the first matrix, one block of 512 rows per grid point -/

/-- Window `w`'s block at point `t`: the rows the point works on, read off the window's array as the region
    finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block of rows when the body starts, whether the block was
    fetched at this point or carried over: for any proof data whose input array is the entry contents and whose
    body leaves the input block in place. -/
theorem before0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole 512 × 1024 block: the one rectangle the body loads and the one it stores. -/
abbrev whole0 : Rect S512x1024 := Rect.unit (s := S512x1024) ![0, 0] S512x1024.size inb_S512x1024_S512x1024_0_0

/-- What the body leaves in the output block, as a function of the input block: every row divided by its
    clamped Euclidean norm, written by one store of the whole block. -/
def normed0 (x0 : Vec F S512x1024 .f32) : Vec F S512x1024 .bf16 :=
  View.canon [⟨whole0, k0_pay1 (View.ld x0 whole0)⟩]

/-- The one store is of the whole block, so it covers every entry of the output block. -/
theorem cover0 (p0 : Vec F S512x1024 .bf16) (y : S512x1024.Idx) :
    ∃ pc ∈ ([⟨whole0, p0⟩] : List (View.Piece (Elt F) S512x1024 .bf16)), y ∈ pc.1.set :=
  View.cover_of_tiled [⟨whole0, p0⟩] S512x1024.size (by rfl) y

set_option maxHeartbeats 1000000 in
/-- The body on whole staging blocks: from the input block at `x0` and the output block at anything it ends with
    the input block unchanged and the output block at the normalized rows of `x0`. The body reads the input block
    once, reads the output block (the value is not used) and overwrites it whole. -/
theorem body_run0 (c : Dev nD) (E : Set ℕ) (i : grid0.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normed0 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The proof data of region 0 on core `c`: the arrays as the region finds them; after the body at point `t` the
    input block is the point's rows and the output block their normalization; the scoped rest and the generator
    register are untouched; nothing is owed; full shares. -/
def rowsDat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => normed0 (blk0 V c 0 t)
  Φ _ := Pipeline.ΦA spec0 c
  q _ := fullShare
  owed _ := 0

/-- The proof data's arrays are the region-entry contents. -/
theorem rowsDat0_A (c : Dev nD) (w : Fin cfg0.W) : (rowsDat0 V c).A w = V c (Pipeline.arrRef spec0 w) := by
  dsimp only [rowsDat0]

/-- What the body leaves in the input block: the point's rows. -/
theorem rowsDat0_after0 (c : Dev nD) (t : Fin cfg0.N) : (rowsDat0 V c).after 0 t = blk0 V c 0 t := by dsimp only [rowsDat0]
/-- What the body leaves in the output block: the point's rows, normalized. -/
theorem rowsDat0_after1 (c : Dev nD) (t : Fin cfg0.N) : (rowsDat0 V c).after 1 t = normed0 (blk0 V c 0 t) := by dsimp only [rowsDat0]

/-- The input block when the body starts is the point's rows. -/
theorem rowsDat0_before0 (c : Dev nD) (t : Fin cfg0.N) (d) : (rowsDat0 V c).before 0 t d = blk0 V c 0 t :=
  before0_of V (rowsDat0 V c) (rowsDat0_A V c 0) (rowsDat0_after0 V c) t d

/-- What the body is called with at point `t`: the invariant, what the core owes, and the two staging blocks. -/
def rowsPre0 (c : Dev nD) (t : Fin cfg0.N) : sProp 𝕄 :=
  iprop((rowsDat0 V c).Φ t.castSucc ∗ (rowsDat0 V c).owesAt () t.castSucc
    ∗ (∃ d, owns (c : Thread nD τ) (st0_0 t) fullShare ((rowsDat0 V c).before 0 t d))
    ∗ (∃ d, owns (c : Thread nD τ) (st0_1 t) fullShare ((rowsDat0 V c).before 1 t d)))

/-- What it returns. -/
def rowsPost0 (c : Dev nD) (t : Fin cfg0.N) : sProp 𝕄 :=
  iprop((rowsDat0 V c).Φ t.succ ∗ (rowsDat0 V c).owesAt () t.succ
    ∗ owns (c : Thread nD τ) (st0_0 t) fullShare ((rowsDat0 V c).after 0 t)
    ∗ owns (c : Thread nD τ) (st0_1 t) fullShare ((rowsDat0 V c).after 1 t))

/-- The body at any point: the input staging block holds the point's rows, so the body's run applies; the invariant
    and what the core owes pass through unread. -/
theorem rows_body0 (c : Dev nD) (t : Fin cfg0.N) :
    rowsPre0 V c t ⊢ wp frame (wpE (defs₀ (F := F)) Variants.none c none) Set.univ (bodyAt0 t) (fun _ => rowsPost0 V c t) := by
  unfold rowsPre0 rowsPost0 bodyAt0
  simp only [rowsDat0_before0]
  rw [show (rowsDat0 V c).Φ t.succ = (rowsDat0 V c).Φ t.castSucc from rfl,
    show (rowsDat0 V c).owesAt () t.succ = (rowsDat0 V c).owesAt () t.castSucc from rfl,
    rowsDat0_after0, rowsDat0_after1]
  iintro ⟨HΦ, Ho, ⟨%d0, H0⟩, ⟨%d1, H1⟩⟩
  iapply (body_run0 c Set.univ (grid0.coords t) _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 0, at every point. -/
theorem rows_obligation0 (c : Dev nD) : BodyObligation (rowsDat0 (F := F) V c) (defs₀ (F := F)) Variants.none () Set.univ := fun t => by
  rw [bigSep_W0, bigSep_W0]
  exact rows_body0 V c t

/-! # Region 1: the row-normalization of the second matrix, one block of 512 rows per grid point -/

/-- Window `w`'s block at point `t`: the rows the point works on, read off the window's array as the region
    finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block of rows when the body starts, whether the block was
    fetched at this point or carried over: for any proof data whose input array is the entry contents and whose
    body leaves the input block in place. -/
theorem before1_of {c : Dev nD} (dat : Dat τ (Elt F) Unit ℕ (Pipeline.UD sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The whole 512 × 1024 block: the one rectangle the body loads and the one it stores. -/
abbrev whole1 : Rect S512x1024 := Rect.unit (s := S512x1024) ![0, 0] S512x1024.size inb_S512x1024_S512x1024_0_0

/-- What the body leaves in the output block, as a function of the input block: every row divided by its
    clamped Euclidean norm, written by one store of the whole block. -/
def normed1 (x0 : Vec F S512x1024 .f32) : Vec F S512x1024 .bf16 :=
  View.canon [⟨whole1, k1_pay1 (View.ld x0 whole1)⟩]

/-- The one store is of the whole block, so it covers every entry of the output block. -/
theorem cover1 (p0 : Vec F S512x1024 .bf16) (y : S512x1024.Idx) :
    ∃ pc ∈ ([⟨whole1, p0⟩] : List (View.Piece (Elt F) S512x1024 .bf16)), y ∈ pc.1.set :=
  View.cover_of_tiled [⟨whole1, p0⟩] S512x1024.size (by rfl) y

set_option maxHeartbeats 1000000 in
/-- The body on whole staging blocks: from the input block at `x0` and the output block at anything it ends with
    the input block unchanged and the output block at the normalized rows of `x0`. The body reads the input block
    once, reads the output block (the value is not used) and overwrites it whole. -/
theorem body_run1 (c : Dev nD) (E : Set ℕ) (i : grid1.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normed1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-- The proof data of region 1 on core `c`: the arrays as the region finds them; after the body at point `t` the
    input block is the point's rows and the output block their normalization; the scoped rest and the generator
    register are untouched; nothing is owed; full shares. -/
def rowsDat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => normed1 (blk1 V c 0 t)
  Φ _ := Pipeline.ΦA spec1 c
  q _ := fullShare
  owed _ := 0

/-- The proof data's arrays are the region-entry contents. -/
theorem rowsDat1_A (c : Dev nD) (w : Fin cfg1.W) : (rowsDat1 V c).A w = V c (Pipeline.arrRef spec1 w) := by
  dsimp only [rowsDat1]

/-- What the body leaves in the input block: the point's rows. -/
theorem rowsDat1_after0 (c : Dev nD) (t : Fin cfg1.N) : (rowsDat1 V c).after 0 t = blk1 V c 0 t := by dsimp only [rowsDat1]
/-- What the body leaves in the output block: the point's rows, normalized. -/
theorem rowsDat1_after1 (c : Dev nD) (t : Fin cfg1.N) : (rowsDat1 V c).after 1 t = normed1 (blk1 V c 0 t) := by dsimp only [rowsDat1]

/-- The input block when the body starts is the point's rows. -/
theorem rowsDat1_before0 (c : Dev nD) (t : Fin cfg1.N) (d) : (rowsDat1 V c).before 0 t d = blk1 V c 0 t :=
  before1_of V (rowsDat1 V c) (rowsDat1_A V c 0) (rowsDat1_after0 V c) t d

/-- What the body is called with at point `t`: the invariant, what the core owes, and the two staging blocks. -/
def rowsPre1 (c : Dev nD) (t : Fin cfg1.N) : sProp 𝕄 :=
  iprop((rowsDat1 V c).Φ t.castSucc ∗ (rowsDat1 V c).owesAt () t.castSucc
    ∗ (∃ d, owns (c : Thread nD τ) (st1_0 t) fullShare ((rowsDat1 V c).before 0 t d))
    ∗ (∃ d, owns (c : Thread nD τ) (st1_1 t) fullShare ((rowsDat1 V c).before 1 t d)))

/-- What it returns. -/
def rowsPost1 (c : Dev nD) (t : Fin cfg1.N) : sProp 𝕄 :=
  iprop((rowsDat1 V c).Φ t.succ ∗ (rowsDat1 V c).owesAt () t.succ
    ∗ owns (c : Thread nD τ) (st1_0 t) fullShare ((rowsDat1 V c).after 0 t)
    ∗ owns (c : Thread nD τ) (st1_1 t) fullShare ((rowsDat1 V c).after 1 t))

/-- The body at any point: the input staging block holds the point's rows, so the body's run applies; the invariant
    and what the core owes pass through unread. -/
theorem rows_body1 (c : Dev nD) (t : Fin cfg1.N) :
    rowsPre1 V c t ⊢ wp frame (wpE (defs₀ (F := F)) Variants.none c none) Set.univ (bodyAt1 t) (fun _ => rowsPost1 V c t) := by
  unfold rowsPre1 rowsPost1 bodyAt1
  simp only [rowsDat1_before0]
  rw [show (rowsDat1 V c).Φ t.succ = (rowsDat1 V c).Φ t.castSucc from rfl,
    show (rowsDat1 V c).owesAt () t.succ = (rowsDat1 V c).owesAt () t.castSucc from rfl,
    rowsDat1_after0, rowsDat1_after1]
  iintro ⟨HΦ, Ho, ⟨%d0, H0⟩, ⟨%d1, H1⟩⟩
  iapply (body_run1 c Set.univ (grid1.coords t) _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 1, at every point. -/
theorem rows_obligation1 (c : Dev nD) : BodyObligation (rowsDat1 (F := F) V c) (defs₀ (F := F)) Variants.none () Set.univ := fun t => by
  rw [bigSep_W1, bigSep_W1]
  exact rows_body1 V c t

/-! # Region 2: the row-normalization of the third matrix, one block of 512 rows per grid point -/

/-- Window `w`'s block at point `t`: the rows the point works on, read off the window's array as the region
    finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds the point's block of rows when the body starts, whether the block was
    fetched at this point or carried over: for any proof data whose input array is the entry contents and whose
    body leaves the input block in place. -/
theorem before2_of {c : Dev nD} (dat : Dat τ (Elt F) Unit ℕ (Pipeline.UD sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The whole 512 × 1024 block: the one rectangle the body loads and the one it stores. -/
abbrev whole2 : Rect S512x1024 := Rect.unit (s := S512x1024) ![0, 0] S512x1024.size inb_S512x1024_S512x1024_0_0

/-- What the body leaves in the output block, as a function of the input block: every row divided by its
    clamped Euclidean norm, written by one store of the whole block. -/
def normed2 (x0 : Vec F S512x1024 .f32) : Vec F S512x1024 .bf16 :=
  View.canon [⟨whole2, k2_pay1 (View.ld x0 whole2)⟩]

/-- The one store is of the whole block, so it covers every entry of the output block. -/
theorem cover2 (p0 : Vec F S512x1024 .bf16) (y : S512x1024.Idx) :
    ∃ pc ∈ ([⟨whole2, p0⟩] : List (View.Piece (Elt F) S512x1024 .bf16)), y ∈ pc.1.set :=
  View.cover_of_tiled [⟨whole2, p0⟩] S512x1024.size (by rfl) y

set_option maxHeartbeats 1000000 in
/-- The body on whole staging blocks: from the input block at `x0` and the output block at anything it ends with
    the input block unchanged and the output block at the normalized rows of `x0`. The body reads the input block
    once, reads the output block (the value is not used) and overwrites it whole. -/
theorem body_run2 (c : Dev nD) (E : Set ℕ) (i : grid2.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normed2 x0)) -∗ K ⟨⟩))
      ⊢ wp frame (wpE (defs₀ (F := F)) Variants.none c none) E (cc2__normalize_kernel i arg1 harg1 arg2 harg2) K := by
  simp only [cc2__normalize_kernel_eq_skeleton]; unfold cc2__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2 _)

/-- The proof data of region 2 on core `c`: the arrays as the region finds them; after the body at point `t` the
    input block is the point's rows and the output block their normalization; the scoped rest and the generator
    register are untouched; nothing is owed; full shares. -/
def rowsDat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => normed2 (blk2 V c 0 t)
  Φ _ := Pipeline.ΦA spec2 c
  q _ := fullShare
  owed _ := 0

/-- The proof data's arrays are the region-entry contents. -/
theorem rowsDat2_A (c : Dev nD) (w : Fin cfg2.W) : (rowsDat2 V c).A w = V c (Pipeline.arrRef spec2 w) := by
  dsimp only [rowsDat2]

/-- What the body leaves in the input block: the point's rows. -/
theorem rowsDat2_after0 (c : Dev nD) (t : Fin cfg2.N) : (rowsDat2 V c).after 0 t = blk2 V c 0 t := by dsimp only [rowsDat2]
/-- What the body leaves in the output block: the point's rows, normalized. -/
theorem rowsDat2_after1 (c : Dev nD) (t : Fin cfg2.N) : (rowsDat2 V c).after 1 t = normed2 (blk2 V c 0 t) := by dsimp only [rowsDat2]

/-- The input block when the body starts is the point's rows. -/
theorem rowsDat2_before0 (c : Dev nD) (t : Fin cfg2.N) (d) : (rowsDat2 V c).before 0 t d = blk2 V c 0 t :=
  before2_of V (rowsDat2 V c) (rowsDat2_A V c 0) (rowsDat2_after0 V c) t d

/-- What the body is called with at point `t`: the invariant, what the core owes, and the two staging blocks. -/
def rowsPre2 (c : Dev nD) (t : Fin cfg2.N) : sProp 𝕄 :=
  iprop((rowsDat2 V c).Φ t.castSucc ∗ (rowsDat2 V c).owesAt () t.castSucc
    ∗ (∃ d, owns (c : Thread nD τ) (st2_0 t) fullShare ((rowsDat2 V c).before 0 t d))
    ∗ (∃ d, owns (c : Thread nD τ) (st2_1 t) fullShare ((rowsDat2 V c).before 1 t d)))

/-- What it returns. -/
def rowsPost2 (c : Dev nD) (t : Fin cfg2.N) : sProp 𝕄 :=
  iprop((rowsDat2 V c).Φ t.succ ∗ (rowsDat2 V c).owesAt () t.succ
    ∗ owns (c : Thread nD τ) (st2_0 t) fullShare ((rowsDat2 V c).after 0 t)
    ∗ owns (c : Thread nD τ) (st2_1 t) fullShare ((rowsDat2 V c).after 1 t))

/-- The body at any point: the input staging block holds the point's rows, so the body's run applies; the invariant
    and what the core owes pass through unread. -/
theorem rows_body2 (c : Dev nD) (t : Fin cfg2.N) :
    rowsPre2 V c t ⊢ wp frame (wpE (defs₀ (F := F)) Variants.none c none) Set.univ (bodyAt2 t) (fun _ => rowsPost2 V c t) := by
  unfold rowsPre2 rowsPost2 bodyAt2
  simp only [rowsDat2_before0]
  rw [show (rowsDat2 V c).Φ t.succ = (rowsDat2 V c).Φ t.castSucc from rfl,
    show (rowsDat2 V c).owesAt () t.succ = (rowsDat2 V c).owesAt () t.castSucc from rfl,
    rowsDat2_after0, rowsDat2_after1]
  iintro ⟨HΦ, Ho, ⟨%d0, H0⟩, ⟨%d1, H1⟩⟩
  iapply (body_run2 c Set.univ (grid2.coords t) _ _ _ _ (blk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 2, at every point. -/
theorem rows_obligation2 (c : Dev nD) : BodyObligation (rowsDat2 (F := F) V c) (defs₀ (F := F)) Variants.none () Set.univ := fun t => by
  rw [bigSep_W2, bigSep_W2]
  exact rows_body2 V c t

end Cert.KernelIdeal.Fr

end
-- ==== Proof.FrLossRunKI.lean ====
/-
  The loss kernel's body, run once for each of its two control cases.

  The body adds one 512 x 512 tile's summed cost to a 1 x 1 accumulator kept in scratch memory and copies the
  accumulator to the 1 x 1 output block. At the grid's first point (both coordinates zero) it first stores zero into
  the accumulator; at every other point it reads what the point before left there. Each case is the body's triple on
  whole staging buffers: the four input blocks come back as they were, and the output block and the accumulator end
  with the body's stores written, as lists of pieces which the symbolic run finds.
-/
import proofs.«171225_j23708219474596_1_alg».proof.Proof.Gen.KernelIdeal.Launch
import proofs.«171225_j23708219474596_1_alg».proof.Proof.Gen.KernelIdeal.Skeleton
import proofs.«171225_j23708219474596_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The branch condition -/

/-- The condition of the body's one `scf.if`, from the grid coordinates: both are zero. -/
abbrev first3 (i : grid3.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the 64 points only, decided over the grid. -/
theorem first3_iff : ∀ t : Fin cfg3.N, first3 (grid3.coords t) ↔ t.val = 0 :=
  (by decide +kernel : ∀ t : Fin grid3.N, first3 (grid3.coords t) ↔ t.val = 0)

/-! ## The memrefs the body is called with -/

/-- Each window's current staging memref at point `t`, as the pipeline passes it, and its wholeness. -/
abbrev mem3_0 (t : Fin cfg3.N) : Memref sig .tc .vmem S512x1024 .bf16 := win3_0.stage (cfg3.slots t 0)
abbrev whole3_0 (t : Fin cfg3.N) : (mem3_0 t).IsWhole := hstage3_0 ((cfg3.slots t 0).cast nbuf3_0)
abbrev mem3_1 (t : Fin cfg3.N) : Memref sig .tc .vmem S512x1024 .bf16 := win3_1.stage (cfg3.slots t 1)
abbrev whole3_1 (t : Fin cfg3.N) : (mem3_1 t).IsWhole := hstage3_1 ((cfg3.slots t 1).cast nbuf3_1)
abbrev mem3_2 (t : Fin cfg3.N) : Memref sig .tc .vmem S512x1024 .bf16 := win3_2.stage (cfg3.slots t 2)
abbrev whole3_2 (t : Fin cfg3.N) : (mem3_2 t).IsWhole := hstage3_2 ((cfg3.slots t 2).cast nbuf3_2)
abbrev mem3_3 (t : Fin cfg3.N) : Memref sig .tc .vmem S512x512 .f32 := win3_3.stage (cfg3.slots t 3)
abbrev whole3_3 (t : Fin cfg3.N) : (mem3_3 t).IsWhole := hstage3_3 ((cfg3.slots t 3).cast nbuf3_3)
abbrev mem3_4 (t : Fin cfg3.N) : Memref sig .tc .vmem S1x1 .f32 := win3_4.stage (cfg3.slots t 4)
abbrev whole3_4 (t : Fin cfg3.N) : (mem3_4 t).IsWhole := hstage3_4 ((cfg3.slots t 4).cast nbuf3_4)
/-- The accumulator: a whole scoped buffer of the kernel's own. -/
abbrev acc3 : Memref sig .tc .vmem S1x1 .f32 := Memref.whole cc3_scratch0
/-- The views through which the output block's and the accumulator's contents are stated. -/
abbrev outView3 : View sig .tc .vmem S1x1 .f32 := (Memref.whole cc3_stg4_0 : Memref sig .tc .vmem S1x1 .f32).view
abbrev accView3 : View sig .tc .vmem S1x1 .f32 := acc3.view

/-! ## The two runs -/

set_option maxHeartbeats 1000000 in
/-- At the first point: the accumulator may hold anything; the body zeroes it, adds the tile's sum, and copies it out. -/
noncomputable def lossRunFirst (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i)
    (x0 x1 x2 : Vec F S512x1024 .bf16) (x3 : Vec F S512x512 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc3__loss_kernel i arg2 harg2 arg3 harg3 arg4 harg4 arg5 harg5 arg6 harg6 arg7 harg7) K } := by
  refine ⟨?_, ?_, fun E K => ?run⟩
  case run =>
    simp only [cc3__loss_kernel_eq_skeleton]; unfold cc3__loss_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

set_option maxHeartbeats 1000000 in
/-- At any later point: the accumulator holds `xs`, what the point before left; the body adds the tile's sum to it and
    copies it out. -/
noncomputable def lossRunNext (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i)
    (x0 x1 x2 : Vec F S512x1024 .bf16) (x3 : Vec F S512x512 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc3__loss_kernel i arg2 harg2 arg3 harg3 arg4 harg4 arg5 harg5 arg6 harg6 arg7 harg7) K } := by
  refine ⟨?_, ?_, fun E K => ?run⟩
  case run =>
    simp only [cc3__loss_kernel_eq_skeleton]; unfold cc3__loss_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Fr

end
-- ==== Proof.FrLossKI.lean ====
/-
  The loss kernel's region: what its 64 grid points leave, point by point, and the body obligation.

  Point `n` of the 8 x 8 grid reads the three normalized blocks and the labels tile that belong to it and leaves in
  the accumulator, and in the output block, the previous point's accumulator plus the tile's summed cost (zero plus
  it at the first point): `lossAt`. The region's invariant says where the accumulator stands between points: before
  the first point the scratch may hold anything; before point `n + 1` it holds what point `n` left.
-/
import proofs.«171225_j23708219474596_1_alg».proof.Proof.Gen.KernelIdeal.Launch
import proofs.«171225_j23708219474596_1_alg».proof.Proof.Gen.KernelIdeal.Skeleton
import proofs.«171225_j23708219474596_1_alg».proof.Proof.Gen.KernelIdeal.Points
import proofs.«171225_j23708219474596_1_alg».proof.Proof.FrLossRunKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the region is entered: the parameter the region's half is stated at
variable (V : (c : Dev nD) → (b : Ref sig .tc) → Buf (Elt F) ((c : Thread nD τ).loc b))

/-! ## The windows' blocks -/

/-- Window `w`'s block at point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is `V`'s and whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-! ## What the two cases leave -/

/-- The output block after the first point's run: its pieces read back. -/
def outFirst (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i) (x0 x1 x2 : Vec F S512x1024 .bf16) (x3 : Vec F S512x512 .f32) : Vec F S1x1 .f32 :=
  outView3.read (Elt F) (outView3.writes (Elt F) outView3.junk (lossRunFirst c i arg2 harg2 arg3 harg3 arg4 harg4 arg5 harg5 arg6 harg6 arg7 harg7 hc x0 x1 x2 x3).1)
/-- The accumulator after the first point's run. -/
def accFirst (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i) (x0 x1 x2 : Vec F S512x1024 .bf16) (x3 : Vec F S512x512 .f32) : Vec F S1x1 .f32 :=
  accView3.read (Elt F) (accView3.writes (Elt F) accView3.junk (lossRunFirst c i arg2 harg2 arg3 harg3 arg4 harg4 arg5 harg5 arg6 harg6 arg7 harg7 hc x0 x1 x2 x3).2.1)
/-- The output block after a later point's run, the accumulator found at `xs`. -/
def outNext (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i) (x0 x1 x2 : Vec F S512x1024 .bf16) (x3 : Vec F S512x512 .f32) (xs : Vec F S1x1 .f32) : Vec F S1x1 .f32 :=
  outView3.read (Elt F) (outView3.writes (Elt F) outView3.junk (lossRunNext c i arg2 harg2 arg3 harg3 arg4 harg4 arg5 harg5 arg6 harg6 arg7 harg7 hc x0 x1 x2 x3 xs).1)
/-- The accumulator after a later point's run. -/
def accNext (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i) (x0 x1 x2 : Vec F S512x1024 .bf16) (x3 : Vec F S512x512 .f32) (xs : Vec F S1x1 .f32) : Vec F S1x1 .f32 :=
  accView3.read (Elt F) (accView3.writes (Elt F) accView3.junk (lossRunNext c i arg2 harg2 arg3 harg3 arg4 harg4 arg5 harg5 arg6 harg6 arg7 harg7 hc x0 x1 x2 x3 xs).2.1)

/-- Each list of pieces covers its 1 x 1 buffer (every store writes the whole of it). -/
theorem cover_outFirst (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i) (x0 x1 x2 : Vec F S512x1024 .bf16) (x3 : Vec F S512x512 .f32) (y : S1x1.Idx) :
    ∃ pc ∈ (lossRunFirst c i arg2 harg2 arg3 harg3 arg4 harg4 arg5 harg5 arg6 harg6 arg7 harg7 hc x0 x1 x2 x3).1, y ∈ pc.1.set :=
  View.cover_of_tiledL (lossRunFirst c i arg2 harg2 arg3 harg3 arg4 harg4 arg5 harg5 arg6 harg6 arg7 harg7 hc x0 x1 x2 x3).1 S1x1.size (by sl_kernel_rfl) y
theorem cover_accFirst (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i) (x0 x1 x2 : Vec F S512x1024 .bf16) (x3 : Vec F S512x512 .f32) (y : S1x1.Idx) :
    ∃ pc ∈ (lossRunFirst c i arg2 harg2 arg3 harg3 arg4 harg4 arg5 harg5 arg6 harg6 arg7 harg7 hc x0 x1 x2 x3).2.1, y ∈ pc.1.set :=
  View.cover_of_tiledL (lossRunFirst c i arg2 harg2 arg3 harg3 arg4 harg4 arg5 harg5 arg6 harg6 arg7 harg7 hc x0 x1 x2 x3).2.1 S1x1.size (by sl_kernel_rfl) y
theorem cover_outNext (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i) (x0 x1 x2 : Vec F S512x1024 .bf16) (x3 : Vec F S512x512 .f32) (xs : Vec F S1x1 .f32) (y : S1x1.Idx) :
    ∃ pc ∈ (lossRunNext c i arg2 harg2 arg3 harg3 arg4 harg4 arg5 harg5 arg6 harg6 arg7 harg7 hc x0 x1 x2 x3 xs).1, y ∈ pc.1.set :=
  View.cover_of_tiledL (lossRunNext c i arg2 harg2 arg3 harg3 arg4 harg4 arg5 harg5 arg6 harg6 arg7 harg7 hc x0 x1 x2 x3 xs).1 S1x1.size (by sl_kernel_rfl) y
theorem cover_accNext (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i) (x0 x1 x2 : Vec F S512x1024 .bf16) (x3 : Vec F S512x512 .f32) (xs : Vec F S1x1 .f32) (y : S1x1.Idx) :
    ∃ pc ∈ (lossRunNext c i arg2 harg2 arg3 harg3 arg4 harg4 arg5 harg5 arg6 harg6 arg7 harg7 hc x0 x1 x2 x3 xs).2.1, y ∈ pc.1.set :=
  View.cover_of_tiledL (lossRunNext c i arg2 harg2 arg3 harg3 arg4 harg4 arg5 harg5 arg6 harg6 arg7 harg7 hc x0 x1 x2 x3 xs).2.1 S1x1.size (by sl_kernel_rfl) y

/-! ## The accumulation -/

/-- What the output block and the accumulator hold after the body at position `n` (output first): the first point's
    run on its blocks; a later point's run on its blocks and on the accumulator the point before left. -/
def lossAt (c : Dev nD) : (n : ℕ) → n < cfg3.N → Vec F S1x1 .f32 × Vec F S1x1 .f32
  | 0, hn =>
    (outFirst c (grid3.coords ⟨0, hn⟩) (mem3_0 ⟨0, hn⟩) (whole3_0 ⟨0, hn⟩) (mem3_1 ⟨0, hn⟩) (whole3_1 ⟨0, hn⟩) (mem3_2 ⟨0, hn⟩) (whole3_2 ⟨0, hn⟩) (mem3_3 ⟨0, hn⟩) (whole3_3 ⟨0, hn⟩) (mem3_4 ⟨0, hn⟩) (whole3_4 ⟨0, hn⟩) acc3 (Memref.isWhole_whole _) ((first3_iff ⟨0, hn⟩).mpr rfl) (blk3 V c 0 ⟨0, hn⟩) (blk3 V c 1 ⟨0, hn⟩) (blk3 V c 2 ⟨0, hn⟩) (blk3 V c 3 ⟨0, hn⟩),
     accFirst c (grid3.coords ⟨0, hn⟩) (mem3_0 ⟨0, hn⟩) (whole3_0 ⟨0, hn⟩) (mem3_1 ⟨0, hn⟩) (whole3_1 ⟨0, hn⟩) (mem3_2 ⟨0, hn⟩) (whole3_2 ⟨0, hn⟩) (mem3_3 ⟨0, hn⟩) (whole3_3 ⟨0, hn⟩) (mem3_4 ⟨0, hn⟩) (whole3_4 ⟨0, hn⟩) acc3 (Memref.isWhole_whole _) ((first3_iff ⟨0, hn⟩).mpr rfl) (blk3 V c 0 ⟨0, hn⟩) (blk3 V c 1 ⟨0, hn⟩) (blk3 V c 2 ⟨0, hn⟩) (blk3 V c 3 ⟨0, hn⟩))
  | n + 1, hn =>
    (outNext c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) (fun h => Nat.succ_ne_zero n ((first3_iff ⟨n + 1, hn⟩).mp h)) (blk3 V c 0 ⟨n + 1, hn⟩) (blk3 V c 1 ⟨n + 1, hn⟩) (blk3 V c 2 ⟨n + 1, hn⟩) (blk3 V c 3 ⟨n + 1, hn⟩) (lossAt c n (Nat.lt_of_succ_lt hn)).2,
     accNext c (grid3.coords ⟨n + 1, hn⟩) (mem3_0 ⟨n + 1, hn⟩) (whole3_0 ⟨n + 1, hn⟩) (mem3_1 ⟨n + 1, hn⟩) (whole3_1 ⟨n + 1, hn⟩) (mem3_2 ⟨n + 1, hn⟩) (whole3_2 ⟨n + 1, hn⟩) (mem3_3 ⟨n + 1, hn⟩) (whole3_3 ⟨n + 1, hn⟩) (mem3_4 ⟨n + 1, hn⟩) (whole3_4 ⟨n + 1, hn⟩) acc3 (Memref.isWhole_whole _) (fun h => Nat.succ_ne_zero n ((first3_iff ⟨n + 1, hn⟩).mp h)) (blk3 V c 0 ⟨n + 1, hn⟩) (blk3 V c 1 ⟨n + 1, hn⟩) (blk3 V c 2 ⟨n + 1, hn⟩) (blk3 V c 3 ⟨n + 1, hn⟩) (lossAt c n (Nat.lt_of_succ_lt hn)).2)

/-- `lossAt` at the first point. -/
theorem lossAt_first (c : Dev nD) (t : Fin cfg3.N) (h : t.val = 0) :
    lossAt V c t.val t.isLt =
      (outFirst c (grid3.coords t) (mem3_0 t) (whole3_0 t) (mem3_1 t) (whole3_1 t) (mem3_2 t) (whole3_2 t) (mem3_3 t) (whole3_3 t) (mem3_4 t) (whole3_4 t) acc3 (Memref.isWhole_whole _) ((first3_iff t).mpr h) (blk3 V c 0 t) (blk3 V c 1 t) (blk3 V c 2 t) (blk3 V c 3 t),
       accFirst c (grid3.coords t) (mem3_0 t) (whole3_0 t) (mem3_1 t) (whole3_1 t) (mem3_2 t) (whole3_2 t) (mem3_3 t) (whole3_3 t) (mem3_4 t) (whole3_4 t) acc3 (Memref.isWhole_whole _) ((first3_iff t).mpr h) (blk3 V c 0 t) (blk3 V c 1 t) (blk3 V c 2 t) (blk3 V c 3 t)) := by
  obtain ⟨n, hn⟩ := t
  cases n with
  | zero => rfl
  | succ n => exact absurd h (Nat.succ_ne_zero n)

/-- `lossAt` at a later point, over what the point before left in the accumulator. -/
theorem lossAt_next (c : Dev nD) (t : Fin cfg3.N) (h : t.val ≠ 0) :
    lossAt V c t.val t.isLt =
      (outNext c (grid3.coords t) (mem3_0 t) (whole3_0 t) (mem3_1 t) (whole3_1 t) (mem3_2 t) (whole3_2 t) (mem3_3 t) (whole3_3 t) (mem3_4 t) (whole3_4 t) acc3 (Memref.isWhole_whole _) (fun hc => h ((first3_iff t).mp hc)) (blk3 V c 0 t) (blk3 V c 1 t) (blk3 V c 2 t) (blk3 V c 3 t) (lossAt V c (t.val - 1) (Nat.lt_of_le_of_lt (Nat.sub_le _ _) t.isLt)).2,
       accNext c (grid3.coords t) (mem3_0 t) (whole3_0 t) (mem3_1 t) (whole3_1 t) (mem3_2 t) (whole3_2 t) (mem3_3 t) (whole3_3 t) (mem3_4 t) (whole3_4 t) acc3 (Memref.isWhole_whole _) (fun hc => h ((first3_iff t).mp hc)) (blk3 V c 0 t) (blk3 V c 1 t) (blk3 V c 2 t) (blk3 V c 3 t) (lossAt V c (t.val - 1) (Nat.lt_of_le_of_lt (Nat.sub_le _ _) t.isLt)).2) := by
  obtain ⟨n, hn⟩ := t
  cases n with
  | zero => exact absurd rfl h
  | succ n => rfl

/-! ## The region's invariant -/

/-- Before position `n`: at the start the class's invariant (every scoped buffer no window stages at anything, the
    generator register at some state); afterwards the same with the accumulator at what the point before left. -/
def carried (c : Dev nD) : (n : ℕ) → n ≤ cfg3.N → sProp 𝕄
  | 0, _ => Pipeline.ΦA spec3 c
  | n + 1, hn => iprop(iprop(owns (c : Thread nD τ) acc3 fullShare ((lossAt V c n hn).2) ∗ Pipeline.scopedRestBut (Ix := Unit) (Name := ℕ) (U := Pipeline.UD sig nD τ) (Lvl := ℕ) (Val := Elt F) spec3 c [cc3_scratch0]) ∗ (∃ r, prngReg c r))

theorem carried_zero (c : Dev nD) (n : ℕ) (h : n ≤ cfg3.N) (hz : n = 0) : carried V c n h = Pipeline.ΦA spec3 c := by
  subst hz; rfl

theorem carried_succ (c : Dev nD) (n : ℕ) (hn : n < cfg3.N) :
    carried V c (n + 1) hn = iprop(iprop(owns (c : Thread nD τ) acc3 fullShare ((lossAt V c n hn).2) ∗ Pipeline.scopedRestBut (Ix := Unit) (Name := ℕ) (U := Pipeline.UD sig nD τ) (Lvl := ℕ) (Val := Elt F) spec3 c [cc3_scratch0]) ∗ (∃ r, prngReg c r)) := rfl

theorem carried_pos (c : Dev nD) (n : ℕ) (h : n ≤ cfg3.N) (hz : n ≠ 0) :
    carried V c n h = iprop(iprop(owns (c : Thread nD τ) acc3 fullShare ((lossAt V c (n - 1) (by omega)).2) ∗ Pipeline.scopedRestBut (Ix := Unit) (Name := ℕ) (U := Pipeline.UD sig nD τ) (Lvl := ℕ) (Val := Elt F) spec3 c [cc3_scratch0]) ∗ (∃ r, prngReg c r)) := by
  cases n with
  | zero => exact absurd rfl hz
  | succ n => rfl

/-- The scoped buffers no window stages: the accumulator, and the rest unopened. -/
theorem rest3_eq (c : Dev nD) :
    (Pipeline.scopedRest (Ix := Unit) (Name := ℕ) (U := Pipeline.UD sig nD τ) (Lvl := ℕ) (Val := Elt F) spec3 c : sProp 𝕄) = iprop((∃ d, owns (c : Thread nD τ) acc3 fullShare d) ∗ Pipeline.scopedRestBut (Ix := Unit) (Name := ℕ) (U := Pipeline.UD sig nD τ) (Lvl := ℕ) (Val := Elt F) spec3 c [cc3_scratch0]) := by
  rw [Pipeline.scopedRest_split_of_list spec3 c [cc3_scratch0] (by decide) (by decide)]
  simp only [bigSepL, acc3, owns_whole]; try rfl

/-- The class's invariant with the accumulator split out of the scoped buffers no window stages. -/
theorem PhiA3_eq (c : Dev nD) :
    (Pipeline.ΦA spec3 c : sProp 𝕄)
      = iprop(iprop((∃ d, owns (c : Thread nD τ) acc3 fullShare d) ∗ Pipeline.scopedRestBut (Ix := Unit) (Name := ℕ) (U := Pipeline.UD sig nD τ) (Lvl := ℕ) (Val := Elt F) spec3 c [cc3_scratch0]) ∗ (∃ r, prngReg c r)) := by
  unfold Pipeline.ΦA
  rw [rest3_eq]

/-! ## The proof data -/

/-- The region's proof data on core `c`: the arrays as the region finds them; after the body at point `t` each input's
    buffer at its block and the output's at `lossAt`'s first component; the invariant `carried`; nothing owed; full
    shares. -/
def lossDat (c : Dev nD) : Dat τ (Elt F) Unit ℕ (Pipeline.UD sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => (lossAt V c t.val t.isLt).1
  Φ t := carried V c t.val (Nat.le_of_lt_succ t.isLt)
  q _ := fullShare
  owed _ := 0

theorem lossDat_A (c : Dev nD) (w : Fin cfg3.W) : (lossDat V c).A w = V c (Pipeline.arrRef spec3 w) := by
  dsimp only [lossDat]

theorem carried_castSucc (c : Dev nD) (t : Fin cfg3.N) :
    (lossDat V c).Φ t.castSucc = carried V c t.val (Nat.le_of_lt t.isLt) := by
  dsimp only [lossDat]; simp only [Fin.coe_castSucc]

theorem lossDat_after0 (c : Dev nD) (t : Fin cfg3.N) : (lossDat V c).after 0 t = blk3 V c 0 t := by dsimp only [lossDat]
theorem lossDat_after1 (c : Dev nD) (t : Fin cfg3.N) : (lossDat V c).after 1 t = blk3 V c 1 t := by dsimp only [lossDat]
theorem lossDat_after2 (c : Dev nD) (t : Fin cfg3.N) : (lossDat V c).after 2 t = blk3 V c 2 t := by dsimp only [lossDat]
theorem lossDat_after3 (c : Dev nD) (t : Fin cfg3.N) : (lossDat V c).after 3 t = blk3 V c 3 t := by dsimp only [lossDat]
theorem lossDat_after4 (c : Dev nD) (t : Fin cfg3.N) : (lossDat V c).after 4 t = (lossAt V c t.val t.isLt).1 := by dsimp only [lossDat]

theorem before3_0 (c : Dev nD) (t : Fin cfg3.N) (d) : (lossDat V c).before 0 t d = blk3 V c 0 t :=
  before3_0_of V (lossDat V c) (lossDat_A V c 0) (lossDat_after0 V c) t d
theorem before3_1 (c : Dev nD) (t : Fin cfg3.N) (d) : (lossDat V c).before 1 t d = blk3 V c 1 t :=
  before3_1_of V (lossDat V c) (lossDat_A V c 1) (lossDat_after1 V c) t d
theorem before3_2 (c : Dev nD) (t : Fin cfg3.N) (d) : (lossDat V c).before 2 t d = blk3 V c 2 t :=
  before3_2_of V (lossDat V c) (lossDat_A V c 2) (lossDat_after2 V c) t d
theorem before3_3 (c : Dev nD) (t : Fin cfg3.N) (d) : (lossDat V c).before 3 t d = blk3 V c 3 t :=
  before3_3_of V (lossDat V c) (lossDat_A V c 3) (lossDat_after3 V c) t d

/-! ## The body obligation -/

/-- What the body is called with at point `t`, the windows one by one, -/
def lossPre (c : Dev nD) (t : Fin cfg3.N) : sProp 𝕄 :=
  iprop((lossDat V c).Φ t.castSucc ∗ (lossDat V c).owesAt () t.castSucc
    ∗ (∃ d, owns (c : Thread nD τ) (mem3_0 t) fullShare ((lossDat V c).before 0 t d))
    ∗ (∃ d, owns (c : Thread nD τ) (mem3_1 t) fullShare ((lossDat V c).before 1 t d))
    ∗ (∃ d, owns (c : Thread nD τ) (mem3_2 t) fullShare ((lossDat V c).before 2 t d))
    ∗ (∃ d, owns (c : Thread nD τ) (mem3_3 t) fullShare ((lossDat V c).before 3 t d))
    ∗ (∃ d, owns (c : Thread nD τ) (mem3_4 t) fullShare ((lossDat V c).before 4 t d)))

/-- and what it returns. -/
def lossPost (c : Dev nD) (t : Fin cfg3.N) : sProp 𝕄 :=
  iprop((lossDat V c).Φ t.succ ∗ (lossDat V c).owesAt () t.succ
    ∗ owns (c : Thread nD τ) (mem3_0 t) fullShare ((lossDat V c).after 0 t)
    ∗ owns (c : Thread nD τ) (mem3_1 t) fullShare ((lossDat V c).after 1 t)
    ∗ owns (c : Thread nD τ) (mem3_2 t) fullShare ((lossDat V c).after 2 t)
    ∗ owns (c : Thread nD τ) (mem3_3 t) fullShare ((lossDat V c).after 3 t)
    ∗ owns (c : Thread nD τ) (mem3_4 t) fullShare ((lossDat V c).after 4 t))

set_option maxHeartbeats 2000000 in
/-- The body at any point: the inputs' memrefs hold their blocks; the point is the first or a later one, and that
    case's run applies; the invariant hands the body the accumulator — at anything at the first point, at what the
    point before left afterwards — and takes it back at this point's contents; the core owes nothing throughout. -/
theorem loss_body (c : Dev nD) (t : Fin cfg3.N) :
    lossPre V c t ⊢ wp frame (wpE (defs₀ (F := F)) Variants.none c none) Set.univ (bodyAt3 t) (fun _ => lossPost V c t) := by
  unfold lossPre lossPost bodyAt3
  simp only [before3_0, before3_1, before3_2, before3_3]
  rw [show (lossDat V c).owesAt () t.succ = (lossDat V c).owesAt () t.castSucc from rfl]
  rw [show (lossDat V c).Φ t.succ = carried V c (t.val + 1) t.isLt from rfl, carried_succ]
  rw [lossDat_after0, lossDat_after1, lossDat_after2, lossDat_after3, lossDat_after4]
  by_cases hz : t.val = 0
  · rw [lossAt_first V c t hz]
    unfold outFirst accFirst; (try dsimp only)
    rw [carried_castSucc V c t, carried_zero V c _ _ hz, PhiA3_eq]
    iintro ⟨⟨⟨HS, HR⟩, Hg⟩, Ho, ⟨%d0, H0⟩, ⟨%d1, H1⟩, ⟨%d2, H2⟩, ⟨%d3, H3⟩, ⟨%d4, H4⟩⟩
    iapply ((lossRunFirst c (grid3.coords t) _ _ _ _ _ _ _ _ _ _ _ _ ((first3_iff t).mpr hz) (blk3 V c 0 t) (blk3 V c 1 t) (blk3 V c 2 t) (blk3 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HR Hg]
    · isplitl [HS HR]
      · isplitl [HS]
        · unfold owns; iexists _; isplitr
          swap; · iexact HS
          ipureintro; exact View.read_writes_of_cover _ _ _ _ _ (cover_accFirst c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_outFirst c _ _ _ _ _ _ _ _ _ _ _ _ _ _ _ _ _ _)
  · rw [lossAt_next V c t hz]
    unfold outNext accNext; (try dsimp only)
    rw [carried_castSucc V c t, carried_pos V c _ _ hz]
    iintro ⟨⟨⟨HS, HR⟩, Hg⟩, Ho, ⟨%d0, H0⟩, ⟨%d1, H1⟩, ⟨%d2, H2⟩, ⟨%d3, H3⟩, ⟨%d4, H4⟩⟩
    iapply ((lossRunNext c (grid3.coords t) _ _ _ _ _ _ _ _ _ _ _ _ (fun hc => hz ((first3_iff t).mp hc)) (blk3 V c 0 t) (blk3 V c 1 t) (blk3 V c 2 t) (blk3 V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HR Hg]
    · isplitl [HS HR]
      · isplitl [HS]
        · unfold owns; iexists _; isplitr
          swap; · iexact HS
          ipureintro; exact View.read_writes_of_cover _ _ _ _ _ (cover_accNext c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_outNext c _ _ _ _ _ _ _ _ _ _ _ _ _ _ _ _ _ _ _)

/-- The library's body obligation, at every point. -/
theorem loss_obligation (c : Dev nD) : BodyObligation (lossDat (F := F) V c) (defs₀ (F := F)) Variants.none () Set.univ := fun t => by
  rw [bigSep_W3, bigSep_W3]
  exact loss_body V c t

/-- What the launch hands the region is the invariant before the first point. -/
theorem loss_in (c : Dev nD) :
    (iprop(Pipeline.scopedRest (Ix := Unit) (Name := ℕ) (U := Pipeline.UD sig nD τ) (Lvl := ℕ) (Val := Elt F) spec3 c ∗ ∃ r, prngReg c r) : sProp 𝕄) ⊢ (lossDat V c).Φ 0 := by
  rw [show (lossDat V c).Φ 0 = carried V c 0 (Nat.zero_le _) from rfl, carried_zero V c 0 _ rfl]
  unfold Pipeline.ΦA
  try exact Idealize.SL.BI.Entails.refl _

/-- After the last point the invariant gives back the generator register and the scoped buffers no window stages:
    the accumulator's contents are forgotten. -/
theorem loss_out (c : Dev nD) : (lossDat V c).Φ (Fin.last cfg3.N)
    ⊢ (iprop((∃ r, prngReg c r) ∗ BI.emp ∗ Pipeline.scopedRest (Ix := Unit) (Name := ℕ) (U := Pipeline.UD sig nD τ) (Lvl := ℕ) (Val := Elt F) spec3 c) : sProp 𝕄) := by
  rw [show (lossDat V c).Φ (Fin.last cfg3.N) = carried V c (Fin.last cfg3.N).val (Nat.le_of_lt_succ (Fin.last cfg3.N).isLt) from rfl,
    carried_pos V c _ _ (by rw [Fin.val_last]; have : cfg3.N = 64 := N_3; omega), rest3_eq]
  iintro ⟨⟨HS, HR⟩, Hg⟩
  isplitl [Hg]; · iexact Hg
  isplitr; · iempintro
  isplitl [HS]
  · iexists _; iexact HS
  iexact HR

end Cert.KernelIdeal.Fr

end
-- ==== Proof.FrRunKI.lean ====
/-
  The whole program's run: its four kernel regions and the closing host operations as segments, chained.

  Between two segments every unscoped buffer of the core is held at a named valuation: the launch memory, then after
  each region the same with the region's arrays at what its write-backs leave, then after the three host operations
  (reshape, the constant 2^24, the division) their results. Each argument array is read back through these valuations
  to its launch contents, and the result buffer is named: it holds the last valuation's value there.
-/
import proofs.«171225_j23708219474596_1_alg».proof.Proof.Gen.KernelIdeal.Launch
import proofs.«171225_j23708219474596_1_alg».proof.Proof.Gen.KernelIdeal.Skeleton
import proofs.«171225_j23708219474596_1_alg».proof.Proof.Gen.KernelIdeal.Points
import proofs.«171225_j23708219474596_1_alg».proof.Proof.Gen.KernelIdeal.Regions
import proofs.«171225_j23708219474596_1_alg».proof.Proof.FrNormKI
import proofs.«171225_j23708219474596_1_alg».proof.Proof.FrLossKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its arrays at what the pipeline leaves (the input as entered, the output's write-backs folded),
    every other buffer as entered. -/
def W1 (c : Dev nD) : Valuation τ sig (Elt F) :=
  Pipeline.withArrays spec0 c (W0 m ρ c) fun w => (rowsDat0 (V0 m ρ) c).arrAt w cfg0.N
theorem W1_arr (c : Dev nD) (w : Fin cfg0.W) :
    W1 m ρ c (Proc.devRef .tc (Pipeline.arrRef spec0 w)) = (rowsDat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (rowsDat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the input as entered, the output's write-backs folded),
    every other buffer as entered. -/
def W2 (c : Dev nD) : Valuation τ sig (Elt F) :=
  Pipeline.withArrays spec1 c (W1 m ρ c) fun w => (rowsDat1 (V1 m ρ) c).arrAt w cfg1.N
theorem W2_arr (c : Dev nD) (w : Fin cfg1.W) :
    W2 m ρ c (Proc.devRef .tc (Pipeline.arrRef spec1 w)) = (rowsDat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (rowsDat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the input as entered, the output's write-backs folded),
    every other buffer as entered. -/
def W3 (c : Dev nD) : Valuation τ sig (Elt F) :=
  Pipeline.withArrays spec2 c (W2 m ρ c) fun w => (rowsDat2 (V2 m ρ) c).arrAt w cfg2.N
theorem W3_arr (c : Dev nD) (w : Fin cfg2.W) :
    W3 m ρ c (Proc.devRef .tc (Pipeline.arrRef spec2 w)) = (rowsDat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (rowsDat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- At region 3's exit: its arrays at what the pipeline leaves (the input as entered, the output's write-backs folded),
    every other buffer as entered. -/
def W4 (c : Dev nD) : Valuation τ sig (Elt F) :=
  Pipeline.withArrays spec3 c (W3 m ρ c) fun w => (lossDat (V3 m ρ) c).arrAt w cfg3.N
theorem W4_arr (c : Dev nD) (w : Fin cfg3.W) :
    W4 m ρ c (Proc.devRef .tc (Pipeline.arrRef spec3 w)) = (lossDat (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
theorem hF3 (c : Dev nD) (w : Fin cfg3.W) : (lossDat (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-- After the closing host operations. -/
abbrev W5 (c : Dev nD) : Valuation τ sig (Elt F) := StableHlo.after hostOps4 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps4 _ hostOps4_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((rowsDat0 (V0 m ρ) c).arrAt_in 0 rfl _).trans (rowsDat0_A (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps4 _ hostOps4_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((rowsDat1 (V1 m ρ) c).arrAt_in 0 rfl _).trans (rowsDat1_A (V1 m ρ) c 0))
    _ = W0 m ρ c (Proc.devRef .tc main_arg1) := W1_of_ne m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps4 _ hostOps4_writes (by decide)
    _ = W3 m ρ c (Proc.devRef .tc main_arg2) := W4_of_ne m ρ c main_arg2 (by decide)
    _ = W2 m ρ c (Proc.devRef .tc main_arg2) := (W3_arr m ρ c 0).trans (((rowsDat2 (V2 m ρ) c).arrAt_in 0 rfl _).trans (rowsDat2_A (V2 m ρ) c 0))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps4 _ hostOps4_writes (by decide)
    _ = W3 m ρ c (Proc.devRef .tc main_arg3) := (W4_arr m ρ c 3).trans (((lossDat (V3 m ρ) c).arrAt_in 3 rfl _).trans (lossDat_A (V3 m ρ) c 3))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (Pipeline.UD sig nD τ) ℕ (Pipeline.pin (pcfgs (F := F)) adm p) c
  | ⟨0, _⟩ => fun c => rowsDat0 (V0 m ρ) c
  | ⟨1, _⟩ => fun c => rowsDat1 (V1 m ρ) c
  | ⟨2, _⟩ => fun c => rowsDat2 (V2 m ρ) c
  | ⟨3, _⟩ => fun c => lossDat (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over the pinned configuration unifies only when unification may unfold plain
-- definitions in a metavariable's type
set_option backward.isDefEq.respectTransparency.types false in
/-- Region 0 over the thread state: entered from every unscoped buffer at `W0`, left at `W1`. Its arrays are split
    out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (rows_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W1`, left at `W2`. Its arrays are split
    out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (rows_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 over the thread state: entered from every unscoped buffer at `W2`, left at `W3`. Its arrays are split
    out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (rows_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 3 over the thread state: entered from every unscoped buffer at `W3`, left at `W4`. Its arrays are split
    out of the unscoped buffers and put back at the exit contents; the generator register goes into the class
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (loss_obligation (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := Pipeline.UD sig nD τ) (Lvl := ℕ) (Val := Elt F) spec3 c ∗ ∃ r, prngReg c r) : sProp 𝕄)
        ⊢ (pdats m ρ 3 c).Φ 0 := loss_in (V3 m ρ) c
    iintro ⟨Hp, -, Hr⟩
    iapply h
    isplitl [Hr]; · iexact Hr
    iexact Hp
  hout c := by
    rw [Pipeline.ownSems0_none]
    exact loss_out (V3 m ρ) c
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ), .region (reg3 m ρ),
    .host (hseg hostOps4 hostOps4_sub hostOps4_fresh (W4 m ρ)) ]

theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN. From any memory with zero counters every weakly fair execution of @main terminates, nothing faulting,
    and in every final state the result buffer holds the last valuation's value and the four argument arrays are
    as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => show iprop(StableHlo.held (c : Thread nD τ) (Pipeline.ucRefs τ sig) (W5 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Fr

end
-- ==== Proof.Spec.lean ====
/-
  The specification both programs are compared with, on the extended reals.

  For a matrix `a` of 4096 rows and 1024 columns, row `i` is divided by `max (sqrt (sum_k a i k ^ 2)) eps`
  (`nrm`); the similarity of row `i` of `f` and row `j` of `t` is the inner product of the two divided rows
  (`sim`); a pair `(i, j)` with label `l` and similarity `s` costs `l * (1 - s) + (1 - l) * max (s - 1/2) 0`
  (`pair`); the result is the sum of the cost over all pairs for the first feature matrix plus the same sum for the
  second, divided by 2^24 (`result`). The float literals are kept as the words both programs print.
-/
import Idealize.ShloMosaic.PureOps.Ideal
import Idealize.ShloMosaic.Lib.ValueIdx

noncomputable section

namespace Cert.Spec

open Idealize.ShloMosaic

/-- The clamp of a row's norm, 1e-8 as the f32 word both programs print. -/
def eps : EReal := Ideal.ofBits .f32 0x322BCC77#32
/-- The f32 word of 1. -/
def one : EReal := Ideal.ofBits .f32 0x3F800000#32
/-- The f32 word of 1/2 (the margin). -/
def half : EReal := Ideal.ofBits .f32 0x3F000000#32
/-- The f32 word of 2^24 = 4096 * 4096 (the number of pairs). -/
def count : EReal := Ideal.ofBits .f32 0x4B800000#32

/-- What row `i` of `a` is divided by: its Euclidean norm, clamped below by `eps`. -/
def denom (a : Fin 4096 → Fin 1024 → EReal) (i : Fin 4096) : EReal :=
  max (Ideal.sqrt (∑ k : Fin 1024, a i k * a i k)) eps

/-- The row-normalized matrix. -/
def nrm (a : Fin 4096 → Fin 1024 → EReal) (i : Fin 4096) (k : Fin 1024) : EReal :=
  Ideal.div (a i k) (denom a i)

/-- The similarity of row `i` of `f` and row `j` of `t`, both normalized. -/
def sim (f t : Fin 4096 → Fin 1024 → EReal) (i j : Fin 4096) : EReal :=
  ∑ k : Fin 1024, nrm f i k * nrm t j k

/-- The cost of one pair: label `l`, similarity `s`. -/
def pair (l s : EReal) : EReal :=
  l * (one - s) + (one - l) * max (s - half) 0

/-- The summed cost of all pairs for one feature matrix. -/
def total (f t : Fin 4096 → Fin 1024 → EReal) (lbl : Fin 4096 → Fin 4096 → EReal) : EReal :=
  ∑ i : Fin 4096, ∑ j : Fin 4096, pair (lbl i j) (sim f t i j)

/-- The loss: both feature matrices' totals, averaged over the 2^24 pairs. -/
def result (f0 f1 t : Fin 4096 → Fin 1024 → EReal) (lbl : Fin 4096 → Fin 4096 → EReal) : EReal :=
  Ideal.div (total f0 t lbl + total f1 t lbl) count

end Cert.Spec

end
-- ==== Proof.PayNorm.lean ====
/-
  The row-normalization payload read at one entry, on the extended reals.

  The body takes a block `x` of 512 rows and 1024 columns, squares it entry by entry, sums each row's squares along
  the lanes, stands the 512 sums up as a column, takes the square root, clamps it below by the word of 1e-8, spreads
  each row's clamped norm back along the row, and divides. Read at entry `(r, c)` that is
  `x r c / max (sqrt (∑ k, x r k * x r k)) eps`: the change of float format at the end is the identity on the
  extended reals, and every layout operation reads ONE entry of its operand — the lane sum at row `r` the entries
  `(r, k)`, the column cast at `(r, 0)` the sum at `r`, the spread at `(r, c)` the column at `(r, 0)`.
  The three layout facts are stated once over any number of rows and columns (`laneSum_apply`, `colCast_apply`,
  `colSpread_apply`); the tile payload's module uses them again.
-/
import proofs.«171225_j23708219474596_1_alg».proof.Proof.Gen.KernelIdeal.Skeleton
import proofs.«171225_j23708219474596_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayValue

open Cert.KernelIdeal Cert.KernelIdeal.Gen Idealize.ShloMosaic Idealize.ShloMosaic.ValueIdx

/-! ## Three layout operations at an entry, over any extents -/

/-- A sum along the lanes (axis 1) of an `m × n` vector, started from the zero word, read at row `r`: the sum of
    that row's `n` entries. -/
theorem laneSum_apply {m n : ℕ} (src : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (r : Fin m) :
    multiReduction .add [1] ⟨1, ![m]⟩ src 0x00000000#32 h hφ hacc (ix1 r) = ∑ k : Fin n, src (ix2 r k) := by
  refine (Ideal.multiReduction_add_single src 0x00000000#32 h hφ hacc (ix1 r)).trans ?_
  show ∑ k : Fin n, src (h.lift (ix1 r) k) = _
  refine Finset.sum_congr rfl fun k _ => congrArg src (funext fun a => Fin.ext ?_)
  match a with
  | ⟨0, _⟩ => rfl
  | ⟨1, _⟩ => rfl

/-- `m` values stood up as an `m × 1` column: the column at `(r, u)` is value `r`. -/
theorem colCast_apply {α : Type} {m : ℕ} (v : (⟨1, ![m]⟩ : Shape).Idx → α)
    (h : (⟨1, ![m]⟩ : Shape).ShapeCasts ⟨2, ![m, 1]⟩) (r : Fin m) (u : Fin 1) :
    shapeCast ⟨2, ![m, 1]⟩ v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- An `m × 1` column spread over `n` lanes: the result at `(r, c)` is the column at `(r, 0)`. -/
theorem colSpread_apply {α : Type} {m n : ℕ} (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r (0 : Fin 1)) := by
  refine broadcastTo_apply v h (ix2 r c) (ix2 r (0 : Fin 1)) fun ax => ?_
  match ax with
  | ⟨0, _⟩ =>
    show r.val = if m = 1 then 0 else r.val
    split
    · have := r.isLt; omega
    · rfl
  | ⟨1, _⟩ =>
    show 0 = if (1 : ℕ) = 1 then 0 else c.val
    rw [if_pos rfl]

/-! ## The payload -/

/-- The first normalization's payload at entry `(r, c)`: the entry over its row's clamped norm. -/
theorem k0_pay1_apply (x : Vec Ideal S512x1024 .f32) (r : Fin 512) (c : Fin 1024) :
    k0_pay1 (F := Ideal) x (ix2 r c)
      = Ideal.div (x (ix2 r c)) (max (Ideal.sqrt (∑ k : Fin 1024, x (ix2 r k) * x (ix2 r k))) Cert.Spec.eps) := by
  unfold k0_pay1
  -- the format change and the division read through; what is left is the divisor at (r, c)
  refine congrArg (Ideal.div (x (ix2 r c))) ?_
  -- the spread reads the column at (r, 0)
  refine (colSpread_apply _ _ r c).trans ?_
  -- there: max (sqrt (column at (r, 0))) eps
  refine congrArg (fun t => max (Ideal.sqrt t) Cert.Spec.eps) ?_
  -- the column at (r, 0) is the lane sum at r
  refine (colCast_apply _ _ r 0).trans ?_
  exact laneSum_apply (mulf x x) _ _ _ r

/-- The second normalization's payload is the same function. -/
theorem k1_pay1_apply (x : Vec Ideal S512x1024 .f32) (r : Fin 512) (c : Fin 1024) :
    k1_pay1 (F := Ideal) x (ix2 r c)
      = Ideal.div (x (ix2 r c)) (max (Ideal.sqrt (∑ k : Fin 1024, x (ix2 r k) * x (ix2 r k))) Cert.Spec.eps) :=
  k0_pay1_apply x r c

/-- The third normalization's payload is the same function. -/
theorem k2_pay1_apply (x : Vec Ideal S512x1024 .f32) (r : Fin 512) (c : Fin 1024) :
    k2_pay1 (F := Ideal) x (ix2 r c)
      = Ideal.div (x (ix2 r c)) (max (Ideal.sqrt (∑ k : Fin 1024, x (ix2 r k) * x (ix2 r k))) Cert.Spec.eps) :=
  k0_pay1_apply x r c

end Cert.KernelIdeal.PayValue

end
-- ==== Proof.NormArr.lean ====
/-
  The three row-normalization launches' output arrays, entry by entry, on the extended reals.

  A launch walks its 4096 × 1024 input in eight blocks of 512 whole rows; at point `t` it writes block `t` of the
  output, each entry the input entry over its row's clamped norm. A row's norm needs only that row, and every row lies
  whole inside one block, so block `t` of the output is block `t` of ONE array: the row-normalized input
  (`Cert.Spec.nrm`). The eight blocks tile the output array (row `r` is in block `r / 512`), so after the launch the
  output array is that array.
-/
import proofs.«171225_j23708219474596_1_alg».proof.Proof.FrNormKI
import proofs.«171225_j23708219474596_1_alg».proof.Proof.PayNorm
import proofs.«171225_j23708219474596_1_alg».proof.Proof.Spec
import Idealize.ShloMosaic.Lib.Pipeline.Value
import Idealize.ShloMosaic.Lib.ValueIdx

noncomputable section

open scoped BigOperators

namespace Cert.KernelIdeal.Fr

open Cert.KernelIdeal Cert.KernelIdeal.Gen Cert.KernelIdeal.PayValue
open Idealize.ShloMosaic Idealize.ShloMosaic.TcCoe Idealize.ShloMosaic.ValueIdx Idealize.SL.Sem
open Idealize.ShloMosaic.Pipeline (Dat)

/-- The whole-block rectangle starts at the origin. -/
theorem rows_origin : (![0, 0] : Fin 2 → Nat) = fun _ => 0 := funext fun a => by fin_cases a <;> rfl

/-- The row-normalized array of `a`: entry `(i, k)` is `a i k` over row `i`'s clamped norm. -/
def nrmArr (a : S4096x1024.Idx → EReal) : S4096x1024.Idx → EReal :=
  fun idx => Cert.Spec.nrm (fun i k => a (ix2 i k)) (idx 0) (idx 1)

/-! # One block against the whole array -/

/-- The output block of launch 0 as a function of its input block `x0`, against the normalized array of `a`: when
    `x0` is rows `512 b … 512 b + 511` of `a`, entry `j` of the output block is entry `idx` of the normalized array,
    for `idx` the place of `j` in the array. The sum of squares over a row of the block is the sum over the same row
    of the array, column by column. -/
theorem normed0_eq_nrmArr (x0 : Vec Ideal S512x1024 .f32) (a : S4096x1024.Idx → EReal) (b : ℕ) (hb : b < 8)
    (hx : ∀ (r : Fin 512) (k : Fin 1024), x0 (ix2 r k) = a (ix2 ⟨b * 512 + r.val, by omega⟩ k))
    (j : S512x1024.Idx) (idx : S4096x1024.Idx) (h0 : (idx 0).val = b * 512 + (j 0).val) (h1 : (idx 1).val = (j 1).val) :
    normed0 x0 j = nrmArr a idx := by
  obtain ⟨r, k, rfl⟩ : ∃ (r : Fin 512) (k : Fin 1024), j = ix2 r k := ⟨j 0, j 1, eq_ix2 j⟩
  have hlt : b * 512 + r.val < 4096 := by have := r.isLt; omega
  obtain rfl : idx = ix2 ⟨b * 512 + r.val, hlt⟩ k :=
    funext fun ax => Fin.ext (by match ax with | ⟨0, _⟩ => exact h0 | ⟨1, _⟩ => exact h1)
  unfold normed0
  rw [View.canon_unit_zero rows_origin]
  simp only [View.ld_unit_zero (S := S512x1024) rows_origin]
  rw [k0_pay1_apply, hx]
  show _ = Cert.Spec.nrm (fun i k => a (ix2 i k)) ⟨b * 512 + r.val, _⟩ k
  unfold Cert.Spec.nrm Cert.Spec.denom
  refine congrArg (fun s => Ideal.div (a (ix2 ⟨b * 512 + r.val, _⟩ k)) (max (Ideal.sqrt s) Cert.Spec.eps)) ?_
  exact Finset.sum_congr rfl fun k'' _ => by rw [hx]

/-- The output block of launch 1 as a function of its input block `x0`, against the normalized array of `a`: when
    `x0` is rows `512 b … 512 b + 511` of `a`, entry `j` of the output block is entry `idx` of the normalized array,
    for `idx` the place of `j` in the array. The sum of squares over a row of the block is the sum over the same row
    of the array, column by column. -/
theorem normed1_eq_nrmArr (x0 : Vec Ideal S512x1024 .f32) (a : S4096x1024.Idx → EReal) (b : ℕ) (hb : b < 8)
    (hx : ∀ (r : Fin 512) (k : Fin 1024), x0 (ix2 r k) = a (ix2 ⟨b * 512 + r.val, by omega⟩ k))
    (j : S512x1024.Idx) (idx : S4096x1024.Idx) (h0 : (idx 0).val = b * 512 + (j 0).val) (h1 : (idx 1).val = (j 1).val) :
    normed1 x0 j = nrmArr a idx := by
  obtain ⟨r, k, rfl⟩ : ∃ (r : Fin 512) (k : Fin 1024), j = ix2 r k := ⟨j 0, j 1, eq_ix2 j⟩
  have hlt : b * 512 + r.val < 4096 := by have := r.isLt; omega
  obtain rfl : idx = ix2 ⟨b * 512 + r.val, hlt⟩ k :=
    funext fun ax => Fin.ext (by match ax with | ⟨0, _⟩ => exact h0 | ⟨1, _⟩ => exact h1)
  unfold normed1
  rw [View.canon_unit_zero rows_origin]
  simp only [View.ld_unit_zero (S := S512x1024) rows_origin]
  rw [k1_pay1_apply, hx]
  show _ = Cert.Spec.nrm (fun i k => a (ix2 i k)) ⟨b * 512 + r.val, _⟩ k
  unfold Cert.Spec.nrm Cert.Spec.denom
  refine congrArg (fun s => Ideal.div (a (ix2 ⟨b * 512 + r.val, _⟩ k)) (max (Ideal.sqrt s) Cert.Spec.eps)) ?_
  exact Finset.sum_congr rfl fun k'' _ => by rw [hx]

/-- The output block of launch 2 as a function of its input block `x0`, against the normalized array of `a`: when
    `x0` is rows `512 b … 512 b + 511` of `a`, entry `j` of the output block is entry `idx` of the normalized array,
    for `idx` the place of `j` in the array. The sum of squares over a row of the block is the sum over the same row
    of the array, column by column. -/
theorem normed2_eq_nrmArr (x0 : Vec Ideal S512x1024 .f32) (a : S4096x1024.Idx → EReal) (b : ℕ) (hb : b < 8)
    (hx : ∀ (r : Fin 512) (k : Fin 1024), x0 (ix2 r k) = a (ix2 ⟨b * 512 + r.val, by omega⟩ k))
    (j : S512x1024.Idx) (idx : S4096x1024.Idx) (h0 : (idx 0).val = b * 512 + (j 0).val) (h1 : (idx 1).val = (j 1).val) :
    normed2 x0 j = nrmArr a idx := by
  obtain ⟨r, k, rfl⟩ : ∃ (r : Fin 512) (k : Fin 1024), j = ix2 r k := ⟨j 0, j 1, eq_ix2 j⟩
  have hlt : b * 512 + r.val < 4096 := by have := r.isLt; omega
  obtain rfl : idx = ix2 ⟨b * 512 + r.val, hlt⟩ k :=
    funext fun ax => Fin.ext (by match ax with | ⟨0, _⟩ => exact h0 | ⟨1, _⟩ => exact h1)
  unfold normed2
  rw [View.canon_unit_zero rows_origin]
  simp only [View.ld_unit_zero (S := S512x1024) rows_origin]
  rw [k2_pay1_apply, hx]
  show _ = Cert.Spec.nrm (fun i k => a (ix2 i k)) ⟨b * 512 + r.val, _⟩ k
  unfold Cert.Spec.nrm Cert.Spec.denom
  refine congrArg (fun s => Ideal.div (a (ix2 ⟨b * 512 + r.val, _⟩ k)) (max (Ideal.sqrt s) Cert.Spec.eps)) ?_
  exact Finset.sum_congr rfl fun k'' _ => by rw [hx]

-- the TensorCore's buffer contents when a launch is entered
variable (V : (c : Dev nD) → (b : Ref sig .tc) → Buf (Elt Ideal) ((c : Thread nD τ).loc b))

/-! # Launch 0: the first matrix -/

/-- The launch's index maps, decided over its eight points: at point `t` both windows are on row block `t` and on
    the one column block. -/
theorem rows_idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` is rows `512 t … 512 t + 511` of the input array. -/
theorem blk0_apply (c : Dev nD) (t : Fin cfg0.N) (r : Fin 512) (k : Fin 1024) (ht : t.val * 512 + r.val < 4096) :
    (blk0 V c 0 t : Vec Ideal S512x1024 .f32) (ix2 r k)
      = (V c main_arg0 : S4096x1024.Idx → EReal) (ix2 ⟨t.val * 512 + r.val, ht⟩ k) := by
  obtain ⟨e0, e1, -, -⟩ := rows_idx0 t
  unfold blk0
  rw [View.read_apply]
  show (V c main_arg0 : S4096x1024.Idx → EReal) (((cfg0.win 0).blk t).view.emb (ix2 r k)) = _
  refine congrArg (V c main_arg0 : S4096x1024.Idx → EReal) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 1024 + 1 * k.val = k.val; rw [e1]; omega

/-- What point `t` writes back is block `t` of the row-normalized input array: an entry's divisor is the clamped
    norm of its own row, and the row lies whole inside the block. -/
theorem rows_flushed0 (c : Dev nD) (t : Fin cfg0.N) :
    (rowsDat0 (F := Ideal) V c).flushed 1 t
      = ((cfg0.win 1).blk t).view.read (Elt Ideal) (nrmArr (V c main_arg0)) := by
  show (cfg0.win 1).cut (grid0.coords t) ((rowsDat0 (F := Ideal) V c).after 1 t) = _
  rw [rowsDat0_after1]
  obtain ⟨-, -, e2, e3⟩ := rows_idx0 t
  have hN : t.val < 8 := by have := t.isLt; have hN : cfg0.N = 8 := N_0; omega
  funext j
  rw [View.read_apply]
  show normed0 (blk0 V c 0 t) j = nrmArr (V c main_arg0) (((cfg0.win 1).blk t).view.emb j)
  refine normed0_eq_nrmArr (blk0 V c 0 t) (V c main_arg0) t.val hN (fun r k => blk0_apply V c t r k _) j _ ?_ ?_
  · show win0_1.index t (0 : Fin 2) * 512 + 1 * (j 0).val = t.val * 512 + (j 0).val; rw [e2]; omega
  · show win0_1.index t (1 : Fin 2) * 1024 + 1 * (j 1).val = (j 1).val; rw [e3]; omega

/-- An index of the output array is in point `t`'s block iff each coordinate is in the block's range on its axis. -/
theorem rows_mem0 (t : Fin cfg0.N) (i : S4096x1024.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v0).slice (win0_1.rect t)).set ↔ _
  rw [View.set_slice_whole, Rect.mem_set_unit]
  exact Iff.rfl

/-- Every index of the output array is in the block of the point its row falls in: row `r` in block `r / 512`. -/
theorem rows_cover0 (i : S4096x1024.Idx) :
    ∃ t : Fin cfg0.N, (cfg0.win 1).flush t = true ∧ i ∈ ((cfg0.win 1).blk t).view.set := by
  have hi0 : (i 0).val < 4096 := (i 0).isLt
  have hi1 : (i 1).val < 1024 := (i 1).isLt
  have hN : cfg0.N = 8 := N_0
  refine ⟨⟨(i 0).val / 512, by omega⟩, flush0_1 _, ?_⟩
  obtain ⟨-, -, e2, e3⟩ := rows_idx0 ⟨(i 0).val / 512, by omega⟩
  rw [rows_mem0]
  intro a
  match a with
  | ⟨0, _⟩ =>
    show win0_1.index ⟨(i 0).val / 512, _⟩ (0 : Fin 2) * 512 ≤ (i 0).val ∧ (i 0).val < win0_1.index ⟨(i 0).val / 512, _⟩ (0 : Fin 2) * 512 + 512
    rw [e2]; show (i 0).val / 512 * 512 ≤ (i 0).val ∧ (i 0).val < (i 0).val / 512 * 512 + 512; omega
  | ⟨1, _⟩ =>
    show win0_1.index ⟨(i 0).val / 512, _⟩ (1 : Fin 2) * 1024 ≤ (i 1).val ∧ (i 1).val < win0_1.index ⟨(i 0).val / 512, _⟩ (1 : Fin 2) * 1024 + 1024
    rw [e3]; omega

/-- The output array after the launch's eight write-backs is the row-normalized input array. -/
theorem normArr0_eq (c : Dev nD) : (rowsDat0 (F := Ideal) V c).arrAt 1 cfg0.N = nrmArr (V c main_arg0) :=
  (rowsDat0 (F := Ideal) V c).arrAt_eq_of_cover 1 (nrmArr (V c main_arg0)) (fun t _ => rows_flushed0 V c t) rows_cover0

/-- Entry by entry: entry `(i, k)` of the output array is entry `(i, k)` of the input array over row `i`'s clamped
    norm. -/
theorem normArr0 (c : Dev nD) (i : Fin 4096) (k : Fin 1024) :
    ((rowsDat0 (F := Ideal) V c).arrAt 1 cfg0.N : S4096x1024.Idx → EReal) (ix2 i k)
      = Cert.Spec.nrm (fun i k => (V c (Pipeline.arrRef spec0 0) : S4096x1024.Idx → EReal) (ix2 i k)) i k := by
  rw [normArr0_eq]
  rfl

/-! # Launch 1: the second matrix -/

/-- The launch's index maps, decided over its eight points: at point `t` both windows are on row block `t` and on
    the one column block. -/
theorem rows_idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The input block at point `t` is rows `512 t … 512 t + 511` of the input array. -/
theorem blk1_apply (c : Dev nD) (t : Fin cfg1.N) (r : Fin 512) (k : Fin 1024) (ht : t.val * 512 + r.val < 4096) :
    (blk1 V c 0 t : Vec Ideal S512x1024 .f32) (ix2 r k)
      = (V c main_arg1 : S4096x1024.Idx → EReal) (ix2 ⟨t.val * 512 + r.val, ht⟩ k) := by
  obtain ⟨e0, e1, -, -⟩ := rows_idx1 t
  unfold blk1
  rw [View.read_apply]
  show (V c main_arg1 : S4096x1024.Idx → EReal) (((cfg1.win 0).blk t).view.emb (ix2 r k)) = _
  refine congrArg (V c main_arg1 : S4096x1024.Idx → EReal) (funext fun a => Fin.ext ?_)
  match a with
  | ⟨0, _⟩ => show win1_0.index t (0 : Fin 2) * 512 + 1 * r.val = t.val * 512 + r.val; rw [e0]; omega
  | ⟨1, _⟩ => show win1_0.index t (1 : Fin 2) * 1024 + 1 * k.val = k.val; rw [e1]; omega

/-- What point `t` writes back is block `t` of the row-normalized input array: an entry's divisor is the clamped
    norm of its own row, and the row lies whole inside the block. -/
theorem rows_flushed1 (c : Dev nD) (t : Fin cfg1.N) :
    (rowsDat1 (F := Ideal) V c).flushed 1 t
      = ((cfg1.win 1).blk t).view.read (Elt Ideal) (nrmArr (V c main_arg1)) := by
  show (cfg1.win 1).cut (grid1.coords t) ((rowsDat1 (F := Ideal) V c).after 1 t) = _
  rw [rowsDat1_after1]
  obtain ⟨-, -, e2, e3⟩ := rows_idx1 t
  have hN : t.val < 8 := by have := t.isLt; have hN : cfg1.N = 8 := N_1; omega
  funext j
  rw [View.read_apply]
  show normed1 (blk1 V c 0 t) j = nrmArr (V c main_arg1) (((cfg1.win 1).blk t).view.emb j)
  refine normed1_eq_nrmArr (blk1 V c 0 t) (V c main_arg1) t.val hN (fun r k => blk1_apply V c t r k _) j _ ?_ ?_
  · show win1_1.index t (0 : Fin 2) * 512 + 1 * (j 0).val = t.val * 512 + (j 0).val; rw [e2]; omega
  · show win1_1.index t (1 : Fin 2) * 1024 + 1 * (j 1).val = (j 1).val; rw [e3]; omega

/-- An index of the output array is in point `t`'s block iff each coordinate is in the block's range on its axis. -/
theorem rows_mem1 (t : Fin cfg1.N) (i : S4096x1024.Idx) :
    i ∈ ((cfg1.win 1).blk t).view.set ↔ ∀ a : Fin 2, win1_1.index t a * S512x1024.size a ≤ (i a).val ∧ (i a).val < win1_1.index t a * S512x1024.size a + S512x1024.size a := by
  show i ∈ ((View.whole main_v1).slice (win1_1.rect t)).set ↔ _
  rw [View.set_slice_whole, Rect.mem_set_unit]
  exact Iff.rfl

/-- Every index of the output array is in the block of the point its row falls in: row `r` in block `r / 512`. -/
theorem rows_cover1 (i : S4096x1024.Idx) :
    ∃ t : Fin cfg1.N, (cfg1.win 1).flush t = true ∧ i ∈ ((cfg1.win 1).blk t).view.set := by
  have hi0 : (i 0).val < 4096 := (i 0).isLt
  have hi1 : (i 1).val < 1024 := (i 1).isLt
  have hN : cfg1.N = 8 := N_1
  refine ⟨⟨(i 0).val / 512, by omega⟩, flush1_1 _, ?_⟩
  obtain ⟨-, -, e2, e3⟩ := rows_idx1 ⟨(i 0).val / 512, by omega⟩
  rw [rows_mem1]
  intro a
  match a with
  | ⟨0, _⟩ =>
    show win1_1.index ⟨(i 0).val / 512, _⟩ (0 : Fin 2) * 512 ≤ (i 0).val ∧ (i 0).val < win1_1.index ⟨(i 0).val / 512, _⟩ (0 : Fin 2) * 512 + 512
    rw [e2]; show (i 0).val / 512 * 512 ≤ (i 0).val ∧ (i 0).val < (i 0).val / 512 * 512 + 512; omega
  | ⟨1, _⟩ =>
    show win1_1.index ⟨(i 0).val / 512, _⟩ (1 : Fin 2) * 1024 ≤ (i 1).val ∧ (i 1).val < win1_1.index ⟨(i 0).val / 512, _⟩ (1 : Fin 2) * 1024 + 1024
    rw [e3]; omega

/-- The output array after the launch's eight write-backs is the row-normalized input array. -/
theorem normArr1_eq (c : Dev nD) : (rowsDat1 (F := Ideal) V c).arrAt 1 cfg1.N = nrmArr (V c main_arg1) :=
  (rowsDat1 (F := Ideal) V c).arrAt_eq_of_cover 1 (nrmArr (V c main_arg1)) (fun t _ => rows_flushed1 V c t) rows_cover1

/-- Entry by entry: entry `(i, k)` of the output array is entry `(i, k)` of the input array over row `i`'s clamped
    norm. -/
theorem normArr1 (c : Dev nD) (i : Fin 4096) (k : Fin 1024) :
    ((rowsDat1 (F := Ideal) V c).arrAt 1 cfg1.N : S4096x1024.Idx → EReal) (ix2 i k)
      = Cert.Spec.nrm (fun i k => (V c (Pipeline.arrRef spec1 0) : S4096x1024.Idx → EReal) (ix2 i k)) i k := by
  rw [normArr1_eq]
  rfl

/-! # Launch 2: the third matrix -/

/-- The launch's index maps, decided over its eight points: at point `t` both windows are on row block `t` and on
    the one column block. -/
theorem rows_idx2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The input block at point `t` is rows `512 t … 512 t + 511` of the input array. -/
theorem blk2_apply (c : Dev nD) (t : Fin cfg2.N) (r : Fin 512) (k : Fin 1024) (ht : t.val * 512 + r.val < 4096) :
    (blk2 V c 0 t : Vec Ideal S512x1024 .f32) (ix2 r k)
      = (V c main_arg2 : S4096x1024.Idx → EReal) (ix2 ⟨t.val * 512 + r.val, ht⟩ k) := by
  obtain ⟨e0, e1, -, -⟩ := rows_idx2 t
  unfold blk2
  rw [View.read_apply]
  show (V c main_arg2 : S4096x1024.Idx → EReal) (((cfg2.win 0).blk t).view.emb (ix2 r k)) = _
  refine congrArg (V c main_arg2 : S4096x1024.Idx → EReal) (funext fun a => Fin.ext ?_)
  match a with
  | ⟨0, _⟩ => show win2_0.index t (0 : Fin 2) * 512 + 1 * r.val = t.val * 512 + r.val; rw [e0]; omega
  | ⟨1, _⟩ => show win2_0.index t (1 : Fin 2) * 1024 + 1 * k.val = k.val; rw [e1]; omega

/-- What point `t` writes back is block `t` of the row-normalized input array: an entry's divisor is the clamped
    norm of its own row, and the row lies whole inside the block. -/
theorem rows_flushed2 (c : Dev nD) (t : Fin cfg2.N) :
    (rowsDat2 (F := Ideal) V c).flushed 1 t
      = ((cfg2.win 1).blk t).view.read (Elt Ideal) (nrmArr (V c main_arg2)) := by
  show (cfg2.win 1).cut (grid2.coords t) ((rowsDat2 (F := Ideal) V c).after 1 t) = _
  rw [rowsDat2_after1]
  obtain ⟨-, -, e2, e3⟩ := rows_idx2 t
  have hN : t.val < 8 := by have := t.isLt; have hN : cfg2.N = 8 := N_2; omega
  funext j
  rw [View.read_apply]
  show normed2 (blk2 V c 0 t) j = nrmArr (V c main_arg2) (((cfg2.win 1).blk t).view.emb j)
  refine normed2_eq_nrmArr (blk2 V c 0 t) (V c main_arg2) t.val hN (fun r k => blk2_apply V c t r k _) j _ ?_ ?_
  · show win2_1.index t (0 : Fin 2) * 512 + 1 * (j 0).val = t.val * 512 + (j 0).val; rw [e2]; omega
  · show win2_1.index t (1 : Fin 2) * 1024 + 1 * (j 1).val = (j 1).val; rw [e3]; omega

/-- An index of the output array is in point `t`'s block iff each coordinate is in the block's range on its axis. -/
theorem rows_mem2 (t : Fin cfg2.N) (i : S4096x1024.Idx) :
    i ∈ ((cfg2.win 1).blk t).view.set ↔ ∀ a : Fin 2, win2_1.index t a * S512x1024.size a ≤ (i a).val ∧ (i a).val < win2_1.index t a * S512x1024.size a + S512x1024.size a := by
  show i ∈ ((View.whole main_v2).slice (win2_1.rect t)).set ↔ _
  rw [View.set_slice_whole, Rect.mem_set_unit]
  exact Iff.rfl

/-- Every index of the output array is in the block of the point its row falls in: row `r` in block `r / 512`. -/
theorem rows_cover2 (i : S4096x1024.Idx) :
    ∃ t : Fin cfg2.N, (cfg2.win 1).flush t = true ∧ i ∈ ((cfg2.win 1).blk t).view.set := by
  have hi0 : (i 0).val < 4096 := (i 0).isLt
  have hi1 : (i 1).val < 1024 := (i 1).isLt
  have hN : cfg2.N = 8 := N_2
  refine ⟨⟨(i 0).val / 512, by omega⟩, flush2_1 _, ?_⟩
  obtain ⟨-, -, e2, e3⟩ := rows_idx2 ⟨(i 0).val / 512, by omega⟩
  rw [rows_mem2]
  intro a
  match a with
  | ⟨0, _⟩ =>
    show win2_1.index ⟨(i 0).val / 512, _⟩ (0 : Fin 2) * 512 ≤ (i 0).val ∧ (i 0).val < win2_1.index ⟨(i 0).val / 512, _⟩ (0 : Fin 2) * 512 + 512
    rw [e2]; show (i 0).val / 512 * 512 ≤ (i 0).val ∧ (i 0).val < (i 0).val / 512 * 512 + 512; omega
  | ⟨1, _⟩ =>
    show win2_1.index ⟨(i 0).val / 512, _⟩ (1 : Fin 2) * 1024 ≤ (i 1).val ∧ (i 1).val < win2_1.index ⟨(i 0).val / 512, _⟩ (1 : Fin 2) * 1024 + 1024
    rw [e3]; omega

/-- The output array after the launch's eight write-backs is the row-normalized input array. -/
theorem normArr2_eq (c : Dev nD) : (rowsDat2 (F := Ideal) V c).arrAt 1 cfg2.N = nrmArr (V c main_arg2) :=
  (rowsDat2 (F := Ideal) V c).arrAt_eq_of_cover 1 (nrmArr (V c main_arg2)) (fun t _ => rows_flushed2 V c t) rows_cover2

/-- Entry by entry: entry `(i, k)` of the output array is entry `(i, k)` of the input array over row `i`'s clamped
    norm. -/
theorem normArr2 (c : Dev nD) (i : Fin 4096) (k : Fin 1024) :
    ((rowsDat2 (F := Ideal) V c).arrAt 1 cfg2.N : S4096x1024.Idx → EReal) (ix2 i k)
      = Cert.Spec.nrm (fun i k => (V c (Pipeline.arrRef spec2 0) : S4096x1024.Idx → EReal) (ix2 i k)) i k := by
  rw [normArr2_eq]
  rfl

end Cert.KernelIdeal.Fr

end
-- ==== Proof.LossBlocks.lean ====
/-
  The loss launch's input blocks as pieces of its arrays.

  The loss launch walks an 8 × 8 grid; point `t` stands at row block `t / 8` and column block `t % 8`. There it reads
  512 whole rows of each normalized feature matrix (rows `512 (t / 8) + r`), 512 whole rows of the normalized third
  matrix (rows `512 (t % 8) + r`) and the 512 × 512 tile of the labels at rows `512 (t / 8) + r` and columns
  `512 (t % 8) + c`. Each block is read here entry by entry off the array it is a block of.
-/
import proofs.«171225_j23708219474596_1_alg».proof.Proof.FrLossKI
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx Idealize.SL.Sem

variable {F : FTy → Type} [FloatOps F]

/-- The four input windows' index maps, decided over the 64 points: the feature matrices and the labels move down
    with `t / 8`, the third matrix and the labels' columns with `t % 8`. -/
theorem loss_idx : ∀ t : Fin cfg3.N,
    win3_0.index t (0 : Fin 2) = t.val / 8 ∧ win3_0.index t (1 : Fin 2) = 0
    ∧ win3_1.index t (0 : Fin 2) = t.val / 8 ∧ win3_1.index t (1 : Fin 2) = 0
    ∧ win3_2.index t (0 : Fin 2) = t.val % 8 ∧ win3_2.index t (1 : Fin 2) = 0
    ∧ win3_3.index t (0 : Fin 2) = t.val / 8 ∧ win3_3.index t (1 : Fin 2) = t.val % 8 :=
  (by decide +kernel : ∀ t : Fin grid3.N, _)

/-- Row `r` of row block `t / 8` is a row of the array. -/
theorem loss_row_lt (t : Fin cfg3.N) (r : Fin 512) : 512 * (t.val / 8) + r.val < 4096 := by
  have ht := t.isLt
  have hN : cfg3.N = 64 := N_3
  have hr := r.isLt
  omega

/-- Row (or column) `r` of block `t % 8` is a row (or column) of the array. -/
theorem loss_col_lt (t : Fin cfg3.N) (r : Fin 512) : 512 * (t.val % 8) + r.val < 4096 := by
  have hr := r.isLt
  omega

-- the buffers' contents when the launch is entered
variable (V : (c : Dev nD) → (b : Ref sig .tc) → Buf (Elt F) ((c : Thread nD τ).loc b))

/-- Window 0's block at point `t` is a block of the first normalized matrix: rows `512 (t / 8) … 512 (t / 8) + 511`, all 1024 columns. -/
theorem blk3_0_apply (c : Dev nD) (t : Fin cfg3.N) (r : Fin 512) (k : Fin 1024) :
    (blk3 V c 0 t : Vec F S512x1024 .bf16) (ix2 r k)
      = (V c main_v0 : S4096x1024.Idx → Elt F .bf16) (ix2 ⟨512 * (t.val / 8) + r.val, loss_row_lt t r⟩ k) := by
  obtain ⟨e0, e1, -, -, -, -, -, -⟩ := loss_idx t
  unfold blk3
  rw [View.read_apply]
  show (V c main_v0 : S4096x1024.Idx → Elt F .bf16) (((cfg3.win 0).blk t).view.emb (ix2 r k)) = _
  refine congrArg (V c main_v0 : S4096x1024.Idx → Elt F .bf16) (funext fun a => Fin.ext ?_)
  match a with
  | ⟨0, _⟩ => show win3_0.index t (0 : Fin 2) * 512 + 1 * r.val = 512 * (t.val / 8) + r.val; rw [e0]; omega
  | ⟨1, _⟩ => show win3_0.index t (1 : Fin 2) * 1024 + 1 * k.val = k.val; rw [e1]; omega

/-- Window 1's block at point `t` is a block of the second normalized matrix: the same rows, all 1024 columns. -/
theorem blk3_1_apply (c : Dev nD) (t : Fin cfg3.N) (r : Fin 512) (k : Fin 1024) :
    (blk3 V c 1 t : Vec F S512x1024 .bf16) (ix2 r k)
      = (V c main_v1 : S4096x1024.Idx → Elt F .bf16) (ix2 ⟨512 * (t.val / 8) + r.val, loss_row_lt t r⟩ k) := by
  obtain ⟨-, -, e2, e3, -, -, -, -⟩ := loss_idx t
  unfold blk3
  rw [View.read_apply]
  show (V c main_v1 : S4096x1024.Idx → Elt F .bf16) (((cfg3.win 1).blk t).view.emb (ix2 r k)) = _
  refine congrArg (V c main_v1 : S4096x1024.Idx → Elt F .bf16) (funext fun a => Fin.ext ?_)
  match a with
  | ⟨0, _⟩ => show win3_1.index t (0 : Fin 2) * 512 + 1 * r.val = 512 * (t.val / 8) + r.val; rw [e2]; omega
  | ⟨1, _⟩ => show win3_1.index t (1 : Fin 2) * 1024 + 1 * k.val = k.val; rw [e3]; omega

/-- Window 2's block at point `t` is a block of the third normalized matrix: rows `512 (t % 8) … 512 (t % 8) + 511`, all 1024 columns. -/
theorem blk3_2_apply (c : Dev nD) (t : Fin cfg3.N) (r : Fin 512) (k : Fin 1024) :
    (blk3 V c 2 t : Vec F S512x1024 .bf16) (ix2 r k)
      = (V c main_v2 : S4096x1024.Idx → Elt F .bf16) (ix2 ⟨512 * (t.val % 8) + r.val, loss_col_lt t r⟩ k) := by
  obtain ⟨-, -, -, -, e4, e5, -, -⟩ := loss_idx t
  unfold blk3
  rw [View.read_apply]
  show (V c main_v2 : S4096x1024.Idx → Elt F .bf16) (((cfg3.win 2).blk t).view.emb (ix2 r k)) = _
  refine congrArg (V c main_v2 : S4096x1024.Idx → Elt F .bf16) (funext fun a => Fin.ext ?_)
  match a with
  | ⟨0, _⟩ => show win3_2.index t (0 : Fin 2) * 512 + 1 * r.val = 512 * (t.val % 8) + r.val; rw [e4]; omega
  | ⟨1, _⟩ => show win3_2.index t (1 : Fin 2) * 1024 + 1 * k.val = k.val; rw [e5]; omega

/-- Window 3's block at point `t` is the labels' tile at row block `t / 8` and column block `t % 8`. -/
theorem blk3_3_apply (c : Dev nD) (t : Fin cfg3.N) (r : Fin 512) (c' : Fin 512) :
    (blk3 V c 3 t : Vec F S512x512 .f32) (ix2 r c')
      = (V c main_arg3 : S4096x4096.Idx → Elt F .f32)
          (ix2 ⟨512 * (t.val / 8) + r.val, loss_row_lt t r⟩ ⟨512 * (t.val % 8) + c'.val, loss_col_lt t c'⟩) := by
  obtain ⟨-, -, -, -, -, -, e6, e7⟩ := loss_idx t
  unfold blk3
  rw [View.read_apply]
  show (V c main_arg3 : S4096x4096.Idx → Elt F .f32) (((cfg3.win 3).blk t).view.emb (ix2 r c')) = _
  refine congrArg (V c main_arg3 : S4096x4096.Idx → Elt F .f32) (funext fun a => Fin.ext ?_)
  match a with
  | ⟨0, _⟩ => show win3_3.index t (0 : Fin 2) * 512 + 1 * r.val = 512 * (t.val / 8) + r.val; rw [e6]; omega
  | ⟨1, _⟩ => show win3_3.index t (1 : Fin 2) * 512 + 1 * c'.val = 512 * (t.val % 8) + c'.val; rw [e7]; omega

end Cert.KernelIdeal.Fr

end
-- ==== Proof.PayTile.lean ====
/-
  The loss tile's payloads read at an entry, on the extended reals.

  One grid point holds a block `x0` of 512 rows of the first normalized feature matrix, a block `x1` of the second,
  a block `x2` of 512 rows of the normalized text matrix (each 1024 wide) and the 512 × 512 tile `l` of labels. The
  body transposes `x2` and multiplies it from the left by `x0`, and by `x1`, each into a zero accumulator: entry
  `(r, c)` of a product is the inner product `∑ k, x r k * x2 c k` of row `r` of the feature block and row `c` of the
  text block (`matmulT_apply`). From the two products `s0`, `s1` it forms, entry by entry,
  `l (1 - s0)`, `(1 - l) max (s0 - 1/2) 0`, `l (1 - s1)` and `(1 - l) max (s1 - 1/2) 0`, adds them in that order,
  sums each row along the lanes, sums the 512 row sums, and adds the total to the running value it was handed.
  `tile_apply` says so with the four terms grouped as the cost of the pair for the first feature matrix plus the cost
  for the second — one use of associativity of `+`; nothing is distributed or cancelled.
-/
import proofs.«171225_j23708219474596_1_alg».proof.Proof.PayNorm

noncomputable section

open scoped BigOperators

namespace Cert.KernelIdeal.PayValue

open Cert.KernelIdeal Cert.KernelIdeal.Gen Idealize.ShloMosaic Idealize.ShloMosaic.ValueIdx

/-! ## Two more layout operations at an entry -/

/-- A sum along the sublanes (axis 0) of an `m × 1` column, started from the zero word: the sum of its `m` entries. -/
theorem sublaneSum_apply {m : ℕ} (src : FVec Ideal ⟨2, ![m, 1]⟩ .f32)
    (h : (⟨2, ![m, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ k : Fin m, src (ix2 k u) := by
  refine (Ideal.multiReduction_add_single src 0x00000000#32 h hφ hacc (ix1 u)).trans ?_
  show ∑ k : Fin m, src (h.lift (ix1 u) k) = _
  refine Finset.sum_congr rfl fun k _ => congrArg src (funext fun a => Fin.ext ?_)
  match a with
  | ⟨0, _⟩ => rfl
  | ⟨1, _⟩ => rfl

/-! ## The products -/

/-- The dot's dimension numbers: the left operand's axis 1 against the right operand's axis 0. -/
abbrev D := dot_S512x1024_S1024x512_S512x512_1_0_0_1_n_n

theorem lhs_0 (i : S512x512.Idx) (q : D.contr.Idx) : (D.lhsIdx i q 0).val = (i 0).val := by
  unfold DotDims.lhsIdx
  rw [dif_neg (show ¬(0 : Fin S512x1024.rank) ∈ D.lhsBatch by decide),
    dif_pos (show (0 : Fin S512x1024.rank) ∈ D.lhsNonContracting by decide)]
  rfl
theorem lhs_1 (i : S512x512.Idx) (q : D.contr.Idx) : (D.lhsIdx i q 1).val = (q ⟨0, by decide⟩).val :=
  D.lhsIdx_val_of_single rfl i q
theorem rhs_0 (i : S512x512.Idx) (q : D.contr.Idx) : (D.rhsIdx i q 0).val = (q ⟨0, by decide⟩).val :=
  D.rhsIdx_val_of_single rfl i q
theorem rhs_1 (i : S512x512.Idx) (q : D.contr.Idx) : (D.rhsIdx i q 1).val = (i 1).val := by
  unfold DotDims.rhsIdx
  rw [dif_neg (show ¬(1 : Fin S1024x512.rank) ∈ D.rhsBatch by decide),
    dif_pos (show (1 : Fin S1024x512.rank) ∈ D.rhsNonContracting by decide)]
  rfl

/-- A 512 × 1024 block times the transpose of another, into the zero accumulator, at `(r, c)`: the inner product of
    row `r` of the first and row `c` of the second. -/
theorem matmulT_apply (a b : FVec Ideal S512x1024 .bf16) (r c : Fin 512) :
    matmul (F := Ideal) D none a (transpose S1024x512 [1, 0] b transposes_S512x1024_p1_0_S1024x512)
        (constant S512x512 .f32 0x00000000#32) (ix2 r c)
      = ∑ k : Fin 1024, a (ix2 r k) * b (ix2 c k) := by
  refine (Ideal.matmul_constant_zero_apply D none a _ (ix2 r c)).trans ?_
  rw [← Equiv.sum_comp (contrEquiv1 D 1024 rfl rfl).symm]
  refine Finset.sum_congr rfl fun k _ => ?_
  have hk := contrEquiv1_symm_val D 1024 rfl rfl k
  have el : D.lhsIdx (ix2 r c) ((contrEquiv1 D 1024 rfl rfl).symm k) = ix2 r k := funext fun ax => Fin.ext (by
    match ax with
    | ⟨0, _⟩ => exact lhs_0 _ _
    | ⟨1, _⟩ => exact (lhs_1 _ _).trans hk)
  have er : D.rhsIdx (ix2 r c) ((contrEquiv1 D 1024 rfl rfl).symm k) = ix2 k c := funext fun ax => Fin.ext (by
    match ax with
    | ⟨0, _⟩ => exact (rhs_0 _ _).trans hk
    | ⟨1, _⟩ => exact rhs_1 _ _)
  rw [el, er, transpose_ix2_apply]

/-- The first product at `(r, c)`. -/
theorem k3_pay3_apply (x0 x2 : Vec Ideal S512x1024 .bf16) (r c : Fin 512) :
    k3_pay3 (F := Ideal) x0 x2 (ix2 r c) = ∑ k : Fin 1024, x0 (ix2 r k) * x2 (ix2 c k) := by
  unfold k3_pay3
  simp only [shapeCast_self]
  exact matmulT_apply x0 x2 r c

/-- The second product at `(r, c)`. -/
theorem k3_pay4_apply (x1 x2 : Vec Ideal S512x1024 .bf16) (r c : Fin 512) :
    k3_pay4 (F := Ideal) x1 x2 (ix2 r c) = ∑ k : Fin 1024, x1 (ix2 r k) * x2 (ix2 c k) := by
  unfold k3_pay4
  simp only [shapeCast_self]
  exact matmulT_apply x1 x2 r c

/-! ## The four terms, entry by entry -/

theorem k3_pay5_apply (x0 x2 : Vec Ideal S512x1024 .bf16) (l : Vec Ideal S512x512 .f32) (r c : Fin 512) :
    k3_pay5 (F := Ideal) x0 x2 l (ix2 r c)
      = l (ix2 r c) * (Cert.Spec.one - ∑ k : Fin 1024, x0 (ix2 r k) * x2 (ix2 c k)) := by
  rw [← k3_pay3_apply x0 x2 r c]; rfl

theorem k3_pay6_apply (x0 x2 : Vec Ideal S512x1024 .bf16) (l : Vec Ideal S512x512 .f32) (r c : Fin 512) :
    k3_pay6 (F := Ideal) x0 x2 l (ix2 r c)
      = (Cert.Spec.one - l (ix2 r c)) * max ((∑ k : Fin 1024, x0 (ix2 r k) * x2 (ix2 c k)) - Cert.Spec.half) 0 := by
  rw [← k3_pay3_apply x0 x2 r c, ← Ideal.ofBits_zero_f32]; rfl

theorem k3_pay7_apply (x1 x2 : Vec Ideal S512x1024 .bf16) (l : Vec Ideal S512x512 .f32) (r c : Fin 512) :
    k3_pay7 (F := Ideal) x1 x2 l (ix2 r c)
      = l (ix2 r c) * (Cert.Spec.one - ∑ k : Fin 1024, x1 (ix2 r k) * x2 (ix2 c k)) := by
  rw [← k3_pay4_apply x1 x2 r c]; rfl

theorem k3_pay8_apply (l : Vec Ideal S512x512 .f32) (r c : Fin 512) :
    k3_pay8 (F := Ideal) l (ix2 r c) = Cert.Spec.one - l (ix2 r c) := rfl

theorem k3_pay9_apply (x1 x2 : Vec Ideal S512x1024 .bf16) (r c : Fin 512) :
    k3_pay9 (F := Ideal) x1 x2 (ix2 r c) = (∑ k : Fin 1024, x1 (ix2 r k) * x2 (ix2 c k)) - Cert.Spec.half := by
  rw [← k3_pay4_apply x1 x2 r c]; rfl

/-! ## The accumulation -/

/-- The scratch's reset value: the zero word. -/
theorem k3_pay2_apply : k3_pay2 (F := Ideal) (ix2 0 0) = 0 := by
  unfold k3_pay2
  simp only [shapeCast_self]
  exact Ideal.ofBits_zero_f32

/-- The stored running value, over ANY five 512 × 512 operands: the value handed in plus the sum over the tile of
    `((p + q) + s) + w * max m 0`. -/
theorem k3_pay1_apply (p q s w m : FVec Ideal S512x512 .f32) (acc : Vec Ideal S1x1 .f32) :
    k3_pay1 (F := Ideal) p q s w m acc (ix2 0 0)
      = acc (ix2 0 0) + ∑ r : Fin 512, ∑ c : Fin 512,
          (((p (ix2 r c) + q (ix2 r c)) + s (ix2 r c)) + w (ix2 r c) * max (m (ix2 r c)) 0) := by
  unfold k3_pay1
  simp only [shapeCast_self]
  -- the sum of the handed value and the tile's total, at the one entry
  refine congrArg (acc (ix2 0 0) + ·) ?_
  -- the total, a 1-vector stood up as 1 × 1, is the sublane sum at 0
  refine (shapeCast_a_1a_apply _ _ 0 0).trans ?_
  refine (sublaneSum_apply _ _ _ _ 0).trans ?_
  refine Finset.sum_congr rfl fun r _ => ?_
  -- row r of the column is the lane sum at r
  refine (colCast_apply _ _ r 0).trans ?_
  refine (laneSum_apply _ _ _ _ r).trans ?_
  refine Finset.sum_congr rfl fun c _ => ?_
  show ((p (ix2 r c) + q (ix2 r c)) + s (ix2 r c)) + w (ix2 r c) * max (m (ix2 r c)) (Ideal.ofBits .f32 0x00000000#32) = _
  rw [Ideal.ofBits_zero_f32]

/-- One grid point's contribution: the running value plus, over the tile's 512 × 512 pairs, the pair's cost for the
    first feature block plus its cost for the second. -/
theorem tile_apply (x0 x1 x2 : Vec Ideal S512x1024 .bf16) (l : Vec Ideal S512x512 .f32) (acc : Vec Ideal S1x1 .f32) :
    k3_pay1 (F := Ideal) (k3_pay5 x0 x2 l) (k3_pay6 x0 x2 l) (k3_pay7 x1 x2 l) (k3_pay8 l) (k3_pay9 x1 x2) acc (ix2 0 0)
      = acc (ix2 0 0) + ∑ r : Fin 512, ∑ c : Fin 512,
          (Cert.Spec.pair (l (ix2 r c)) (∑ k : Fin 1024, x0 (ix2 r k) * x2 (ix2 c k))
           + Cert.Spec.pair (l (ix2 r c)) (∑ k : Fin 1024, x1 (ix2 r k) * x2 (ix2 c k))) := by
  refine (k3_pay1_apply _ _ _ _ _ acc).trans ?_
  refine congrArg (acc (ix2 0 0) + ·) ?_
  refine Finset.sum_congr rfl fun r _ => Finset.sum_congr rfl fun c _ => ?_
  rw [k3_pay5_apply, k3_pay6_apply, k3_pay7_apply, k3_pay8_apply, k3_pay9_apply]
  unfold Cert.Spec.pair
  exact add_assoc _ _ _

end Cert.KernelIdeal.PayValue

end
-- ==== Proof.TileSum.lean ====
/-
  Two facts about finite sums on the extended reals, with no program in sight.

  The 4096 x 4096 index square is cut into an 8 x 8 grid of 512 x 512 tiles; grid point `n` (0 ≤ n < 64, row-major)
  is the tile in tile-row `n / 8` and tile-column `n % 8`, and entry `(r, c)` of that tile is entry
  `(512 (n / 8) + r, 512 (n % 8) + c)` of the square. `grid_total`: summing a function tile by tile, and inside a
  tile entry by entry, is summing it over the whole square. Only commutativity and associativity of `+` are used:
  every row index is written uniquely as `512 a + r` (`sum_blocks`), every grid point uniquely as `8 a + b`
  (`sum_grid`), and two of the four nested sums change places.

  `acc_total`: a running total that starts at `0 + a 0` and adds `a (n + 1)` at step `n + 1` is, after step `n`,
  the sum of `a 0, …, a n`.

  `tiles_result` puts the first fact to work on the loss: the per-tile costs of both feature matrices, added over the
  grid, are the two totals over all pairs. `sum_range_grid` names the grid points by their numbers 0, …, 63.
-/
import proofs.«171225_j23708219474596_1_alg».proof.Proof.Spec
import Mathlib

open scoped BigOperators

namespace Cert.Spec

/-- A sum over 4096 indices, taken as 8 consecutive blocks of 512. -/
theorem sum_blocks (h : Fin 4096 → EReal) :
    ∑ i : Fin 4096, h i = ∑ a : Fin 8, ∑ r : Fin 512, h ⟨512 * a.val + r.val, by omega⟩ := by
  have e := Equiv.sum_comp (finProdFinEquiv (m := 8) (n := 512)) h
  rw [Fintype.sum_prod_type] at e
  rw [← e]
  refine Finset.sum_congr rfl fun a _ => Finset.sum_congr rfl fun r _ => congrArg h (Fin.ext ?_)
  show r.val + 512 * a.val = 512 * a.val + r.val
  omega

/-- A sum over the 64 grid points, taken as 8 rows of 8. -/
theorem sum_grid (F : Fin 64 → EReal) :
    ∑ n : Fin 64, F n = ∑ a : Fin 8, ∑ b : Fin 8, F ⟨8 * a.val + b.val, by omega⟩ := by
  have e := Equiv.sum_comp (finProdFinEquiv (m := 8) (n := 8)) F
  rw [Fintype.sum_prod_type] at e
  rw [← e]
  refine Finset.sum_congr rfl fun a _ => Finset.sum_congr rfl fun b _ => congrArg F (Fin.ext ?_)
  show b.val + 8 * a.val = 8 * a.val + b.val
  omega

/-- Tile by tile, then entry by entry inside the tile, is the whole square. -/
theorem grid_total (g : Fin 4096 → Fin 4096 → EReal) :
    ∑ n : Fin 64, ∑ r : Fin 512, ∑ c : Fin 512,
        g ⟨512 * (n.val / 8) + r.val, by omega⟩ ⟨512 * (n.val % 8) + c.val, by omega⟩
      = ∑ i : Fin 4096, ∑ j : Fin 4096, g i j := by
  -- the right side, rows and columns each as 8 blocks of 512: sums over a, r, b, c
  rw [sum_blocks fun i => ∑ j : Fin 4096, g i j]
  simp only [sum_blocks fun j => g _ j]
  -- the left side, grid points as 8 rows of 8: sums over a, b, r, c
  rw [sum_grid]
  refine Finset.sum_congr rfl fun a _ => ?_
  -- under the sum over a: (b, r, c) against (r, b, c)
  rw [Finset.sum_comm]
  refine Finset.sum_congr rfl fun r _ => Finset.sum_congr rfl fun b _ => Finset.sum_congr rfl fun c _ => ?_
  have ha : (8 * a.val + b.val) / 8 = a.val := by omega
  have hb : (8 * a.val + b.val) % 8 = b.val := by omega
  exact congrArg₂ g (Fin.ext (by show 512 * ((8 * a.val + b.val) / 8) + r.val = _; rw [ha]))
    (Fin.ext (by show 512 * ((8 * a.val + b.val) % 8) + c.val = _; rw [hb]))

/-- A running total is the sum of what was added. -/
theorem acc_total (a : ℕ → EReal) (A : ℕ → EReal) (h0 : A 0 = 0 + a 0) (hs : ∀ n, A (n + 1) = A n + a (n + 1))
    (n : ℕ) : A n = ∑ k ∈ Finset.range (n + 1), a k := by
  induction n with
  | zero => rw [h0, zero_add, Finset.sum_range_one]
  | succ n ih => rw [hs, ih, Finset.sum_range_succ _ (n + 1)]

/-- A sum over the first 64 naturals is the sum over the 64 grid points. -/
theorem sum_range_grid (a : ℕ → EReal) : ∑ n ∈ Finset.range 64, a n = ∑ n : Fin 64, a n.val :=
  Finset.sum_range a

/-- Every tile's summed cost — for each pair in the tile, the pair's cost against the first matrix `n0` plus its cost
    against the second `n1`, the similarity the inner product of a row of the matrix with a row of `n2` — added over the
    8 × 8 grid, is the total over all 4096 × 4096 pairs for `n0` plus the total for `n1`: the tiles cover the square
    (`grid_total`), and a sum of sums splits (`Finset.sum_add_distrib`, twice). -/
theorem tiles_result (n0 n1 n2 : Fin 4096 → Fin 1024 → EReal) (lbl : Fin 4096 → Fin 4096 → EReal) :
    ∑ n : Fin 64, ∑ r : Fin 512, ∑ c : Fin 512,
        (pair (lbl ⟨512 * (n.val / 8) + r.val, by omega⟩ ⟨512 * (n.val % 8) + c.val, by omega⟩)
            (∑ k : Fin 1024, n0 ⟨512 * (n.val / 8) + r.val, by omega⟩ k * n2 ⟨512 * (n.val % 8) + c.val, by omega⟩ k)
         + pair (lbl ⟨512 * (n.val / 8) + r.val, by omega⟩ ⟨512 * (n.val % 8) + c.val, by omega⟩)
            (∑ k : Fin 1024, n1 ⟨512 * (n.val / 8) + r.val, by omega⟩ k * n2 ⟨512 * (n.val % 8) + c.val, by omega⟩ k))
      = (∑ i : Fin 4096, ∑ j : Fin 4096, pair (lbl i j) (∑ k : Fin 1024, n0 i k * n2 j k))
        + (∑ i : Fin 4096, ∑ j : Fin 4096, pair (lbl i j) (∑ k : Fin 1024, n1 i k * n2 j k)) := by
  refine (grid_total fun i j =>
    pair (lbl i j) (∑ k : Fin 1024, n0 i k * n2 j k) + pair (lbl i j) (∑ k : Fin 1024, n1 i k * n2 j k)).trans ?_
  simp only [Finset.sum_add_distrib]

end Cert.Spec
-- ==== Proof.AccSum.lean ====
/-
  The running value over the grid points, in the abstract.

  At each grid point the loss body replaces the running value `acc` by `acc` plus the summed cost of the point's tile
  (`tile_apply`); at the first point the running value it starts from is the zero word (`k3_pay2_apply`). So if
  `A n` is the stored 1 × 1 value after point `n`, and `X0 n`, `X1 n`, `X2 n`, `X3 n` are the blocks the body is
  handed at point `n`, then the entry of `A n` is the sum of the tiles' costs over the points `0, …, n`: a running
  total is the sum of what was added (`Cert.Spec.acc_total`). `acc_sum_lt` is the same when the step is only known
  below a bound, as for a grid of finitely many points.
-/
import proofs.«171225_j23708219474596_1_alg».proof.Proof.PayTile
import proofs.«171225_j23708219474596_1_alg».proof.Proof.TileSum

noncomputable section

open scoped BigOperators

namespace Cert.KernelIdeal.PayValue

open Cert.KernelIdeal Cert.KernelIdeal.Gen Idealize.ShloMosaic Idealize.ShloMosaic.ValueIdx

/-- What one grid point stores: the body's result from the point's four blocks and the running value. -/
def tileOf (x0 x1 x2 : Vec Ideal S512x1024 .bf16) (x3 : Vec Ideal S512x512 .f32) (acc : Vec Ideal S1x1 .f32) :
    Vec Ideal S1x1 .f32 :=
  k3_pay1 (F := Ideal) (k3_pay5 x0 x2 x3) (k3_pay6 x0 x2 x3) (k3_pay7 x1 x2 x3) (k3_pay8 x3) (k3_pay9 x1 x2) acc

/-- One tile's summed cost: over its 512 × 512 pairs, the pair's cost for the first feature block plus its cost for
    the second. -/
def tileSum (x0 x1 x2 : Vec Ideal S512x1024 .bf16) (x3 : Vec Ideal S512x512 .f32) : EReal :=
  ∑ r : Fin 512, ∑ c : Fin 512,
    (Cert.Spec.pair (x3 (ix2 r c)) (∑ k : Fin 1024, x0 (ix2 r k) * x2 (ix2 c k))
     + Cert.Spec.pair (x3 (ix2 r c)) (∑ k : Fin 1024, x1 (ix2 r k) * x2 (ix2 c k)))

/-- A grid point adds its tile's cost to the running value. -/
theorem tileOf_apply (x0 x1 x2 : Vec Ideal S512x1024 .bf16) (x3 : Vec Ideal S512x512 .f32) (acc : Vec Ideal S1x1 .f32) :
    tileOf x0 x1 x2 x3 acc (ix2 0 0) = acc (ix2 0 0) + tileSum x0 x1 x2 x3 :=
  tile_apply x0 x1 x2 x3 acc

/-- After point `n` the stored value is the sum of the tiles' costs over the points up to `n`. -/
theorem acc_sum (A : ℕ → Vec Ideal S1x1 .f32) (X0 X1 X2 : ℕ → Vec Ideal S512x1024 .bf16) (X3 : ℕ → Vec Ideal S512x512 .f32)
    (h0 : A 0 = tileOf (X0 0) (X1 0) (X2 0) (X3 0) (k3_pay2 (F := Ideal)))
    (hs : ∀ n, A (n + 1) = tileOf (X0 (n + 1)) (X1 (n + 1)) (X2 (n + 1)) (X3 (n + 1)) (A n)) (n : ℕ) :
    A n (ix2 0 0) = ∑ k ∈ Finset.range (n + 1), tileSum (X0 k) (X1 k) (X2 k) (X3 k) :=
  Cert.Spec.acc_total (fun k => tileSum (X0 k) (X1 k) (X2 k) (X3 k)) (fun n => A n (ix2 0 0))
    (by show A 0 (ix2 0 0) = 0 + tileSum (X0 0) (X1 0) (X2 0) (X3 0)
        rw [h0, tileOf_apply, k3_pay2_apply])
    (fun n => by
      show A (n + 1) (ix2 0 0) = A n (ix2 0 0) + tileSum (X0 (n + 1)) (X1 (n + 1)) (X2 (n + 1)) (X3 (n + 1))
      rw [hs n, tileOf_apply]) n

/-- The same when the step is known only for points below 64, the number of grid points. -/
theorem acc_sum_lt (A : ℕ → Vec Ideal S1x1 .f32) (X0 X1 X2 : ℕ → Vec Ideal S512x1024 .bf16) (X3 : ℕ → Vec Ideal S512x512 .f32)
    (h0 : A 0 = tileOf (X0 0) (X1 0) (X2 0) (X3 0) (k3_pay2 (F := Ideal)))
    (hs : ∀ n, n + 1 < 64 → A (n + 1) = tileOf (X0 (n + 1)) (X1 (n + 1)) (X2 (n + 1)) (X3 (n + 1)) (A n)) :
    ∀ n, n < 64 → A n (ix2 0 0) = ∑ k ∈ Finset.range (n + 1), tileSum (X0 k) (X1 k) (X2 k) (X3 k) := by
  intro n
  induction n with
  | zero =>
    intro _
    rw [h0, tileOf_apply, k3_pay2_apply, zero_add, Finset.sum_range_one]
  | succ n ih =>
    intro hn
    rw [hs n hn, tileOf_apply, ih (by omega), Finset.sum_range_succ _ (n + 1)]

end Cert.KernelIdeal.PayValue

end
-- ==== Proof.LossValue.lean ====
/-
  The loss region's value: what the 1 x 1 output array holds after the 64 grid points.

  At every grid point the body leaves in its accumulator the value it found there (zero at the first point) plus
  one tile's summed cost, a function of the point's four input blocks; it then reads the accumulator back and stores
  what it read into the output block. So after every point the output block and the accumulator hold the same
  value, the running total of the tiles so far. The output block has index (0, 0) at every point and is written back
  to its array after the last point only: the array ends holding the total of all 64 tiles.
-/
import proofs.«171225_j23708219474596_1_alg».proof.Proof.FrLossKI
import proofs.«171225_j23708219474596_1_alg».proof.Proof.AccSum
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-! ## What one run of the body leaves -/

/-- The offsets of every load and store of the body: zero on both axes. -/
theorem hz11 : (![0, 0] : Fin 2 → Nat) = fun _ => 0 := funext fun a => by fin_cases a <;> rfl

/-- A later point's accumulator: the one covering store's payload, the tile's sum added to the value found, every
    load reading a whole buffer. -/
theorem accNext_eq (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i) (x0 x1 x2 : Vec F S512x1024 .bf16) (x3 : Vec F S512x512 .f32) (xs : Vec F S1x1 .f32) :
    accNext c i arg2 harg2 arg3 harg3 arg4 harg4 arg5 harg5 arg6 harg6 arg7 harg7 hc x0 x1 x2 x3 xs = k3_pay1 (k3_pay5 x0 x2 x3) (k3_pay6 x0 x2 x3) (k3_pay7 x1 x2 x3) (k3_pay8 x3) (k3_pay9 x1 x2) xs := by
  unfold accNext
  rw [View.read_writes_eq_canon _ _ _ (cover_accNext c i arg2 harg2 arg3 harg3 arg4 harg4 arg5 harg5 arg6 harg6 arg7 harg7 hc x0 x1 x2 x3 xs)]
  unfold lossRunNext
  dsimp only
  sl_unfold_words
  rw [View.canon_unit_zero hz11]
  simp only [View.readAt_eq_ld, harg2.read_unread, harg3.read_unread, harg4.read_unread, harg5.read_unread, harg7.read_unread,
    View.ld_unit_zero (S := S512x1024) hz11, View.ld_unit_zero (S := S512x512) hz11, View.ld_unit_zero (S := S1x1) hz11]

/-- The first point's accumulator: the zero the body stored first, read back, plus the tile's sum. -/
theorem accFirst_eq (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i) (x0 x1 x2 : Vec F S512x1024 .bf16) (x3 : Vec F S512x512 .f32) :
    accFirst c i arg2 harg2 arg3 harg3 arg4 harg4 arg5 harg5 arg6 harg6 arg7 harg7 hc x0 x1 x2 x3 = k3_pay1 (k3_pay5 x0 x2 x3) (k3_pay6 x0 x2 x3) (k3_pay7 x1 x2 x3) (k3_pay8 x3) (k3_pay9 x1 x2) k3_pay2 := by
  unfold accFirst
  rw [View.read_writes_eq_canon _ _ _ (cover_accFirst c i arg2 harg2 arg3 harg3 arg4 harg4 arg5 harg5 arg6 harg6 arg7 harg7 hc x0 x1 x2 x3)]
  unfold lossRunFirst
  dsimp only
  sl_unfold_words
  rw [View.canon_cons_unit_zero (S := S1x1) hz11, View.readCov_unit_zero (S := S1x1) _ hz11]
  simp only [View.readAt_eq_ld, harg2.read_unread, harg3.read_unread, harg4.read_unread, harg5.read_unread, harg7.read_unread,
    View.ld_unit_zero (S := S512x1024) hz11, View.ld_unit_zero (S := S512x512) hz11, View.ld_unit_zero (S := S1x1) hz11]

/-- A later point's output block: the accumulator, read back after its store, stored whole. -/
theorem outNext_eq (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : ¬first3 i) (x0 x1 x2 : Vec F S512x1024 .bf16) (x3 : Vec F S512x512 .f32) (xs : Vec F S1x1 .f32) :
    outNext c i arg2 harg2 arg3 harg3 arg4 harg4 arg5 harg5 arg6 harg6 arg7 harg7 hc x0 x1 x2 x3 xs = k3_pay1 (k3_pay5 x0 x2 x3) (k3_pay6 x0 x2 x3) (k3_pay7 x1 x2 x3) (k3_pay8 x3) (k3_pay9 x1 x2) xs := by
  unfold outNext
  rw [View.read_writes_eq_canon _ _ _ (cover_outNext c i arg2 harg2 arg3 harg3 arg4 harg4 arg5 harg5 arg6 harg6 arg7 harg7 hc x0 x1 x2 x3 xs)]
  unfold lossRunNext
  dsimp only
  sl_unfold_words
  rw [View.canon_unit_zero hz11, View.readCov_cons_toLoadRect]
  simp only [View.readAt_eq_ld, harg2.read_unread, harg3.read_unread, harg4.read_unread, harg5.read_unread, harg7.read_unread,
    View.ld_unit_zero (S := S512x1024) hz11, View.ld_unit_zero (S := S512x512) hz11, View.ld_unit_zero (S := S1x1) hz11]

/-- The first point's output block: the same read-back of the accumulator. -/
theorem outFirst_eq (c : Dev nD) (i : grid3.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S1x1 .f32) (harg6 : arg6.IsWhole) (arg7 : Memref sig .tc .vmem S1x1 .f32) (harg7 : arg7.IsWhole) (hc : first3 i) (x0 x1 x2 : Vec F S512x1024 .bf16) (x3 : Vec F S512x512 .f32) :
    outFirst c i arg2 harg2 arg3 harg3 arg4 harg4 arg5 harg5 arg6 harg6 arg7 harg7 hc x0 x1 x2 x3 = k3_pay1 (k3_pay5 x0 x2 x3) (k3_pay6 x0 x2 x3) (k3_pay7 x1 x2 x3) (k3_pay8 x3) (k3_pay9 x1 x2) k3_pay2 := by
  unfold outFirst
  rw [View.read_writes_eq_canon _ _ _ (cover_outFirst c i arg2 harg2 arg3 harg3 arg4 harg4 arg5 harg5 arg6 harg6 arg7 harg7 hc x0 x1 x2 x3)]
  unfold lossRunFirst
  dsimp only
  sl_unfold_words
  rw [View.canon_unit_zero hz11, View.readCov_cons_toLoadRect, View.readCov_unit_zero (S := S1x1) _ hz11]
  simp only [View.readAt_eq_ld, harg2.read_unread, harg3.read_unread, harg4.read_unread, harg5.read_unread, harg7.read_unread,
    View.ld_unit_zero (S := S512x1024) hz11, View.ld_unit_zero (S := S512x512) hz11, View.ld_unit_zero (S := S1x1) hz11]

/-! ## The accumulation, point by point -/

section Points

-- the buffers' contents when the region is entered
variable (V : (c : Dev nD) → (b : Ref sig .tc) → Buf (Elt F) ((c : Thread nD τ).loc b))

/-- After the first point the accumulator holds the reset value plus the first tile's sum, -/
theorem lossAt_zero_snd (c : Dev nD) (h : 0 < cfg3.N) :
    (lossAt V c 0 h).2
      = k3_pay1 (k3_pay5 (blk3 V c 0 ⟨0, h⟩) (blk3 V c 2 ⟨0, h⟩) (blk3 V c 3 ⟨0, h⟩)) (k3_pay6 (blk3 V c 0 ⟨0, h⟩) (blk3 V c 2 ⟨0, h⟩) (blk3 V c 3 ⟨0, h⟩))
          (k3_pay7 (blk3 V c 1 ⟨0, h⟩) (blk3 V c 2 ⟨0, h⟩) (blk3 V c 3 ⟨0, h⟩)) (k3_pay8 (blk3 V c 3 ⟨0, h⟩)) (k3_pay9 (blk3 V c 1 ⟨0, h⟩) (blk3 V c 2 ⟨0, h⟩)) k3_pay2 := by
  simp only [lossAt]
  rw [accFirst_eq]

/-- and after a later point what the point before left plus that point's tile's sum. -/
theorem lossAt_succ_snd (c : Dev nD) (n : ℕ) (h : n + 1 < cfg3.N) :
    (lossAt V c (n + 1) h).2
      = k3_pay1 (k3_pay5 (blk3 V c 0 ⟨n + 1, h⟩) (blk3 V c 2 ⟨n + 1, h⟩) (blk3 V c 3 ⟨n + 1, h⟩)) (k3_pay6 (blk3 V c 0 ⟨n + 1, h⟩) (blk3 V c 2 ⟨n + 1, h⟩) (blk3 V c 3 ⟨n + 1, h⟩))
          (k3_pay7 (blk3 V c 1 ⟨n + 1, h⟩) (blk3 V c 2 ⟨n + 1, h⟩) (blk3 V c 3 ⟨n + 1, h⟩)) (k3_pay8 (blk3 V c 3 ⟨n + 1, h⟩)) (k3_pay9 (blk3 V c 1 ⟨n + 1, h⟩) (blk3 V c 2 ⟨n + 1, h⟩)) (lossAt V c n (Nat.lt_of_succ_lt h)).2 := by
  simp only [lossAt]
  rw [accNext_eq]

/-- After every point the output block holds what the accumulator holds. -/
theorem lossAt_fst_eq_snd (c : Dev nD) : ∀ (n : ℕ) (h : n < cfg3.N), (lossAt V c n h).1 = (lossAt V c n h).2
  | 0, h => by
    simp only [lossAt]
    rw [outFirst_eq, accFirst_eq]
  | n + 1, h => by
    simp only [lossAt]
    rw [outNext_eq, accNext_eq]

end Points

/-! ## The running total, on the extended reals -/

section Total

open Cert.KernelIdeal.PayValue

variable (V : (c : Dev nD) → (b : Ref sig .tc) → Buf (Elt Ideal) ((c : Thread nD τ).loc b))

/-- After point `n` the accumulator's one entry is the sum of the first `n + 1` tiles' summed costs: the reset value
    is `0`, and each point adds its tile's sum to what the point before left. -/
theorem lossAt_sum (c : Dev nD) : ∀ (n : ℕ) (h : n < cfg3.N),
    (lossAt V c n h).2 (ix2 0 0)
      = ∑ k : Fin (n + 1), tileSum (blk3 V c 0 ⟨k.val, Nat.lt_of_lt_of_le k.isLt (Nat.succ_le_of_lt h)⟩)
          (blk3 V c 1 ⟨k.val, Nat.lt_of_lt_of_le k.isLt (Nat.succ_le_of_lt h)⟩)
          (blk3 V c 2 ⟨k.val, Nat.lt_of_lt_of_le k.isLt (Nat.succ_le_of_lt h)⟩)
          (blk3 V c 3 ⟨k.val, Nat.lt_of_lt_of_le k.isLt (Nat.succ_le_of_lt h)⟩)
  | 0, h => by
    rw [lossAt_zero_snd]
    refine (tileOf_apply _ _ _ _ _).trans ?_
    rw [k3_pay2_apply, zero_add, Fin.sum_univ_one]
    rfl
  | n + 1, h => by
    rw [lossAt_succ_snd, Fin.sum_univ_castSucc]
    refine (tileOf_apply _ _ _ _ _).trans ?_
    rw [lossAt_sum c n (Nat.lt_of_succ_lt h)]
    rfl

/-- After the last of the 64 points: the sum over all grid points of the point's tile's summed cost. -/
theorem loss_total (c : Dev nD) (h : 63 < cfg3.N) :
    (lossAt V c 63 h).2 (ix2 0 0)
      = ∑ t : Fin cfg3.N, tileSum (blk3 V c 0 t) (blk3 V c 1 t) (blk3 V c 2 t) (blk3 V c 3 t) := by
  rw [lossAt_sum V c 63 h]
  exact Fintype.sum_equiv (finCongr (show 63 + 1 = cfg3.N from N_3.symm)) _ _ fun k => rfl

/-- The output block after the last point holds the same. -/
theorem loss_total_out (c : Dev nD) (h : 63 < cfg3.N) :
    (lossAt V c 63 h).1 (ix2 0 0)
      = ∑ t : Fin cfg3.N, tileSum (blk3 V c 0 t) (blk3 V c 1 t) (blk3 V c 2 t) (blk3 V c 3 t) := by
  rw [lossAt_fst_eq_snd V c 63 h]
  exact loss_total V c h

end Total

end Cert.KernelIdeal.Fr

end
-- ==== Proof.LossArr.lean ====
/-
  The loss launch's output array after the launch.

  The output window is one 1 × 1 block that every one of the 64 grid points works on in the same staging buffer, and
  the launch writes it back to its array once, after the last point. So the array ends holding what the last point's
  body left in the buffer: the accumulated cost of all 64 tiles.
-/
import proofs.«171225_j23708219474596_1_alg».proof.Proof.FrLossKI
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The grid's last point is point 63. -/
theorem loss_last_lt : 63 < cfg3.N := by
  show 63 < grid3.N
  rw [N_3]
  decide

/-- The output window's index map, decided over the 64 points: always the one block. -/
theorem loss_out_idx : ∀ t : Fin cfg3.N, win3_4.index t (0 : Fin 2) = 0 ∧ win3_4.index t (1 : Fin 2) = 0 :=
  (by decide +kernel : ∀ t : Fin grid3.N, _)

-- the buffers' contents when the launch is entered
variable (V : (c : Dev nD) → (b : Ref sig .tc) → Buf (Elt F) ((c : Thread nD τ).loc b))

/-- What a point leaves depends on the point's position only. -/
theorem lossAt_congr (c : Dev nD) {n n' : ℕ} (h : n = n') (hn : n < cfg3.N) (hn' : n' < cfg3.N) :
    lossAt V c n hn = lossAt V c n' hn' := by
  subst h
  rfl

/-- The one write-back, after the last point, writes what that point left in the output block: the block is the
    whole 1 × 1 array, read through zero offsets. -/
theorem loss_flushed (c : Dev nD) (t : Fin cfg3.N) (hf : (cfg3.win 4).flush t = true) :
    (lossDat V c).flushed 4 t = ((cfg3.win 4).blk t).view.read (Elt F) (lossAt V c 63 loss_last_lt).1 := by
  have hN : cfg3.N = 64 := N_3
  have h1 : t.val = 63 := by have := (flush3_4 t).mp hf; have := t.isLt; omega
  obtain ⟨e0, e1⟩ := loss_out_idx t
  show (cfg3.win 4).cut (grid3.coords t) ((lossDat V c).after 4 t) = _
  rw [lossDat_after4, lossAt_congr V c h1 t.isLt loss_last_lt]
  have hz' : (fun a => win3_4.index t a * main_v3.ty.shape.size a) = fun _ => 0 := funext fun a => by
    match a with
    | ⟨0, _⟩ => show win3_4.index t (0 : Fin 2) * 1 = 0; rw [e0]
    | ⟨1, _⟩ => show win3_4.index t (1 : Fin 2) * 1 = 0; rw [e1]
  exact (Memref.read_access_unit_zero (Elt F) main_v3 hz' (fun a => by rw [congrFun hz' a]; simp) (lossAt V c 63 loss_last_lt).1).symm

/-- The last point's block is the whole output array. -/
theorem loss_cover (i : S1x1.Idx) :
    ∃ t : Fin cfg3.N, (cfg3.win 4).flush t = true ∧ i ∈ ((cfg3.win 4).blk t).view.set := by
  refine ⟨⟨63, loss_last_lt⟩, (flush3_4 _).mpr rfl, ?_⟩
  obtain ⟨e0, e1⟩ := loss_out_idx ⟨63, loss_last_lt⟩
  show i ∈ ((View.whole main_v3).slice (win3_4.rect ⟨63, loss_last_lt⟩)).set
  rw [View.set_slice_whole, Rect.mem_set_unit]
  intro a
  have h0 : (i 0).val < 1 := (i 0).isLt
  have h1 : (i 1).val < 1 := (i 1).isLt
  match a with
  | ⟨0, _⟩ =>
    show win3_4.index ⟨63, loss_last_lt⟩ (0 : Fin 2) * 1 ≤ (i 0).val ∧ (i 0).val < win3_4.index ⟨63, loss_last_lt⟩ (0 : Fin 2) * 1 + 1
    rw [e0]; omega
  | ⟨1, _⟩ =>
    show win3_4.index ⟨63, loss_last_lt⟩ (1 : Fin 2) * 1 ≤ (i 1).val ∧ (i 1).val < win3_4.index ⟨63, loss_last_lt⟩ (1 : Fin 2) * 1 + 1
    rw [e1]; omega

/-- The output array after the launch is what the last point's body left in the output block. -/
theorem lossArr (c : Dev nD) : (lossDat V c).arrAt 4 cfg3.N = (lossAt V c 63 loss_last_lt).1 :=
  (lossDat V c).arrAt_eq_of_cover 4 (lossAt V c 63 loss_last_lt).1 (loss_flushed V c) loss_cover

end Cert.KernelIdeal.Fr

end
-- ==== Proof.TailValue.lean ====
/-
  The last three host operations, read on the extended reals.

  After the loss region the program views its 1 × 1 result as a scalar, writes the constant word of 2^24, and divides
  the one by the other. Whatever the buffers hold when these three operations start, the final scalar is the entry
  `(0, 0)` of the 1 × 1 buffer divided by `count`: a reshape between two shapes with one element each reads that one
  element, a splat constant reads its word, and the host's division is the division of the extended reals.
-/
import proofs.«171225_j23708219474596_1_alg».proof.Proof.Gen.KernelIdeal.Launch
import proofs.«171225_j23708219474596_1_alg».proof.Proof.Spec
import Idealize.ShloMosaic.Lib.StableHlo.Run
import Idealize.ShloMosaic.PureOps.Ideal.Laws
import Idealize.ShloMosaic.Lib.ValueIdx
import Idealize.ShloMosaic.Lib.Pipeline.Value

noncomputable section

namespace Cert.KernelIdeal.PayValue

open Cert.KernelIdeal Cert.KernelIdeal.Gen Idealize.ShloMosaic Idealize.ShloMosaic.ValueIdx

/-- A 1 × 1 array viewed as a scalar: the scalar's one entry is the array's entry `(0, 0)`. -/
theorem scalarCast_apply {α : Type} (v : S1x1.Idx → α) (h : S1x1.ShapeCasts S_) (i : S_.Idx) :
    shapeCast S_ v h i = v (ix2 0 0) :=
  shapeCast_apply v h i (ix2 0 0) (by
    rw [Shape.rowMajor_val_two]
    show (0 : Fin 1).val * 1 + (0 : Fin 1).val = (Shape.rowMajorPi _ i).val
    rw [Shape.rowMajorPi_zero]
    rfl)

/-- The program's last scalar, from any contents `W` of the buffers before the three operations. -/
theorem tail_apply (W : Valuation τ sig (Elt Ideal)) :
    StableHlo.after (hostOps4 (F := Ideal)) W (Proc.devRef .tc main_v5)
      = fun _ => Ideal.div ((W (Proc.devRef .tc main_v3) : S1x1.Idx → EReal) (ix2 0 0)) Cert.Spec.count := by
  after_results
  funext i
  -- the division at the scalar's one index: the reshaped entry over the constant's word
  show Ideal.div (shapeCast S_ (W (Proc.devRef .tc main_v3)) shapeCasts_S1x1_S_ i) Cert.Spec.count = _
  exact congrArg (fun t => Ideal.div t Cert.Spec.count) (scalarCast_apply _ _ i)

end Cert.KernelIdeal.PayValue

end
-- ==== Proof.KernelValue.lean ====
/-
  The idealized kernel's result, as a function of its four argument arrays.

  The three normalization launches leave the row-normalized matrices; the loss launch walks the 64 tiles and leaves,
  in its 1 x 1 output, the tiles' summed costs added up in grid order; the closing host operations divide that by
  2^24. Re-grouped over the 4096 x 4096 pairs this is the specification's `result`.
-/
import proofs.«171225_j23708219474596_1_alg».proof.Proof.FrRunKI
import proofs.«171225_j23708219474596_1_alg».proof.Proof.NormArr
import proofs.«171225_j23708219474596_1_alg».proof.Proof.LossBlocks
import proofs.«171225_j23708219474596_1_alg».proof.Proof.LossValue
import proofs.«171225_j23708219474596_1_alg».proof.Proof.LossArr
import proofs.«171225_j23708219474596_1_alg».proof.Proof.TailValue
import proofs.«171225_j23708219474596_1_alg».proof.Proof.TileSum
import proofs.«171225_j23708219474596_1_alg».proof.Proof.Spec

set_option maxRecDepth 16384

noncomputable section

namespace Cert.KernelIdeal.Fr

open Cert.KernelIdeal Cert.KernelIdeal.Gen Cert.KernelIdeal.PayValue
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## What the loss launch finds in its four arrays -/

/-- The first feature matrix, row-normalized by launch 0 and untouched by launches 1 and 2. -/
theorem found_v0 (c : Dev nD) : V3 (F := Ideal) m ρ c main_v0 = nrmArr (m ((c : Thread nD τ).loc main_arg0)) :=
  calc V3 (F := Ideal) m ρ c main_v0
    _ = W2 m ρ c (Proc.devRef .tc main_v0) := W3_of_ne m ρ c main_v0 (by decide)
    _ = W1 m ρ c (Proc.devRef .tc main_v0) := W2_of_ne m ρ c main_v0 (by decide)
    _ = (rowsDat0 (V0 m ρ) c).arrAt 1 cfg0.N := W1_arr m ρ c 1
    _ = nrmArr (V0 m ρ c main_arg0) := normArr0_eq (V0 m ρ) c
    _ = nrmArr (m ((c : Thread nD τ).loc main_arg0)) := rfl

/-- The second feature matrix, row-normalized by launch 1. -/
theorem found_v1 (c : Dev nD) : V3 (F := Ideal) m ρ c main_v1 = nrmArr (m ((c : Thread nD τ).loc main_arg1)) :=
  calc V3 (F := Ideal) m ρ c main_v1
    _ = W2 m ρ c (Proc.devRef .tc main_v1) := W3_of_ne m ρ c main_v1 (by decide)
    _ = (rowsDat1 (V1 m ρ) c).arrAt 1 cfg1.N := W2_arr m ρ c 1
    _ = nrmArr (V1 m ρ c main_arg1) := normArr1_eq (V1 m ρ) c
    _ = nrmArr (m ((c : Thread nD τ).loc main_arg1)) := congrArg nrmArr ((W1_of_ne m ρ c main_arg1 (by decide)).trans rfl)

/-- The text matrix, row-normalized by launch 2. -/
theorem found_v2 (c : Dev nD) : V3 (F := Ideal) m ρ c main_v2 = nrmArr (m ((c : Thread nD τ).loc main_arg2)) :=
  calc V3 (F := Ideal) m ρ c main_v2
    _ = (rowsDat2 (V2 m ρ) c).arrAt 1 cfg2.N := W3_arr m ρ c 1
    _ = nrmArr (V2 m ρ c main_arg2) := normArr2_eq (V2 m ρ) c
    _ = nrmArr (m ((c : Thread nD τ).loc main_arg2)) := congrArg nrmArr ((W2_of_ne m ρ c main_arg2 (by decide)).trans ((W1_of_ne m ρ c main_arg2 (by decide)).trans rfl))

/-- The labels, as launched. -/
theorem found_arg3 (c : Dev nD) : V3 (F := Ideal) m ρ c main_arg3 = (m ((c : Thread nD τ).loc main_arg3)) :=
  (W3_of_ne m ρ c main_arg3 (by decide)).trans ((W2_of_ne m ρ c main_arg3 (by decide)).trans ((W1_of_ne m ρ c main_arg3 (by decide)).trans rfl))

/-! ## One tile, over what the loss launch finds -/

theorem nrmArr_apply (a : S4096x1024.Idx → EReal) (i : Fin 4096) (k : Fin 1024) :
    nrmArr a (ix2 i k) = Cert.Spec.nrm (fun i k => a (ix2 i k)) i k := rfl

/-- Tile `t`'s summed cost: the rows 512 (t / 8) + r of the two normalized feature matrices against the rows
    512 (t % 8) + c' of the normalized text matrix, under the labels at those pairs. -/
theorem tile_found (c : Dev nD) (t : Fin cfg3.N) :
    tileSum (blk3 (V3 (F := Ideal) m ρ) c 0 t) (blk3 (V3 (F := Ideal) m ρ) c 1 t) (blk3 (V3 (F := Ideal) m ρ) c 2 t) (blk3 (V3 (F := Ideal) m ρ) c 3 t)
      = ∑ r : Fin 512, ∑ c' : Fin 512,
          (Cert.Spec.pair ((fun i j => (m ((c : Thread nD τ).loc main_arg3)) (ix2 i j)) ⟨512 * (t.val / 8) + r.val, loss_row_lt t r⟩ ⟨512 * (t.val % 8) + c'.val, loss_col_lt t c'⟩)
              (∑ k : Fin 1024, Cert.Spec.nrm (fun i k => (m ((c : Thread nD τ).loc main_arg0)) (ix2 i k)) ⟨512 * (t.val / 8) + r.val, loss_row_lt t r⟩ k * Cert.Spec.nrm (fun i k => (m ((c : Thread nD τ).loc main_arg2)) (ix2 i k)) ⟨512 * (t.val % 8) + c'.val, loss_col_lt t c'⟩ k)
           + Cert.Spec.pair ((fun i j => (m ((c : Thread nD τ).loc main_arg3)) (ix2 i j)) ⟨512 * (t.val / 8) + r.val, loss_row_lt t r⟩ ⟨512 * (t.val % 8) + c'.val, loss_col_lt t c'⟩)
              (∑ k : Fin 1024, Cert.Spec.nrm (fun i k => (m ((c : Thread nD τ).loc main_arg1)) (ix2 i k)) ⟨512 * (t.val / 8) + r.val, loss_row_lt t r⟩ k * Cert.Spec.nrm (fun i k => (m ((c : Thread nD τ).loc main_arg2)) (ix2 i k)) ⟨512 * (t.val % 8) + c'.val, loss_col_lt t c'⟩ k)) := by
  unfold tileSum
  refine Finset.sum_congr rfl fun r _ => Finset.sum_congr rfl fun c' _ => ?_
  rw [blk3_3_apply (V3 (F := Ideal) m ρ) c t r c', found_arg3 m ρ c]
  have e0 : ∀ k : Fin 1024, blk3 (V3 (F := Ideal) m ρ) c 0 t (ix2 r k) = Cert.Spec.nrm (fun i k => (m ((c : Thread nD τ).loc main_arg0)) (ix2 i k)) ⟨512 * (t.val / 8) + r.val, loss_row_lt t r⟩ k :=
    fun k => (blk3_0_apply (V3 (F := Ideal) m ρ) c t r k).trans (by rw [found_v0 m ρ c]; exact nrmArr_apply _ _ _)
  have e1 : ∀ k : Fin 1024, blk3 (V3 (F := Ideal) m ρ) c 1 t (ix2 r k) = Cert.Spec.nrm (fun i k => (m ((c : Thread nD τ).loc main_arg1)) (ix2 i k)) ⟨512 * (t.val / 8) + r.val, loss_row_lt t r⟩ k :=
    fun k => (blk3_1_apply (V3 (F := Ideal) m ρ) c t r k).trans (by rw [found_v1 m ρ c]; exact nrmArr_apply _ _ _)
  have e2 : ∀ k : Fin 1024, blk3 (V3 (F := Ideal) m ρ) c 2 t (ix2 c' k) = Cert.Spec.nrm (fun i k => (m ((c : Thread nD τ).loc main_arg2)) (ix2 i k)) ⟨512 * (t.val % 8) + c'.val, loss_col_lt t c'⟩ k :=
    fun k => (blk3_2_apply (V3 (F := Ideal) m ρ) c t c' k).trans (by rw [found_v2 m ρ c]; exact nrmArr_apply _ _ _)
  simp only [e0, e1, e2]

/-! ## The result -/

/-- The result buffer after the whole program: the specification's `result` of the launch arguments. -/
theorem result_spec (c : Dev nD) :
    W5 (F := Ideal) m ρ c (Proc.devRef .tc main_v5)
      = fun _ => Cert.Spec.result (fun i k => (m ((c : Thread nD τ).loc main_arg0)) (ix2 i k)) (fun i k => (m ((c : Thread nD τ).loc main_arg1)) (ix2 i k)) (fun i k => (m ((c : Thread nD τ).loc main_arg2)) (ix2 i k)) (fun i j => (m ((c : Thread nD τ).loc main_arg3)) (ix2 i j)) := by
  rw [show W5 (F := Ideal) m ρ c = StableHlo.after (hostOps4 (F := Ideal)) (W4 m ρ c) from rfl, tail_apply]
  funext _
  unfold Cert.Spec.result
  refine congrArg (fun x => Ideal.div x Cert.Spec.count) ?_
  -- the 1 x 1 output array of the loss launch: the last point's accumulator, the 64 tiles' sums added up
  rw [show (W4 (F := Ideal) m ρ c (Proc.devRef .tc main_v3) : S1x1.Idx → EReal) = (lossDat (V3 m ρ) c).arrAt 4 cfg3.N from W4_arr m ρ c 4]
  have hsum : ((lossDat (V3 (F := Ideal) m ρ) c).arrAt 4 cfg3.N : S1x1.Idx → EReal) (ix2 0 0)
      = ∑ t : Fin cfg3.N, tileSum (blk3 (V3 (F := Ideal) m ρ) c 0 t) (blk3 (V3 (F := Ideal) m ρ) c 1 t) (blk3 (V3 (F := Ideal) m ρ) c 2 t) (blk3 (V3 (F := Ideal) m ρ) c 3 t) :=
    (congrFun (lossArr (V3 (F := Ideal) m ρ) c) (ix2 0 0)).trans (loss_total_out (V3 (F := Ideal) m ρ) c loss_last_lt)
  rw [hsum]
  simp only [tile_found m ρ c]
  exact (Cert.Spec.tiles_result (Cert.Spec.nrm (fun i k => (m ((c : Thread nD τ).loc main_arg0)) (ix2 i k))) (Cert.Spec.nrm (fun i k => (m ((c : Thread nD τ).loc main_arg1)) (ix2 i k))) (Cert.Spec.nrm (fun i k => (m ((c : Thread nD τ).loc main_arg2)) (ix2 i k))) (fun i j => (m ((c : Thread nD τ).loc main_arg3)) (ix2 i j)))

end Cert.KernelIdeal.Fr

end
-- ==== Proof.RefValue.lean ====
/-
  The reference program's result, read as the specification.

  The reference divides each row of its three 4096 × 1024 arguments by the row's Euclidean norm clamped below by the
  literal 1e-8, contracts the divided first (and second) matrix with the divided third along the 1024 columns, turns
  every similarity `s` with its label `l` into `l * (1 - s) + (1 - l) * max (s - 1/2) 0`, sums that over all
  4096 × 4096 pairs for each of the two similarity matrices, adds the two sums and divides by the literal 2^24.
  Read one element at a time this is `Cert.Spec.result` of the four arguments: a sum over one row is the sum over the
  row's column coordinate, a sum over every index of a matrix is the double sum over its two coordinates, a sum that
  starts from the zero word starts from `0`, and every other literal is the same word on both sides.
-/
import proofs.«171225_j23708219474596_1_alg».proof.Proof.Gen.ReferenceIdeal.Read
import proofs.«171225_j23708219474596_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx
  Idealize.ShloMosaic.TcCoe Idealize.SL.Sem Idealize.ShloMosaic.StableHlo

/-! ## One row's norm -/

/-- The sum of squares of row `i`: the reduction along the columns starts from the zero word, which is `0`. -/
theorem sqsum_eq (x : FVec Ideal S4096x1024 .f32) (i : Fin 4096) :
    Read.val_main_call0_v1 (F := Ideal) x (ix1 i) = ∑ k : Fin 1024, x (ix2 i k) * x (ix2 i k) := by
  rw [Read.val_main_call0_v1_apply, Read.val_main_call0_cst_apply, Ideal.ofBits_def, Ideal.ofBits_zero_f32, zero_add]
  refine Finset.sum_congr rfl fun k _ => ?_
  have e : Read.idx_main_call0_v1 (ix1 i) k = ix2 i k :=
    funext fun a => Fin.ext (by match a with | ⟨0, _⟩ => rfl | ⟨1, _⟩ => rfl)
  rw [Read.val_main_call0_v0_apply, Ideal.mulf_def, e]

/-- What row `i` is divided by, kept as a column: the square root of the row's sum of squares, clamped below by the
    literal. -/
theorem denom_eq (x : FVec Ideal S4096x1024 .f32) (i : Fin 4096) (z : Fin 1) :
    Read.val_main_v2 (F := Ideal) x (ix2 i z) = Cert.Spec.denom (fun i k => x (ix2 i k)) i := by
  have e : Read.idx_main_call0_v2 (ix2 i z) = ix1 i :=
    funext fun a => Fin.ext (by match a with | ⟨0, _⟩ => rfl)
  rw [Read.val_main_v2_apply, Read.val_main_v0_apply, Read.val_main_call0_v2_apply, Read.val_main_v1_apply,
    Read.val_main_cst_apply, e, sqsum_eq]
  simp only [Ideal.maximumf_def, Ideal.hostUnary_sqrt_def, Ideal.ofBits_def, Cert.Spec.denom, Cert.Spec.eps]

/-- The third argument's divided row. -/
theorem nrm_eq (x : FVec Ideal S4096x1024 .f32) (i : Fin 4096) (k : Fin 1024) :
    Read.val_main_v4 (F := Ideal) x (ix2 i k) = Cert.Spec.nrm (fun i k => x (ix2 i k)) i k := by
  have e : Read.idx_main_v3 (ix2 i k) = ix2 i (0 : Fin 1) :=
    funext fun a => Fin.ext (by match a with | ⟨0, _⟩ => rfl | ⟨1, _⟩ => rfl)
  rw [Read.val_main_v4_apply, Read.val_main_v3_apply, e, denom_eq, Ideal.hostDivf_def]
  rfl

/-- The first argument's divided row: the second call of the row normalization is the same function. -/
theorem nrm0_eq (x : FVec Ideal S4096x1024 .f32) (i : Fin 4096) (k : Fin 1024) :
    Read.val_main_v9 (F := Ideal) x (ix2 i k) = Cert.Spec.nrm (fun i k => x (ix2 i k)) i k :=
  nrm_eq x i k

/-- The second argument's divided row: the third call of the row normalization is the same function. -/
theorem nrm1_eq (x : FVec Ideal S4096x1024 .f32) (i : Fin 4096) (k : Fin 1024) :
    Read.val_main_v14 (F := Ideal) x (ix2 i k) = Cert.Spec.nrm (fun i k => x (ix2 i k)) i k :=
  nrm_eq x i k

/-! ## The similarities -/

/-- Row `i` of the first divided matrix against row `j` of the divided third: the contraction runs over the columns
    of both. -/
theorem sim0_eq (x0 x2 : FVec Ideal S4096x1024 .f32) (i j : Fin 4096) :
    Read.val_main_v15 (F := Ideal) x0 x2 (ix2 i j)
      = Cert.Spec.sim (fun i k => x0 (ix2 i k)) (fun i k => x2 (ix2 i k)) i j := by
  rw [Read.val_main_v15_apply]
  unfold Cert.Spec.sim
  refine Finset.sum_congr rfl fun k _ => ?_
  have el : Read.lidx_main_v15 (ix2 i j) k = ix2 i k :=
    funext fun a => Fin.ext (by match a with | ⟨0, _⟩ => rfl | ⟨1, _⟩ => rfl)
  have er : Read.ridx_main_v15 (ix2 i j) k = ix2 j k :=
    funext fun a => Fin.ext (by match a with | ⟨0, _⟩ => rfl | ⟨1, _⟩ => rfl)
  rw [el, er, nrm0_eq, nrm_eq]

/-- The same for the second divided matrix. -/
theorem sim1_eq (x1 x2 : FVec Ideal S4096x1024 .f32) (i j : Fin 4096) :
    Read.val_main_v16 (F := Ideal) x1 x2 (ix2 i j)
      = Cert.Spec.sim (fun i k => x1 (ix2 i k)) (fun i k => x2 (ix2 i k)) i j := by
  rw [Read.val_main_v16_apply]
  unfold Cert.Spec.sim
  refine Finset.sum_congr rfl fun k _ => ?_
  have el : Read.lidx_main_v16 (ix2 i j) k = ix2 i k :=
    funext fun a => Fin.ext (by match a with | ⟨0, _⟩ => rfl | ⟨1, _⟩ => rfl)
  have er : Read.ridx_main_v16 (ix2 i j) k = ix2 j k :=
    funext fun a => Fin.ext (by match a with | ⟨0, _⟩ => rfl | ⟨1, _⟩ => rfl)
  rw [el, er, nrm1_eq, nrm_eq]

/-! ## The cost of one pair -/

/-- Pair `(i, j)` of the first similarity matrix: `l * (1 - s) + (1 - l) * max (s - 1/2) 0`, the clamp's zero word
    being `0`. -/
theorem pair0_eq (x0 x2 : FVec Ideal S4096x1024 .f32) (x3 : FVec Ideal S4096x4096 .f32) (i j : Fin 4096) :
    Read.val_main_v27 (F := Ideal) x0 x2 x3 (ix2 i j)
      = Cert.Spec.pair (x3 (ix2 i j)) (Cert.Spec.sim (fun i k => x0 (ix2 i k)) (fun i k => x2 (ix2 i k)) i j) := by
  rw [Read.val_main_v27_apply, Read.val_main_v19_apply, Read.val_main_v18_apply, Read.val_main_v17_apply,
    Read.val_main_cst_2_apply, Read.val_main_v26_apply, Read.val_main_v21_apply, Read.val_main_v20_apply,
    Read.val_main_cst_3_apply, Read.val_main_v25_apply, Read.val_main_v23_apply, Read.val_main_v22_apply,
    Read.val_main_cst_4_apply, Read.val_main_v24_apply, Read.val_main_cst_5_apply, sim0_eq]
  simp only [Ideal.addf_def, Ideal.mulf_def, Ideal.subf_def, Ideal.maximumf_def, Ideal.ofBits_def,
    Ideal.ofBits_zero_f32, Cert.Spec.pair, Cert.Spec.one, Cert.Spec.half]

/-- Pair `(i, j)` of the second similarity matrix. -/
theorem pair1_eq (x1 x2 : FVec Ideal S4096x1024 .f32) (x3 : FVec Ideal S4096x4096 .f32) (i j : Fin 4096) :
    Read.val_main_v39 (F := Ideal) x1 x2 x3 (ix2 i j)
      = Cert.Spec.pair (x3 (ix2 i j)) (Cert.Spec.sim (fun i k => x1 (ix2 i k)) (fun i k => x2 (ix2 i k)) i j) := by
  rw [Read.val_main_v39_apply, Read.val_main_v31_apply, Read.val_main_v30_apply, Read.val_main_v29_apply,
    Read.val_main_cst_7_apply, Read.val_main_v38_apply, Read.val_main_v33_apply, Read.val_main_v32_apply,
    Read.val_main_cst_8_apply, Read.val_main_v37_apply, Read.val_main_v35_apply, Read.val_main_v34_apply,
    Read.val_main_cst_9_apply, Read.val_main_v36_apply, Read.val_main_cst_10_apply, sim1_eq]
  simp only [Ideal.addf_def, Ideal.mulf_def, Ideal.subf_def, Ideal.maximumf_def, Ideal.ofBits_def,
    Ideal.ofBits_zero_f32, Cert.Spec.pair, Cert.Spec.one, Cert.Spec.half]

/-! ## The two totals and the result -/

/-- The sum over every index of the first cost matrix, from the zero word, is the double sum over rows and columns. -/
theorem total0_eq (x0 x2 : FVec Ideal S4096x1024 .f32) (x3 : FVec Ideal S4096x4096 .f32) (i : S_.Idx) :
    Read.val_main_v28 (F := Ideal) x0 x2 x3 i
      = Cert.Spec.total (fun i k => x0 (ix2 i k)) (fun i k => x2 (ix2 i k)) (fun i j => x3 (ix2 i j)) := by
  rw [Read.val_main_v28_apply, Read.val_main_cst_6_apply, Ideal.ofBits_def, Ideal.ofBits_zero_f32, zero_add, sum_idx2]
  unfold Cert.Spec.total
  exact Finset.sum_congr rfl fun a _ => Finset.sum_congr rfl fun b _ => pair0_eq x0 x2 x3 a b

/-- The same for the second cost matrix. -/
theorem total1_eq (x1 x2 : FVec Ideal S4096x1024 .f32) (x3 : FVec Ideal S4096x4096 .f32) (i : S_.Idx) :
    Read.val_main_v40 (F := Ideal) x1 x2 x3 i
      = Cert.Spec.total (fun i k => x1 (ix2 i k)) (fun i k => x2 (ix2 i k)) (fun i j => x3 (ix2 i j)) := by
  rw [Read.val_main_v40_apply, Read.val_main_cst_11_apply, Ideal.ofBits_def, Ideal.ofBits_zero_f32, zero_add, sum_idx2]
  unfold Cert.Spec.total
  exact Finset.sum_congr rfl fun a _ => Finset.sum_congr rfl fun b _ => pair1_eq x1 x2 x3 a b

/-- The reference's result, as a function of its four arguments, is the specification's: the first argument and the
    second are the two feature matrices, the third is the matrix both are compared with, the fourth the labels. -/
theorem ref_eq (a0 a1 a2 : FVec Ideal S4096x1024 .f32) (a3 : FVec Ideal S4096x4096 .f32) :
    Read.val_main_v42 (F := Ideal) a0 a1 a2 a3
      = fun _ => Cert.Spec.result (fun i k => a0 (ix2 i k)) (fun i k => a1 (ix2 i k)) (fun i k => a2 (ix2 i k))
          (fun i j => a3 (ix2 i j)) := by
  funext i
  rw [Read.val_main_v42_apply, Read.val_main_v41_apply, Read.val_main_cst_12_apply, total0_eq, total1_eq]
  simp only [Ideal.hostDivf_def, Ideal.addf_def, Ideal.ofBits_def, Cert.Spec.result, Cert.Spec.count]

/-! ## The reference's run -/

/-- Every weakly fair execution of the reference terminates with its result buffer holding the specification of the
    arguments' launch contents, and the arguments unchanged. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v42)
          = (fun _ => Cert.Spec.result
              (fun i k => m ((c.tc : Thread nD τ).loc main_arg0) (ix2 i k))
              (fun i k => m ((c.tc : Thread nD τ).loc main_arg1) (ix2 i k))
              (fun i k => m ((c.tc : Thread nD τ).loc main_arg2) (ix2 i k))
              (fun i j => m ((c.tc : Thread nD τ).loc main_arg3) (ix2 i j)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run _ _ _).mono
    (fun _ h c => ⟨(h c).1.trans ((Read.val_main_v42_eq m c).trans (ref_eq _ _ _ _)), (h c).2⟩)
    (Cert.ReferenceIdeal.Value.run (F := Ideal) m ρ)

end Cert.ReferenceIdeal.RefValue

end
-- ==== Proof.lean ====
/-
  The proof of `Cert.Claim`: the kernel (three row-normalization launches and a fused similarity-and-margin-loss
  launch) against the plain reference, on the extended reals.

  Both programs compute, from three 4096 x 1024 matrices f0, f1, t and 4096 x 4096 labels l, the mean over all pairs
  (i, j) of  l (1 - s) + (1 - l) max (s - 1/2) 0  summed over the two similarities s = <f0 i, t j> and <f1 i, t j> of
  rows divided by their clamped Euclidean norms (`Cert.Spec.result`). The kernel forms the sum tile by tile in an
  accumulator, the reference as two whole-array sums: re-grouping a finite sum in the commutative monoid of the
  extended reals joins them, and no finiteness of the inputs is used.

  The frames: each kernel region's body obligation and its segment record are in the modules FrNorm*, FrLoss*,
  FrRun* (one copy per program, generic in the float instance); the reference's frame is its generated run.
-/
import proofs.«171225_j23708219474596_1_alg».proof.Defs
import proofs.«171225_j23708219474596_1_alg».proof.Proof.Gen.Kernel
import proofs.«171225_j23708219474596_1_alg».proof.Proof.Gen.KernelIdeal
import proofs.«171225_j23708219474596_1_alg».proof.Proof.Gen.ReferenceIdeal
import proofs.«171225_j23708219474596_1_alg».proof.Proof.Gen.Pre_finite_inputs
import proofs.«171225_j23708219474596_1_alg».proof.Proof.FrRunK
import proofs.«171225_j23708219474596_1_alg».proof.Proof.FrRunKI
import proofs.«171225_j23708219474596_1_alg».proof.Proof.KernelValue
import proofs.«171225_j23708219474596_1_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs to the end, faults nowhere and leaves its arguments as launched. -/
theorem frame_kernel : Cert.frame_Kernel := fun m ρ _ =>
  (θ_run Cert.Kernel.defs _ _).mono (fun _ h c => (h c).2) (Cert.Kernel.Fr.run (F := Bits) m ρ)

/-- The same of the kernel read on the extended reals. -/
theorem frame_ideal : Cert.frame_KernelIdeal := fun m ρ _ =>
  (θ_run Cert.KernelIdeal.defs _ _).mono (fun _ h c => (h c).2) (Cert.KernelIdeal.Fr.run (F := Ideal) m ρ)

/-- The reference's frame: its run with the result dropped. -/
theorem frame_reference : Cert.frame_ReferenceIdeal := fun m ρ _ =>
  (θ_run Cert.ReferenceIdeal.defs _ _).mono (fun _ h c => (h c).2) (Cert.ReferenceIdeal.RefValue.run_spec m ρ)

/-- The ideal pass rewrote no operation of the kernel. -/
theorem preserves : Cert.preserves_Kernel_KernelIdeal := trivial

/-- On the extended reals both programs end at the specification's `result` of their (equal) arguments. -/
theorem algebraic : Cert.algebraic_KernelIdeal_ReferenceIdeal := by
  intro m ρ m' ρ' _ hagree
  refine ⟨fun c => fun _ => Cert.Spec.result (fun i k => m ((c.tc : Thread Cert.KernelIdeal.nD Cert.KernelIdeal.τ).loc Cert.KernelIdeal.main_arg0) (ix2 i k)) (fun i k => m ((c.tc : Thread Cert.KernelIdeal.nD Cert.KernelIdeal.τ).loc Cert.KernelIdeal.main_arg1) (ix2 i k)) (fun i k => m ((c.tc : Thread Cert.KernelIdeal.nD Cert.KernelIdeal.τ).loc Cert.KernelIdeal.main_arg2) (ix2 i k)) (fun i j => m ((c.tc : Thread Cert.KernelIdeal.nD Cert.KernelIdeal.τ).loc Cert.KernelIdeal.main_arg3) (ix2 i j)), ?_, ?_⟩
  · exact (θ_run Cert.KernelIdeal.defs _ _).mono (fun _ h c => ⟨(h c).1.trans (Cert.KernelIdeal.Fr.result_spec m ρ c), (h c).2⟩)
      (Cert.KernelIdeal.Fr.run (F := Ideal) m ρ)
  · refine (θ_run Cert.ReferenceIdeal.defs _ _).mono (fun _ h c => ⟨?_, (h c).2⟩) (Cert.ReferenceIdeal.RefValue.run_spec m' ρ')
    rw [(h c).1, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
